-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S4096x512 .f32) (main_arg1 : FVec F S4096x512 .f32) (main_arg2 : FVec F S4096x512 .f32) (main_arg3 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_v13 main_v16
-- ==== Kernel.lean ====
abbrev S4096x512 : Shape := ⟨2, ![4096, 512]⟩
abbrev S1024x512 : Shape := ⟨2, ![1024, 512]⟩
abbrev S1024 : Shape := ⟨1, ![1024]⟩
abbrev S1024x1 : Shape := ⟨2, ![1024, 1]⟩
abbrev S4x8x128 : Shape := ⟨3, ![4, 8, 128]⟩
abbrev S512x512 : Shape := ⟨2, ![512, 512]⟩
abbrev S1x8x128 : Shape := ⟨3, ![1, 8, 128]⟩
abbrev S8x128 : Shape := ⟨2, ![8, 128]⟩
abbrev S1 : Shape := ⟨1, ![1]⟩
abbrev S1x1 : Shape := ⟨2, ![1, 1]⟩
abbrev S4x1x1 : Shape := ⟨3, ![4, 1, 1]⟩
abbrev S4 : Shape := ⟨1, ![4]⟩
abbrev S_ : Shape := ⟨0, ![]⟩

abbrev nBuf : Space → Nat
  | .hbm => 17
  | .vmem => 35
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S4x8x128, .f32⟩
  | .hbm, ⟨9, _⟩ => ⟨S4x1x1, .f32⟩
  | .hbm, ⟨10, _⟩ => ⟨S4, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S512x512, .bf16⟩
  | .local _ .vmem, ⟨19, _⟩ => ⟨S512x512, .bf16⟩
  | .local _ .vmem, ⟨20, _⟩ => ⟨S1024x512, .bf16⟩
  | .local _ .vmem, ⟨21, _⟩ => ⟨S1024x512, .bf16⟩
  | .local _ .vmem, ⟨22, _⟩ => ⟨S512x512, .bf16⟩
  | .local _ .vmem, ⟨23, _⟩ => ⟨S512x512, .bf16⟩
  | .local _ .vmem, ⟨24, _⟩ => ⟨S1024x512, .bf16⟩
  | .local _ .vmem, ⟨25, _⟩ => ⟨S1024x512, .bf16⟩
  | .local _ .vmem, ⟨26, _⟩ => ⟨S512x512, .bf16⟩
  | .local _ .vmem, ⟨27, _⟩ => ⟨S512x512, .bf16⟩
  | .local _ .vmem, ⟨28, _⟩ => ⟨S1024x512, .bf16⟩
  | .local _ .vmem, ⟨29, _⟩ => ⟨S1024x512, .bf16⟩
  | .local _ .vmem, ⟨30, _⟩ => ⟨S512x512, .bf16⟩
  | .local _ .vmem, ⟨31, _⟩ => ⟨S512x512, .bf16⟩
  | .local _ .vmem, ⟨32, _⟩ => ⟨S1x8x128, .f32⟩
  | .local _ .vmem, ⟨33, _⟩ => ⟨S1x8x128, .f32⟩
  | .local _ .vmem, ⟨34, _⟩ => ⟨S8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc1_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v50 : BitVec 1 := Scalar.cmpi .eq arg1 c7_i32
  let v51 : BitVec 32 := Scalar.extui v50
  let c0_i32_29 : BitVec 32 := 0#32
  let v52 : BitVec 1 := Scalar.cmpi .ne v51 c0_i32_29
  v52

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S1x8x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S4x8x128_S4x1x1_0_0_0 : S4x8x128.Slices ![0, 0, 0] S4x1x1
  shapeCasts_S4x1x1_S4 : S4x1x1.ShapeCasts S4
  reducesTo_S4_S_d0 : S4.ReducesTo [0] S_
  h_S_ : 0 < S_.numel
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .f32 = 32 ∨ (Rect.block (s := S4096x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x512.size a
  hwx0_2 : ∀ i : grid0.Coords, EltTy.bits .f32 = 32 ∨ (Rect.block (s := S4096x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x512.size a
  hwx0_3 : ∀ i : grid0.Coords, EltTy.bits .f32 = 32 ∨ (Rect.block (s := S4096x512) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x512.size a
  hwx0_4 : ∀ i : grid0.Coords, EltTy.bits .bf16 = 32 ∨ (Rect.block (s := S4096x512) S1024x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S4096x512.size a
  hwx0_5 : ∀ i : grid0.Coords, EltTy.bits .bf16 = 32 ∨ (Rect.block (s := S4096x512) S1024x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S4096x512.size a
  hwx0_6 : ∀ i : grid0.Coords, EltTy.bits .bf16 = 32 ∨ (Rect.block (s := S4096x512) S1024x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S4096x512.size a
  hwx0_7 : ∀ i : grid0.Coords, EltTy.bits .bf16 = 32 ∨ (Rect.block (s := S4096x512) S1024x512.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x512.size a
  hwx1_0 : ∀ i : grid1.Coords, EltTy.bits .bf16 = 32 ∨ (Rect.block (s := S4096x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x512.size a
  hwx1_1 : ∀ i : grid1.Coords, EltTy.bits .bf16 = 32 ∨ (Rect.block (s := S4096x512) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S4096x512.size a
  hwx1_2 : ∀ i : grid1.Coords, EltTy.bits .bf16 = 32 ∨ (Rect.block (s := S4096x512) S1024x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S4096x512.size a
  hwx1_3 : ∀ i : grid1.Coords, EltTy.bits .bf16 = 32 ∨ (Rect.block (s := S4096x512) S512x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S4096x512.size a
  hwx1_4 : ∀ i : grid1.Coords, EltTy.bits .bf16 = 32 ∨ (Rect.block (s := S4096x512) S1024x512.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S4096x512.size a
  hwx1_5 : ∀ i : grid1.Coords, EltTy.bits .bf16 = 32 ∨ (Rect.block (s := S4096x512) S512x512.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x512.size a ≤ S4096x512.size a
  hwx1_6 : ∀ i : grid1.Coords, EltTy.bits .bf16 = 32 ∨ (Rect.block (s := S4096x512) S1024x512.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S4096x512.size a
  hwx1_7 : ∀ i : grid1.Coords, EltTy.bits .bf16 = 32 ∨ (Rect.block (s := S4096x512) S512x512.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x8x128.size a ≤ S4x8x128.size a
  hwx1_8 : ∀ i : grid1.Coords, EltTy.bits .f32 = 32 ∨ (Rect.block (s := S4x8x128) S1x8x128.size (cc1_transform_8 i) (hinb1_8 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1024x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_3) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0_0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_2) S1024x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v0_2) S512x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v0_3) S1024x512.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v0_3) S512x512.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v1) S1x8x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S512x4096 : Shape := ⟨2, ![512, 4096]⟩
abbrev S4096x4096 : Shape := ⟨2, ![4096, 4096]⟩

abbrev nBuf : Space → Nat
  | .hbm => 90
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x512, .f32⟩
  | .hbm, ⟨13, _⟩ => ⟨S4096x512, .f32⟩
  | .hbm, ⟨14, _⟩ => ⟨S512x4096, .f32⟩
  | .hbm, ⟨15, _⟩ => ⟨S4096x4096, .f32⟩
  | .hbm, ⟨16, _⟩ => ⟨S4096x512, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x512, .f32⟩
  | .hbm, ⟨25, _⟩ => ⟨S4096x512, .f32⟩
  | .hbm, ⟨26, _⟩ => ⟨S512x4096, .f32⟩
  | .hbm, ⟨27, _⟩ => ⟨S4096x4096, .f32⟩
  | .hbm, ⟨28, _⟩ => ⟨S4096x512, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x512, .f32⟩
  | .hbm, ⟨37, _⟩ => ⟨S4096x512, .f32⟩
  | .hbm, ⟨38, _⟩ => ⟨S512x4096, .f32⟩
  | .hbm, ⟨39, _⟩ => ⟨S4096x4096, .f32⟩
  | .hbm, ⟨40, _⟩ => ⟨S4096x512, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x512, .f32⟩
  | .hbm, ⟨49, _⟩ => ⟨S4096x512, .f32⟩
  | .hbm, ⟨50, _⟩ => ⟨S512x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4096x4096, .f32⟩
  | .hbm, ⟨66, _⟩ => ⟨S4096x4096, .f32⟩
  | .hbm, ⟨67, _⟩ => ⟨S_, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S4096x4096, .f32⟩
  | .hbm, ⟨78, _⟩ => ⟨S4096x4096, .f32⟩
  | .hbm, ⟨79, _⟩ => ⟨S_, .f32⟩
  | .hbm, ⟨80, _⟩ => ⟨S4096x4096, .f32⟩
  | .hbm, ⟨81, _⟩ => ⟨S4096x4096, .f32⟩
  | .hbm, ⟨82, _⟩ => ⟨S4096x4096, .f32⟩
  | .hbm, ⟨83, _⟩ => ⟨S4096x4096, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_call1_v2 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_v0 : Ref sig .tc := ⟨.hbm, 28, rfl⟩
abbrev main_call2_cst : Ref sig .tc := ⟨.hbm, 29, rfl⟩
abbrev main_call2_v1 : Ref sig .tc := ⟨.hbm, 30, rfl⟩
abbrev main_call2_v2 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_call3_v0 : Ref sig .tc := ⟨.hbm, 40, rfl⟩
abbrev main_call3_cst : Ref sig .tc := ⟨.hbm, 41, rfl⟩
abbrev main_call3_v1 : Ref sig .tc := ⟨.hbm, 42, rfl⟩
abbrev main_call3_v2 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_v37 : Ref sig .tc := ⟨.hbm, 66, rfl⟩
abbrev main_cst_8 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_9 : Ref sig .tc := ⟨.hbm, 72, rfl⟩
abbrev main_v42 : Ref sig .tc := ⟨.hbm, 73, rfl⟩
abbrev main_cst_10 : Ref sig .tc := ⟨.hbm, 74, rfl⟩
abbrev main_v43 : Ref sig .tc := ⟨.hbm, 75, rfl⟩
abbrev main_cst_11 : Ref sig .tc := ⟨.hbm, 76, rfl⟩
abbrev main_v44 : Ref sig .tc := ⟨.hbm, 77, rfl⟩
abbrev main_v45 : Ref sig .tc := ⟨.hbm, 78, rfl⟩
abbrev main_cst_12 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_13 : Ref sig .tc := ⟨.hbm, 84, rfl⟩
abbrev main_v50 : Ref sig .tc := ⟨.hbm, 85, rfl⟩
abbrev main_cst_14 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  transposes_S4096x512_S512x4096_1_0 : S4096x512.Transposes [1, 0] S512x4096
  bcast_S_S4096x4096 : S_.BroadcastsInDim S4096x4096 (![] : Fin 0 → Fin S4096x4096.rank)
  reducesTo_S4096x4096_S_d0_1 : S4096x4096.ReducesTo [0, 1] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.WR0Body.lean ====
/-
  The row-normalisation call, region 0 of the program, at a parameter `V`: the contents of the core's buffers when
  the region is entered.

  The call walks four grid points.  At each it is handed a block of 1024 rows of each of the four input maps and a
  staging buffer for the same rows of each of the four output maps.  The body reads each input block once and
  overwrites the matching output buffer, whole, with a pure function of that block alone (each row divided by the
  larger of its norm and a small constant, then rounded); it reads every output buffer just before overwriting it,
  and makes no use of what it read.  So after the body an input buffer holds its block as before and output buffer
  `4 + k` holds `out0_(4+k)` of input block `k`, whatever it held before.

  This module states that as the pipeline's proof data `dat0` and proves the body's obligation against it, at any
  float instance.
-/
import proofs.«181995_j31490700214616_2_alg».proof.Proof.Gen.Kernel.Launch
import proofs.«181995_j31490700214616_2_alg».proof.Proof.Gen.Kernel.Skeleton
import proofs.«181995_j31490700214616_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the entry contents and whose body leaves the block in place: the window is never cut and
    never idle, and where it is not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is the entry contents and whose body leaves the block in place: the window is never cut and
    never idle, and where it is not fetched its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is the entry contents and whose body leaves the block in place: the window is never cut and
    never idle, and where it is not fetched its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is the entry contents and whose body leaves the block in place: the window is never cut and
    never idle, and where it is not fetched its block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle every load and store of the body goes through: the whole 1024 x 512 buffer. -/
abbrev r0_0 : Rect S1024x512 := Rect.unit (s := S1024x512) ![0, 0] S1024x512.size inb_S1024x512_S1024x512_0_0

/-! ## What the body leaves in each output window's buffer -/

/-- Output buffer 4 after the body: its one store, of the normalised and rounded rows of input block 0. -/
def out0_4 (x0 : Vec F S1024x512 .f32) : Vec F S1024x512 .bf16 :=
  View.canon [⟨r0_0, k0_pay2 (View.ld x0 r0_0)⟩]
/-- Output buffer 5 after the body: its one store, of the normalised and rounded rows of input block 1. -/
def out0_5 (x1 : Vec F S1024x512 .f32) : Vec F S1024x512 .bf16 :=
  View.canon [⟨r0_0, k0_pay3 (View.ld x1 r0_0)⟩]
/-- Output buffer 6 after the body: its one store, of the normalised and rounded rows of input block 2. -/
def out0_6 (x2 : Vec F S1024x512 .f32) : Vec F S1024x512 .bf16 :=
  View.canon [⟨r0_0, k0_pay4 (View.ld x2 r0_0)⟩]
/-- Output buffer 7 after the body: its one store, of the normalised and rounded rows of input block 3 (the squares
    of the entries are formed in the first part of the body and handed to the second). -/
def out0_7 (x3 : Vec F S1024x512 .f32) : Vec F S1024x512 .bf16 :=
  View.canon [⟨r0_0, k0_pay1 (View.ld x3 r0_0) (k0_pay5 (View.ld x3 r0_0))⟩]

/-- One store through the whole-buffer rectangle covers the buffer. -/
theorem cover0 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

/-! ## The body's triple -/

set_option maxHeartbeats 4000000 in
/-- The body on whole staging memrefs, the inputs' at contents `x0 … x3` and the outputs' at anything, runs to the
    continuation holding the inputs' as they were and output `4 + k`'s at `out0_(4+k) xk`. -/
theorem sound_kernel0 (c : Dev nD) (E : Set ℕ) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole)
    (x0 : Vec F S1024x512 .f32) (x1 : Vec F S1024x512 .f32) (x2 : Vec F S1024x512 .f32) (x3 : Vec F S1024x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0) ∗ owns (c : Thread nD τ) arg6 fullShare (out0_5 x1) ∗ owns (c : Thread nD τ) arg7 fullShare (out0_6 x2) ∗ owns (c : Thread nD τ) arg8 fullShare (out0_7 x3)) -∗ K ⟨⟩))
      ⊢ wp frame (wpE (defs₀ (F := F)) Variants.none c none) E (cc0__normalize_cast_kernel i arg1 harg1 arg2 harg2 arg3 harg3 arg4 harg4 arg5 harg5 arg6 harg6 arg7 harg7 arg8 harg8) K := by
  simp only [cc0__normalize_cast_kernel_eq_skeleton]; unfold cc0__normalize_cast_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover0 _)
  isplitl [H5]
  · iexists _; isplitr
    swap; · iexact H5
    ipureintro
    try dsimp only
    exact View.read_writes_eq_canon _ _ _ (cover0 _)
  isplitl [H6]
  · iexists _; isplitr
    swap; · iexact H6
    ipureintro
    try dsimp only
    exact View.read_writes_eq_canon _ _ _ (cover0 _)
  iexists _; isplitr
  swap; · iexact H7
  ipureintro
  try dsimp only
  exact View.read_writes_eq_canon _ _ _ (cover0 _)

/-! ## The pipeline's proof data -/

/-- The proof data of the call on core `c`: the arrays as the region finds them; after the body at point `t` each
    input's buffer at its block and output `4 + k`'s at `out0_(4+k)` of input block `k`; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t)
    | ⟨5, _⟩ => out0_5 (iblk0 V c 1 t)
    | ⟨6, _⟩ => out0_6 (iblk0 V c 2 t)
    | ⟨7, _⟩ => out0_7 (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) := by dsimp only [dat0]
theorem after0_5 (c : Dev nD) (t : Fin cfg0.N) : (dat0 V c).after 5 t = out0_5 (iblk0 V c 1 t) := by dsimp only [dat0]
theorem after0_6 (c : Dev nD) (t : Fin cfg0.N) : (dat0 V c).after 6 t = out0_6 (iblk0 V c 2 t) := by dsimp only [dat0]
theorem after0_7 (c : Dev nD) (t : Fin cfg0.N) : (dat0 V c).after 7 t = out0_7 (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.WR1Runs.lean ====
import proofs.«181995_j31490700214616_2_alg».proof.Proof.Gen.Kernel.Launch
import proofs.«181995_j31490700214616_2_alg».proof.Proof.Gen.Kernel.Skeleton
import proofs.«181995_j31490700214616_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the Gram-difference kernel: what its three control cases share

The grid is 4 x 8; point `t` has coordinates `(t / 8, t % 8)`. Along the second axis the body accumulates into a
scratch vector: at the first column of a row of the grid it clears the scratch, at every column it adds the tile's
sum of squared Gram differences, at the last column it copies the scratch into the output block. Everything is
stated at a parameter `V`: the TensorCore's buffer contents when the region is entered. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The input windows hold their blocks

An input window that is not fetched at a point has the block index of the point before, so its staging buffer
still holds the point's block; the windows are uncut and never idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form -/

/-- The first conditional (clear the scratch): the second grid coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional (copy the scratch to the output block): the second grid coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
/-- Away from the last column the output window is idle and not written back. -/
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
/-- At the last column it is live. -/
theorem liveAt1_8 : ∀ t : Fin cfg1.N, cond1_1 (grid1.coords t) → cfg1.idle 8 (grid1.coords t) = false := by decide +kernel

/-! ## The point's memrefs -/

/-- One staging buffer of the output window, through which its contents are stated. -/
abbrev VO1_8 : View sig .tc .vmem S1x8x128 .f32 := (Memref.whole cc1_stg8_0 : Memref sig .tc .vmem S1x8x128 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x512 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x512 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x8x128 .f32 := win1_8.stage (cfg1.slots t 8)
abbrev hs1_8 (t : Fin cfg1.N) : (ms1_8 t).IsWhole := hstage1_8 ((cfg1.slots t 8).cast nbuf1_8)
/-- The scratch vector the body carries from point to point, as a memref and as a view. -/
abbrev scM1 : Memref sig .tc .vmem S8x128 .f32 := Memref.whole cc1_scratch0
abbrev VS1 : View sig .tc .vmem S8x128 .f32 := scM1.view

/-! ## The region's invariant, with the scratch in sight -/

/-- The core's scoped buffers other than this call's staging buffers and its scratch, at some contents each. -/
abbrev Rest1 (c : Dev nD) : sProp 𝕄 :=
  Pipeline.scopedRestBut (Ix := Unit) (Name := ℕ) (U := UR sig nD τ) (Lvl := ℕ) (Val := Elt F) spec1 c [cc1_scratch0]

theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ Rest1 c) :=
  Pipeline.scopedRest_split_of_list spec1 c [cc1_scratch0] (by decide) (by decide)

/-- The class invariant is: the scratch at some contents, the other scoped buffers, the generator register. -/
theorem PhiA1_eq (c : Dev nD) :
    (Pipeline.ΦA spec1 c : sProp 𝕄)
      = iprop(iprop((∃ d, owns (c : Thread nD τ) scM1 fullShare d) ∗ Rest1 c) ∗ (∃ r, prngReg c r)) := by
  unfold Pipeline.ΦA; rw [scopedRest1_split]; simp only [scM1, owns_whole]; try rfl

end Cert.Kernel.R1

end
-- ==== Proof.WR1RunA.lean ====
import proofs.«181995_j31490700214616_2_alg».proof.Proof.WR1Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at the first column of a grid row: the scratch is cleared, then accumulated into; the output block is left alone. On whole staging memrefs, the eight input blocks at their contents, it runs to the
    continuation with the inputs as they were and the pieces its stores wrote: the witness lists them, last first
    (`L8` for the output block, `LS` for the scratch). -/
noncomputable def kernelRun1_A (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x512 .bf16) (harg4 : arg4.IsWhole) (arg5 : Memref sig .tc .vmem S512x512 .bf16) (harg5 : arg5.IsWhole) (arg6 : Memref sig .tc .vmem S1024x512 .bf16) (harg6 : arg6.IsWhole) (arg7 : Memref sig .tc .vmem S512x512 .bf16) (harg7 : arg7.IsWhole) (arg8 : Memref sig .tc .vmem S1024x512 .bf16) (harg8 : arg8.IsWhole) (arg9 : Memref sig .tc .vmem S512x512 .bf16) (harg9 : arg9.IsWhole) (arg10 : Memref sig .tc .vmem S1x8x128 .f32) (harg10 : arg10.IsWhole) (arg11 : Memref sig .tc .vmem S8x128 .f32) (harg11 : arg11.IsWhole) (hc0 : cond1_0 i) (hc1 : ¬cond1_1 i)
    (x0 : Vec F S1024x512 .bf16) (x1 : Vec F S512x512 .bf16) (x2 : Vec F S1024x512 .bf16) (x3 : Vec F S512x512 .bf16) (x4 : Vec F S1024x512 .bf16) (x5 : Vec F S512x512 .bf16) (x6 : Vec F S1024x512 .bf16) (x7 : Vec F S512x512 .bf16) :
    Σ' (L8 : List (View.Piece (Elt F) S1x8x128 .f32)), { LS : List (View.Piece (Elt F) S8x128 .f32) //
      ∀ (xi8 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc1_pgcl_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1_pgcl_kernel_eq_skeleton]; unfold cc1_pgcl_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.Kernel.R1

end
-- ==== Proof.WR1RunB.lean ====
import proofs.«181995_j31490700214616_2_alg».proof.Proof.WR1Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at an inner column: the scratch the point before left is accumulated into; the output block is left alone. On whole staging memrefs, the eight input blocks at their contents, it runs to the
    continuation with the inputs as they were and the pieces its stores wrote: the witness lists them, last first
    (`L8` for the output block, `LS` for the scratch). -/
noncomputable def kernelRun1_B (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x512 .bf16) (harg4 : arg4.IsWhole) (arg5 : Memref sig .tc .vmem S512x512 .bf16) (harg5 : arg5.IsWhole) (arg6 : Memref sig .tc .vmem S1024x512 .bf16) (harg6 : arg6.IsWhole) (arg7 : Memref sig .tc .vmem S512x512 .bf16) (harg7 : arg7.IsWhole) (arg8 : Memref sig .tc .vmem S1024x512 .bf16) (harg8 : arg8.IsWhole) (arg9 : Memref sig .tc .vmem S512x512 .bf16) (harg9 : arg9.IsWhole) (arg10 : Memref sig .tc .vmem S1x8x128 .f32) (harg10 : arg10.IsWhole) (arg11 : Memref sig .tc .vmem S8x128 .f32) (harg11 : arg11.IsWhole) (hc0 : ¬cond1_0 i) (hc1 : ¬cond1_1 i)
    (x0 : Vec F S1024x512 .bf16) (x1 : Vec F S512x512 .bf16) (x2 : Vec F S1024x512 .bf16) (x3 : Vec F S512x512 .bf16) (x4 : Vec F S1024x512 .bf16) (x5 : Vec F S512x512 .bf16) (x6 : Vec F S1024x512 .bf16) (x7 : Vec F S512x512 .bf16) (xs : Vec F S8x128 .f32) :
    Σ' (L8 : List (View.Piece (Elt F) S1x8x128 .f32)), { LS : List (View.Piece (Elt F) S8x128 .f32) //
      ∀ (xi8 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc1_pgcl_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1_pgcl_kernel_eq_skeleton]; unfold cc1_pgcl_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.Kernel.R1

end
-- ==== Proof.WR1RunC.lean ====
import proofs.«181995_j31490700214616_2_alg».proof.Proof.WR1Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at the last column: the scratch is accumulated into, then copied into the output block. On whole staging memrefs, the eight input blocks at their contents, it runs to the
    continuation with the inputs as they were and the pieces its stores wrote: the witness lists them, last first
    (`L8` for the output block, `LS` for the scratch). -/
noncomputable def kernelRun1_C (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x512 .bf16) (harg4 : arg4.IsWhole) (arg5 : Memref sig .tc .vmem S512x512 .bf16) (harg5 : arg5.IsWhole) (arg6 : Memref sig .tc .vmem S1024x512 .bf16) (harg6 : arg6.IsWhole) (arg7 : Memref sig .tc .vmem S512x512 .bf16) (harg7 : arg7.IsWhole) (arg8 : Memref sig .tc .vmem S1024x512 .bf16) (harg8 : arg8.IsWhole) (arg9 : Memref sig .tc .vmem S512x512 .bf16) (harg9 : arg9.IsWhole) (arg10 : Memref sig .tc .vmem S1x8x128 .f32) (harg10 : arg10.IsWhole) (arg11 : Memref sig .tc .vmem S8x128 .f32) (harg11 : arg11.IsWhole) (hc0 : ¬cond1_0 i) (hc1 : cond1_1 i)
    (x0 : Vec F S1024x512 .bf16) (x1 : Vec F S512x512 .bf16) (x2 : Vec F S1024x512 .bf16) (x3 : Vec F S512x512 .bf16) (x4 : Vec F S1024x512 .bf16) (x5 : Vec F S512x512 .bf16) (x6 : Vec F S1024x512 .bf16) (x7 : Vec F S512x512 .bf16) (xs : Vec F S8x128 .f32) :
    Σ' (L8 : List (View.Piece (Elt F) S1x8x128 .f32)), { LS : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc1_pgcl_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1_pgcl_kernel_eq_skeleton]; unfold cc1_pgcl_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS

end Cert.Kernel.R1

end
-- ==== Proof.WR1Body.lean ====
import proofs.«181995_j31490700214616_2_alg».proof.Proof.WR1RunA
import proofs.«181995_j31490700214616_2_alg».proof.Proof.WR1RunB
import proofs.«181995_j31490700214616_2_alg».proof.Proof.WR1RunC
import Idealize.ShloMosaic.Lib.Pipeline.Value

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The Gram-difference kernel's body at every grid point

What the three control cases leave in the scratch vector and in the output block, as the pure payloads of the
point's eight input blocks; the scratch after each point by recursion along the grid (cleared at the first column of
each grid row, then one tile's sum of squared differences added per column); the proof data; the body obligation. -/

variable (V : (c : Dev nD) → (b : Ref sig .tc) → Buf (Elt F) ((c : Thread nD τ).loc b))
variable (q : Fin cfg1.W → PosShare TreeShare)

/-- Every store and load of the body is through the whole block at zero offsets. -/
theorem hz2 : (![0, 0] : Fin 2 → ℕ) = fun _ => 0 := funext fun a => by
  match a with
  | ⟨0, _⟩ => rfl
  | ⟨1, _⟩ => rfl
theorem hz3 : (![0, 0, 0] : Fin 3 → ℕ) = fun _ => 0 := funext fun a => by
  match a with
  | ⟨0, _⟩ => rfl
  | ⟨1, _⟩ => rfl
  | ⟨2, _⟩ => rfl

/-! ## What each case leaves, as payloads -/

section Pieces
variable (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x512 .bf16) (harg4 : arg4.IsWhole) (arg5 : Memref sig .tc .vmem S512x512 .bf16) (harg5 : arg5.IsWhole) (arg6 : Memref sig .tc .vmem S1024x512 .bf16) (harg6 : arg6.IsWhole) (arg7 : Memref sig .tc .vmem S512x512 .bf16) (harg7 : arg7.IsWhole) (arg8 : Memref sig .tc .vmem S1024x512 .bf16) (harg8 : arg8.IsWhole) (arg9 : Memref sig .tc .vmem S512x512 .bf16) (harg9 : arg9.IsWhole) (arg10 : Memref sig .tc .vmem S1x8x128 .f32) (harg10 : arg10.IsWhole) (arg11 : Memref sig .tc .vmem S8x128 .f32) (harg11 : arg11.IsWhole)
variable (x0 : Vec F S1024x512 .bf16) (x1 : Vec F S512x512 .bf16) (x2 : Vec F S1024x512 .bf16) (x3 : Vec F S512x512 .bf16) (x4 : Vec F S1024x512 .bf16) (x5 : Vec F S512x512 .bf16) (x6 : Vec F S1024x512 .bf16) (x7 : Vec F S512x512 .bf16) (xs : Vec F S8x128 .f32)

/-- First column: the scratch ends at the tile's sum added to the zero vector. -/
theorem canonS_A (hc0 : cond1_0 i) (hc1 : ¬cond1_1 i) :
    View.canon (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1 = k1_pay1 (k1_pay5 x6 x7 x4 x5) (k1_pay6 x6 x7 x0 x1) (k1_pay7 x6 x7 x2 x3) (k1_pay3 (F := F)) := by
  unfold kernelRun1_A; dsimp only; sl_unfold_words
  rw [View.canon_cons_unit_zero hz2]
  simp only [View.readAt_eq_ld, harg2.read_unread, harg3.read_unread, harg4.read_unread, harg5.read_unread, harg6.read_unread, harg7.read_unread, harg8.read_unread, harg9.read_unread, View.ld_unit_zero (S := S1024x512) hz2, View.ld_unit_zero (S := S512x512) hz2, View.readCov_unit_zero (S := S8x128) _ hz2]

theorem coverS_A (hc0 : cond1_0 i) (hc1 : ¬cond1_1 i) (y : S8x128.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set := by
  unfold kernelRun1_A; dsimp only; sl_unfold_words
  exact ⟨_, List.mem_cons_self, View.mem_set_unit_zero hz2 inb_S8x128_S8x128_0_0 y⟩

/-- Inner column: the scratch ends at the tile's sum added to what it held. -/
theorem canonS_B (hc0 : ¬cond1_0 i) (hc1 : ¬cond1_1 i) :
    View.canon (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs).2.1 = k1_pay1 (k1_pay5 x6 x7 x4 x5) (k1_pay6 x6 x7 x0 x1) (k1_pay7 x6 x7 x2 x3) xs := by
  unfold kernelRun1_B; dsimp only; sl_unfold_words
  rw [View.canon_cons_unit_zero hz2]
  simp only [View.readAt_eq_ld, harg2.read_unread, harg3.read_unread, harg4.read_unread, harg5.read_unread, harg6.read_unread, harg7.read_unread, harg8.read_unread, harg9.read_unread, harg11.read_unread, View.ld_unit_zero (S := S1024x512) hz2, View.ld_unit_zero (S := S512x512) hz2, View.ld_unit_zero (S := S8x128) hz2]

theorem coverS_B (hc0 : ¬cond1_0 i) (hc1 : ¬cond1_1 i) (y : S8x128.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set := by
  unfold kernelRun1_B; dsimp only; sl_unfold_words
  exact ⟨_, List.mem_cons_self, View.mem_set_unit_zero hz2 inb_S8x128_S8x128_0_0 y⟩

/-- Last column: the scratch ends as at an inner column. -/
theorem canonS_C (hc0 : ¬cond1_0 i) (hc1 : cond1_1 i) :
    View.canon (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).2.1 = k1_pay1 (k1_pay5 x6 x7 x4 x5) (k1_pay6 x6 x7 x0 x1) (k1_pay7 x6 x7 x2 x3) xs := by
  unfold kernelRun1_C; dsimp only; sl_unfold_words
  rw [View.canon_cons_unit_zero hz2]
  simp only [View.readAt_eq_ld, harg2.read_unread, harg3.read_unread, harg4.read_unread, harg5.read_unread, harg6.read_unread, harg7.read_unread, harg8.read_unread, harg9.read_unread, harg11.read_unread, View.ld_unit_zero (S := S1024x512) hz2, View.ld_unit_zero (S := S512x512) hz2, View.ld_unit_zero (S := S8x128) hz2]

theorem coverS_C (hc0 : ¬cond1_0 i) (hc1 : cond1_1 i) (y : S8x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set := by
  unfold kernelRun1_C; dsimp only; sl_unfold_words
  exact ⟨_, List.mem_cons_self, View.mem_set_unit_zero hz2 inb_S8x128_S8x128_0_0 y⟩

/-- Last column: the output block is the scratch's new contents, re-laid as one 8 x 128 page. -/
theorem canonO_C (hc0 : ¬cond1_0 i) (hc1 : cond1_1 i) :
    View.canon (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).1 = k1_pay2 (k1_pay1 (k1_pay5 x6 x7 x4 x5) (k1_pay6 x6 x7 x0 x1) (k1_pay7 x6 x7 x2 x3) xs) := by
  unfold kernelRun1_C; dsimp only; sl_unfold_words
  rw [View.canon_cons_unit_zero hz3]
  simp only [View.readCov_unit_zero (S := S8x128) _ hz2, View.readAt_eq_ld, harg2.read_unread, harg3.read_unread, harg4.read_unread, harg5.read_unread, harg6.read_unread, harg7.read_unread, harg8.read_unread, harg9.read_unread, harg11.read_unread, View.ld_unit_zero (S := S1024x512) hz2, View.ld_unit_zero (S := S512x512) hz2, View.ld_unit_zero (S := S8x128) hz2]

theorem coverO_C (hc0 : ¬cond1_0 i) (hc1 : cond1_1 i) (y : S1x8x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set := by
  unfold kernelRun1_C; dsimp only; sl_unfold_words
  exact ⟨_, List.mem_cons_self, View.mem_set_unit_zero hz3 inb_S1x8x128_S1x8x128_0_0_0 y⟩

end Pieces

/-! ## The scratch after each point -/

/-- The scratch after the body at position `n`: the tile's sum of squared differences added to the zero vector at
    the first column of a grid row, to what the point before left elsewhere. -/
def scAt (c : Dev nD) : (n : ℕ) → n < cfg1.N → Vec F S8x128 .f32
  | 0, hn => k1_pay1 (k1_pay5 (iblk1 V c 6 ⟨0, hn⟩) (iblk1 V c 7 ⟨0, hn⟩) (iblk1 V c 4 ⟨0, hn⟩) (iblk1 V c 5 ⟨0, hn⟩)) (k1_pay6 (iblk1 V c 6 ⟨0, hn⟩) (iblk1 V c 7 ⟨0, hn⟩) (iblk1 V c 0 ⟨0, hn⟩) (iblk1 V c 1 ⟨0, hn⟩)) (k1_pay7 (iblk1 V c 6 ⟨0, hn⟩) (iblk1 V c 7 ⟨0, hn⟩) (iblk1 V c 2 ⟨0, hn⟩) (iblk1 V c 3 ⟨0, hn⟩)) (k1_pay3 (F := F))
  | n + 1, hn => k1_pay1 (k1_pay5 (iblk1 V c 6 ⟨n + 1, hn⟩) (iblk1 V c 7 ⟨n + 1, hn⟩) (iblk1 V c 4 ⟨n + 1, hn⟩) (iblk1 V c 5 ⟨n + 1, hn⟩)) (k1_pay6 (iblk1 V c 6 ⟨n + 1, hn⟩) (iblk1 V c 7 ⟨n + 1, hn⟩) (iblk1 V c 0 ⟨n + 1, hn⟩) (iblk1 V c 1 ⟨n + 1, hn⟩)) (k1_pay7 (iblk1 V c 6 ⟨n + 1, hn⟩) (iblk1 V c 7 ⟨n + 1, hn⟩) (iblk1 V c 2 ⟨n + 1, hn⟩) (iblk1 V c 3 ⟨n + 1, hn⟩))
      (if (n + 1) % 8 = 0 then (k1_pay3 (F := F)) else scAt c n (Nat.lt_of_succ_lt hn))

theorem scAt_first (c : Dev nD) (n : ℕ) (hn : n < cfg1.N) (h : n % 8 = 0) :
    scAt V c n hn = k1_pay1 (k1_pay5 (iblk1 V c 6 ⟨n, hn⟩) (iblk1 V c 7 ⟨n, hn⟩) (iblk1 V c 4 ⟨n, hn⟩) (iblk1 V c 5 ⟨n, hn⟩)) (k1_pay6 (iblk1 V c 6 ⟨n, hn⟩) (iblk1 V c 7 ⟨n, hn⟩) (iblk1 V c 0 ⟨n, hn⟩) (iblk1 V c 1 ⟨n, hn⟩)) (k1_pay7 (iblk1 V c 6 ⟨n, hn⟩) (iblk1 V c 7 ⟨n, hn⟩) (iblk1 V c 2 ⟨n, hn⟩) (iblk1 V c 3 ⟨n, hn⟩)) (k1_pay3 (F := F)) := by
  cases n with
  | zero => rfl
  | succ n => rw [scAt, if_pos h]

theorem scAt_next (c : Dev nD) (n : ℕ) (hn : n < cfg1.N) (h : n % 8 ≠ 0) :
    scAt V c n hn = k1_pay1 (k1_pay5 (iblk1 V c 6 ⟨n, hn⟩) (iblk1 V c 7 ⟨n, hn⟩) (iblk1 V c 4 ⟨n, hn⟩) (iblk1 V c 5 ⟨n, hn⟩)) (k1_pay6 (iblk1 V c 6 ⟨n, hn⟩) (iblk1 V c 7 ⟨n, hn⟩) (iblk1 V c 0 ⟨n, hn⟩) (iblk1 V c 1 ⟨n, hn⟩)) (k1_pay7 (iblk1 V c 6 ⟨n, hn⟩) (iblk1 V c 7 ⟨n, hn⟩) (iblk1 V c 2 ⟨n, hn⟩) (iblk1 V c 3 ⟨n, hn⟩)) (scAt V c (n - 1) (Nat.lt_of_le_of_lt (Nat.sub_le _ _) hn)) := by
  cases n with
  | zero => exact absurd (Nat.zero_mod _) h
  | succ n => rw [scAt, if_neg h]; rfl

/-! ## The invariant carrying the scratch -/

/-- Before the first point the class invariant; afterwards the scratch at what the point before left, beside the
    other scoped buffers and the generator register. -/
def PhiS (c : Dev nD) : (n : ℕ) → n ≤ cfg1.N → sProp 𝕄
  | 0, _ => Pipeline.ΦA spec1 c
  | n + 1, hn => iprop(iprop(owns (c : Thread nD τ) scM1 fullShare (scAt V c n hn) ∗ Rest1 c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1 fullShare (scAt V c n hn) ∗ Rest1 c) ∗ (∃ r, prngReg c r)) := rfl

theorem PhiS_pos (c : Dev nD) (n : ℕ) (h : n ≤ cfg1.N) (hz : n ≠ 0) :
    PhiS V c n h = iprop(iprop(owns (c : Thread nD τ) scM1 fullShare (scAt V c (n - 1) (by omega)) ∗ Rest1 c) ∗ (∃ r, prngReg c r)) := by
  cases n with
  | zero => exact absurd rfl hz
  | succ n => rfl

/-! ## The proof data -/

/-- The arrays as the region finds them; after the body each input's buffer at its block, the output's at the
    scratch re-laid as a page (consulted at the last column of a grid row only); the invariant carrying the scratch;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => k1_pay2 (scAt V c t.val t.isLt)
  Φ t := PhiS V c t.val (Nat.le_of_lt_succ t.isLt)
  q := q
  owed _ := 0

theorem A_eq1 (c : Dev nD) (w : Fin cfg1.W) : (dat1 V q c).A w = V c (Pipeline.arrRef spec1 w) := by
  dsimp only [dat1]

theorem PhiS_castSucc (c : Dev nD) (t : Fin cfg1.N) :
    (dat1 V q c).Φ t.castSucc = PhiS V c t.val (Nat.le_of_lt t.isLt) := by
  dsimp only [dat1]; simp only [Fin.coe_castSucc]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = iblk1 V c 3 t := by dsimp only [dat1]
theorem after1_4 (c : Dev nD) (t : Fin cfg1.N) : (dat1 V q c).after 4 t = iblk1 V c 4 t := by dsimp only [dat1]
theorem after1_5 (c : Dev nD) (t : Fin cfg1.N) : (dat1 V q c).after 5 t = iblk1 V c 5 t := by dsimp only [dat1]
theorem after1_6 (c : Dev nD) (t : Fin cfg1.N) : (dat1 V q c).after 6 t = iblk1 V c 6 t := by dsimp only [dat1]
theorem after1_7 (c : Dev nD) (t : Fin cfg1.N) : (dat1 V q c).after 7 t = iblk1 V c 7 t := by dsimp only [dat1]
theorem after1_8' (c : Dev nD) (t : Fin cfg1.N) : (dat1 V q c).after 8 t = k1_pay2 (scAt V c t.val t.isLt) := by dsimp only [dat1]
/-- At the last column of a grid row the output block is the scratch's contents there. -/
theorem after1_8 (c : Dev nD) (t : Fin cfg1.N) (h : t.val % 8 = 7) : (dat1 V q c).after 8 t = k1_pay2 (scAt V c t.val t.isLt) :=
  after1_8' V q c t

theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d
theorem before1_3 (c : Dev nD) (t : Fin cfg1.N) (d) : (dat1 V q c).before 3 t d = iblk1 V c 3 t :=
  before1_3_of V (dat1 V q c) (A_eq1 V q c 3) (after1_3 V q c) t d
theorem before1_4 (c : Dev nD) (t : Fin cfg1.N) (d) : (dat1 V q c).before 4 t d = iblk1 V c 4 t :=
  before1_4_of V (dat1 V q c) (A_eq1 V q c 4) (after1_4 V q c) t d
theorem before1_5 (c : Dev nD) (t : Fin cfg1.N) (d) : (dat1 V q c).before 5 t d = iblk1 V c 5 t :=
  before1_5_of V (dat1 V q c) (A_eq1 V q c 5) (after1_5 V q c) t d
theorem before1_6 (c : Dev nD) (t : Fin cfg1.N) (d) : (dat1 V q c).before 6 t d = iblk1 V c 6 t :=
  before1_6_of V (dat1 V q c) (A_eq1 V q c 6) (after1_6 V q c) t d
theorem before1_7 (c : Dev nD) (t : Fin cfg1.N) (d) : (dat1 V q c).before 7 t d = iblk1 V c 7 t :=
  before1_7_of V (dat1 V q c) (A_eq1 V q c 7) (after1_7 V q c) t d

end Cert.Kernel.R1

end
-- ==== Proof.WR1Sound.lean ====
import proofs.«181995_j31490700214616_2_alg».proof.Proof.WR1Body

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body obligation of the Gram-difference kernel's region

At every grid point the eight input buffers hold their blocks; which of the three control cases the point is in is
read off its position modulo 8; the invariant hands the body the scratch at what the point before left (at anything
before the first point) and takes it back at this point's contents. -/

variable (V : (c : Dev nD) → (b : Ref sig .tc) → Buf (Elt F) ((c : Thread nD τ).loc b))
variable (q : Fin cfg1.W → PosShare TreeShare)

/-- What the body is called with at point `t`, the windows one by one. -/
def bodyPre (c : Dev nD) (t : Fin cfg1.N) : sProp 𝕄 :=
  iprop((dat1 V q c).Φ t.castSucc ∗ (dat1 V q c).owesAt () t.castSucc
    ∗ (∃ d, owns (c : Thread nD τ) (ms1_0 t) fullShare ((dat1 V q c).before 0 t d))
    ∗ (∃ d, owns (c : Thread nD τ) (ms1_1 t) fullShare ((dat1 V q c).before 1 t d))
    ∗ (∃ d, owns (c : Thread nD τ) (ms1_2 t) fullShare ((dat1 V q c).before 2 t d))
    ∗ (∃ d, owns (c : Thread nD τ) (ms1_3 t) fullShare ((dat1 V q c).before 3 t d))
    ∗ (∃ d, owns (c : Thread nD τ) (ms1_4 t) fullShare ((dat1 V q c).before 4 t d))
    ∗ (∃ d, owns (c : Thread nD τ) (ms1_5 t) fullShare ((dat1 V q c).before 5 t d))
    ∗ (∃ d, owns (c : Thread nD τ) (ms1_6 t) fullShare ((dat1 V q c).before 6 t d))
    ∗ (∃ d, owns (c : Thread nD τ) (ms1_7 t) fullShare ((dat1 V q c).before 7 t d))
    ∗ (∃ d, owns (c : Thread nD τ) (ms1_8 t) fullShare ((dat1 V q c).before 8 t d)))

/-- What the body returns at point `t`. -/
def bodyPost (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t
    ∗ (dat1 V q c).leavesExact 3 t
    ∗ (dat1 V q c).leavesExact 4 t
    ∗ (dat1 V q c).leavesExact 5 t
    ∗ (dat1 V q c).leavesExact 6 t
    ∗ (dat1 V q c).leavesExact 7 t
    ∗ (dat1 V q c).leavesExact 8 t)

set_option maxHeartbeats 4800000 in
theorem sound_body (c : Dev nD) (t : Fin cfg1.N) :
    bodyPre V q c t ⊢ wp frame (wpE (defs₀ (F := F)) Variants.none c none) Set.univ (bodyAt1 t) (fun _ => bodyPost V q c t) := by
  unfold bodyPre bodyPost bodyAt1
  simp only [before1_0, before1_1, before1_2, before1_3, before1_4, before1_5, before1_6, before1_7]
  rw [show (dat1 V q c).owesAt () t.succ = (dat1 V q c).owesAt () t.castSucc from rfl]
  rw [show (dat1 V q c).Φ t.succ = PhiS V c (t.val + 1) t.isLt from rfl, PhiS_succ]
  rw [show (dat1 V q c).leavesExact 0 t = owns (c : Thread nD τ) (ms1_0 t) fullShare ((dat1 V q c).after 0 t) from by
    unfold Dat.leavesExact; rw [liveAt1_0 t], after1_0]
  rw [show (dat1 V q c).leavesExact 1 t = owns (c : Thread nD τ) (ms1_1 t) fullShare ((dat1 V q c).after 1 t) from by
    unfold Dat.leavesExact; rw [liveAt1_1 t], after1_1]
  rw [show (dat1 V q c).leavesExact 2 t = owns (c : Thread nD τ) (ms1_2 t) fullShare ((dat1 V q c).after 2 t) from by
    unfold Dat.leavesExact; rw [liveAt1_2 t], after1_2]
  rw [show (dat1 V q c).leavesExact 3 t = owns (c : Thread nD τ) (ms1_3 t) fullShare ((dat1 V q c).after 3 t) from by
    unfold Dat.leavesExact; rw [liveAt1_3 t], after1_3]
  rw [show (dat1 V q c).leavesExact 4 t = owns (c : Thread nD τ) (ms1_4 t) fullShare ((dat1 V q c).after 4 t) from by
    unfold Dat.leavesExact; rw [liveAt1_4 t], after1_4]
  rw [show (dat1 V q c).leavesExact 5 t = owns (c : Thread nD τ) (ms1_5 t) fullShare ((dat1 V q c).after 5 t) from by
    unfold Dat.leavesExact; rw [liveAt1_5 t], after1_5]
  rw [show (dat1 V q c).leavesExact 6 t = owns (c : Thread nD τ) (ms1_6 t) fullShare ((dat1 V q c).after 6 t) from by
    unfold Dat.leavesExact; rw [liveAt1_6 t], after1_6]
  rw [show (dat1 V q c).leavesExact 7 t = owns (c : Thread nD τ) (ms1_7 t) fullShare ((dat1 V q c).after 7 t) from by
    unfold Dat.leavesExact; rw [liveAt1_7 t], after1_7]
  by_cases h0 : t.val % 8 = 0
  · have h1 : ¬t.val % 8 = 7 := by omega
    rw [Dat.leavesExact_idle (dat1 V q c) 8 t (idleAt1_8 t (fun h => h1 ((hcond1_1 t).mp h))) (noFlush1_8 t (fun h => h1 ((hcond1_1 t).mp h)))]
    by_cases hz : t.val = 0
    · rw [PhiS_castSucc V q c t, PhiS_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [HS HR Hg]
      · isplitl [HS HR]
        · isplitl [HS]
          · unfold owns; iexists _; isplitr
            swap; · iexact HS
            ipureintro
            exact (View.read_writes_eq_canon _ _ _ (coverS_A c _ _ _ _ _ _ _ _ _ _ _ _ _ _ _ _ _ _ _ _ _ _ _ _ _ _ _ _ _ _ _)).trans
              ((canonS_A c _ _ _ _ _ _ _ _ _ _ _ _ _ _ _ _ _ _ _ _ _ _ _ _ _ _ _ _ _ _ _).trans (scAt_first V c t.val t.isLt h0).symm)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS_castSucc V q c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexists _; iexact HS
      iintro ⟨H0, H1, H2, H3, H4, H5, H6, H7, H8, ⟨%es, HS⟩⟩
      isplitl [HS HR Hg]
      · isplitl [HS HR]
        · isplitl [HS]
          · unfold owns; iexists _; isplitr
            swap; · iexact HS
            ipureintro
            exact (View.read_writes_eq_canon _ _ _ (coverS_A c _ _ _ _ _ _ _ _ _ _ _ _ _ _ _ _ _ _ _ _ _ _ _ _ _ _ _ _ _ _ _)).trans
              ((canonS_A c _ _ _ _ _ _ _ _ _ _ _ _ _ _ _ _ _ _ _ _ _ _ _ _ _ _ _ _ _ _ _).trans (scAt_first V c t.val t.isLt h0).symm)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · by_cases h1 : t.val % 8 = 7
    · rw [show (dat1 V q c).leavesExact 8 t = owns (c : Thread nD τ) (ms1_8 t) fullShare ((dat1 V q c).after 8 t) from by
            unfold Dat.leavesExact; rw [liveAt1_8 t ((hcond1_1 t).mpr h1)], after1_8']
      have hz : t.val ≠ 0 := fun e => h0 (by rw [e])
      rw [PhiS_castSucc V q c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, ⟨%e8, H8⟩, ⟨%es, HS⟩⟩
      isplitl [HS HR Hg]
      · isplitl [HS HR]
        · isplitl [HS]
          · unfold owns; iexists _; isplitr
            swap; · iexact HS
            ipureintro
            exact (View.read_writes_eq_canon _ _ _ (coverS_C c _ _ _ _ _ _ _ _ _ _ _ _ _ _ _ _ _ _ _ _ _ _ _ _ _ _ _ _ _ _ _ _)).trans
              ((canonS_C c _ _ _ _ _ _ _ _ _ _ _ _ _ _ _ _ _ _ _ _ _ _ _ _ _ _ _ _ _ _ _ _).trans (scAt_next V c t.val t.isLt h0).symm)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro
      exact (View.read_writes_eq_canon _ _ _ (coverO_C c _ _ _ _ _ _ _ _ _ _ _ _ _ _ _ _ _ _ _ _ _ _ _ _ _ _ _ _ _ _ _ _)).trans
        ((canonO_C c _ _ _ _ _ _ _ _ _ _ _ _ _ _ _ _ _ _ _ _ _ _ _ _ _ _ _ _ _ _ _ _).trans (congrArg k1_pay2 (scAt_next V c t.val t.isLt h0).symm))
    · rw [Dat.leavesExact_idle (dat1 V q c) 8 t (idleAt1_8 t (fun h => h1 ((hcond1_1 t).mp h))) (noFlush1_8 t (fun h => h1 ((hcond1_1 t).mp h)))]
      have hz : t.val ≠ 0 := fun e => h0 (by rw [e])
      rw [PhiS_castSucc V q c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [HS HR Hg]
      · isplitl [HS HR]
        · isplitl [HS]
          · unfold owns; iexists _; isplitr
            swap; · iexact HS
            ipureintro
            exact (View.read_writes_eq_canon _ _ _ (coverS_B c _ _ _ _ _ _ _ _ _ _ _ _ _ _ _ _ _ _ _ _ _ _ _ _ _ _ _ _ _ _ _ _)).trans
              ((canonS_B c _ _ _ _ _ _ _ _ _ _ _ _ _ _ _ _ _ _ _ _ _ _ _ _ _ _ _ _ _ _ _ _).trans (scAt_next V c t.val t.isLt h0).symm)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) : BodyObligation (dat1 (F := F) V q c) (defs₀ (F := F)) Variants.none () Set.univ := fun t => by
  rw [bigSep_W1, bigSep_W1]
  exact sound_body V q c t

/-- What the launch hands the region is the invariant before the first point. -/
theorem hin1 (c : Dev nD) : Pipeline.ΦA spec1 c ⊢ (dat1 V q c).Φ 0 := by
  rw [show (dat1 V q c).Φ 0 = PhiS V c 0 (Nat.zero_le _) from rfl, PhiS_zero V c 0 _ rfl]
  try exact Idealize.SL.BI.Entails.refl _

/-- After any point but the first the invariant gives the class invariant back: the scratch's contents are forgotten. -/
theorem Phi_out (c : Dev nD) (t : Fin (cfg1.N + 1)) (ht : t.val ≠ 0) : (dat1 V q c).Φ t ⊢ Pipeline.ΦA spec1 c := by
  rw [show (dat1 V q c).Φ t = PhiS V c t.val (Nat.le_of_lt_succ t.isLt) from rfl, PhiS_pos V c _ _ ht, PhiA1_eq]
  iintro ⟨⟨HS, HR⟩, Hg⟩
  isplitl [HS HR]
  · isplitl [HS]
    · iexists _; iexact HS
    iexact HR
  iexact Hg

theorem hout1 (c : Dev nD) : (dat1 V q c).Φ (Fin.last cfg1.N) ⊢ Pipeline.ΦA spec1 c :=
  Phi_out V q c _ (by rw [Fin.val_last]; have : cfg1.N = 32 := N_1; omega)

end Cert.Kernel.R1

end
-- ==== Proof.WAsmSeg0.lean ====
/-
  The first kernel region as one item of the program's run.

  The region is entered holding every unscoped buffer at the launch contents and left holding them at the
  valuation after it: its eight arrays are split out of the unscoped buffers on entry (they are distinct whole
  buffers, each held outright) and put back on exit at what the write-backs leave; the generator register goes
  into the body's invariant and comes back; nothing is owed and the kernel has no semaphore of its own.
-/
import proofs.«181995_j31490700214616_2_alg».proof.Proof.Gen.Kernel.Regions
import proofs.«181995_j31490700214616_2_alg».proof.Proof.Gen.Kernel.Points
import Idealize.ShloMosaic.Lib.Pipeline.FrameBody
import Idealize.ShloMosaic.Lib.Pipeline.RegionsLoop
import Idealize.ShloMosaic.Lib.Pipeline.FrameSuffix

noncomputable section

namespace Cert.Kernel.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

/-- No core owes another anything: no level is assigned. -/
abbrev Lv : GSem nD τ sig → Finset Unit := fun _ => ∅
abbrev lvl : GSem nD τ sig → Unit → ℕ := fun _ _ => 0

/-- What rides beside the buffers through every item: the core's generator register at some state and its dues, none. -/
abbrev Ride (c : Dev nD) : sProp 𝕄 := iprop((∃ r, prngReg c r) ∗ ∃ W, owes (c : Thread nD τ) (0 : CellTallies nD τ sig Unit) W)

/-- The two pipelines' proof data as one family. -/
def pdatsOf (d0 : (c : Dev nD) → Dat τ (Elt F) Unit ℕ (UR sig nD τ) ℕ cfg0 c) (d1 : (c : Dev nD) → Dat τ (Elt F) Unit ℕ (UR sig nD τ) ℕ cfg1 c) :
    (p : Fin 2) → (c : Dev nD) → Dat τ (Elt F) Unit ℕ (UR sig nD τ) ℕ (cfgs p) c
  | ⟨0, _⟩ => d0
  | ⟨1, _⟩ => d1

variable (m : (ℓ : Loc nD τ sig) → Buf (Elt F) ℓ) (outs : Outs (F := F))
variable (d0 : (c : Dev nD) → Dat τ (Elt F) Unit ℕ (UR sig nD τ) ℕ cfg0 c) (d1 : (c : Dev nD) → Dat τ (Elt F) Unit ℕ (UR sig nD τ) ℕ cfg1 c)

set_option backward.isDefEq.respectTransparency.types false in
/-- The first region's record. -/
def reg0
    (hA : ∀ c w, (d0 c).A w = V0 m c (Pipeline.arrRef spec0 w))
    (hq : ∀ c w, (d0 c).q w = fullShare) (howed : ∀ c t, (d0 c).owed t = 0) (hrec : ∀ c t, (d0 c).recorded t = Set.univ)
    (hbody : ∀ c, BodyObligation (d0 c) (defs₀ (F := F)) Variants.none () Set.univ)
    (hin : ∀ c, Pipeline.ΦA spec0 c ⊢ (d0 c).Φ 0) (hout : ∀ c, (d0 c).Φ (Fin.last cfg0.N) ⊢ Pipeline.ΦA spec0 c)
    (hF : ∀ c w, (d0 c).arrAt w cfg0.N = V1 m outs c (Pipeline.arrRef spec0 w))
    (hrest : ∀ c b, b ∉ Finset.univ.image (Pipeline.arrRef spec0) → V1 m outs c (Proc.devRef .tc b) = V0 m c (Proc.devRef .tc b)) :
    RegionSeg (pcfgs (F := F)) adm (pdatsOf d0 d1) () defs₀ Variants.none Lv lvl 0 where
  win := launch0.win.to₀
  block_pos := launch0.block_pos
  stage_whole := launch0.stage_whole
  K := PEmpty
  osem k := k.elim
  ho := Pipeline.OwnSemFacts.none _
  hbody c := (hbody c).loose
  hwaits := Pipeline.hwaits_of_owed_zero _ _ _ _ Lv lvl 0 fun c t => howed c t
  pre c := iprop(StableHlo.held (c : Thread nD τ) (Pipeline.ucRefs τ sig) (V0 m c) ∗ Ride c)
  post c := iprop(StableHlo.held (c : Thread nD τ) (Pipeline.ucRefs τ sig) (V1 m outs c) ∗ Ride c)
  X c := iprop(∃ r, prngReg c r)
  Y c := iprop(∃ r, prngReg c r)
  Z c := Pipeline.unscopedRest (Ix := Unit) (Name := ℕ) (U := UR sig nD τ) (Lvl := ℕ) spec0 c (fun b => V0 m c b)
  hentry c := by
    rw [Pipeline.ownSems0_none]
    have hsplit := Pipeline.arrays_of_unscopedBufs (p := 0) (pcfgs (F := F)) adm (pdatsOf d0 d1) launch0.win launch0.arr_whole c
      ((pdatsOf d0 d1 0 c).share_full fun w => hq c w) (fun b => V0 m c b) fun w => hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdatsOf d0 d1 0 c).owed 0 = 0 from howed c 0]
      icases HO with ⟨%W, HO⟩; iexists W; isplitr; · ipureintro; exact fun _ _ => Or.inl (by rw [show (pdatsOf d0 d1 0 c).recorded 0 = Set.univ from hrec c 0]; trivial)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsOf d0 d1) ((pdatsOf d0 d1 0 c).share_full fun w => hq c w)
      (fun b => V0 m c b) (fun b => V1 m outs c b) ((pdatsOf d0 d1 0 c).arrAt · cfg0.N) (fun w => hF c w) (fun b hb => hrest c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdatsOf d0 d1 0 c).owed (Fin.last _) = 0 from howed c _]
    icases HO with ⟨%W, -, HO⟩; iexists W; iexact HO

end Cert.Kernel.Asm

end
-- ==== Proof.WAsmOuts.lean ====
/-
  What the two kernel regions leave in the buffers they may change, and the valuations between the program's items.

  The first region leaves its four output arrays at what its write-backs compute from the launch contents; the second
  leaves its output array at a contents given from outside (its own write-backs, once its proof data are at hand).
  Every array a region only reads, and every buffer it does not touch, is as before.
-/
import proofs.«181995_j31490700214616_2_alg».proof.Proof.WR0Body
import proofs.«181995_j31490700214616_2_alg».proof.Proof.WAsmSeg0
import Idealize.ShloMosaic.Lib.Pipeline.FrameSuffix

noncomputable section

namespace Cert.Kernel.Asm

open Idealize.ShloMosaic Idealize.ShloMosaic.TcCoe
open Idealize.SL Idealize.SL.Sem
open Idealize.ShloMosaic.Pipeline (Dat Cfg Window)
open Cert.Kernel Cert.Kernel.Gen

variable {F : FTy → Type} [FloatOps F]

variable (m : (ℓ : Loc nD τ sig) → Buf (Elt F) ℓ)

/-- The launch contents read at the TensorCore's references: what the first region is entered at. -/
def vin0 (c : Dev nD) (b : Ref sig .tc) : Buf (Elt F) ((c : Thread nD τ).loc b) := V0 m c b

/-- The first region's proof data, at the launch contents. -/
def d0 (c : Dev nD) : Dat τ (Elt F) Unit ℕ (UR sig nD τ) ℕ cfg0 c := R0.dat0 (vin0 m) c

/-- What the regions leave: after the first, its arrays at what its write-backs leave; after the second, its
    output array at `a8`. -/
def outsOf (a8 : (c : Dev nD) → Buf (Elt F) ((c : Thread nD τ).loc main_v1)) : Outs (F := F)
  | 1, r, c => Pipeline.withArrays spec0 c (V0 m c) (fun w => (d0 m c).arrAt w cfg0.N) (Proc.devRef .tc r)
  | _, r, c => Function.update (V0 m c) (Proc.devRef .tc main_v1) (a8 c) (Proc.devRef .tc r)

variable (a8 : (c : Dev nD) → Buf (Elt F) ((c : Thread nD τ).loc main_v1))

theorem outsOf_one (r : Ref sig .tc) (c : Dev nD) :
    outsOf m a8 1 r c = Pipeline.withArrays spec0 c (V0 m c) (fun w => (d0 m c).arrAt w cfg0.N) (Proc.devRef .tc r) := rfl

theorem outsOf_two_v1 (c : Dev nD) : outsOf m a8 2 main_v1 c = a8 c := by
  show Function.update (V0 m c) (Proc.devRef .tc main_v1) (a8 c) (Proc.devRef .tc main_v1) = a8 c
  exact Function.update_self _ _ _

/-- After the first region each of its output arrays holds what the write-backs leave. -/
theorem V1_out (c : Dev nD) (w : Fin cfg0.W) (hw : 4 ≤ w.val) :
    V1 m (outsOf m a8) c (Proc.devRef .tc (Pipeline.arrRef spec0 w)) = (d0 m c).arrAt w cfg0.N := by
  have key : ∀ w' : Fin cfg0.W, outsOf m a8 1 (Pipeline.arrRef spec0 w') c = (d0 m c).arrAt w' cfg0.N := fun w' => by
    rw [outsOf_one]; exact Pipeline.withArrays_arr spec0 launch0.win.arr_inj c _ _ w'
  match w, hw with
  | 4, _ =>
    show Function.update (Function.update (Function.update (Function.update (V0 m c) main_v0_0 _) main_v0_1 _) main_v0_2 _) main_v0_3 _ (Proc.devRef .tc main_v0_0) = _
    rw [Function.update_of_ne (by decide), Function.update_of_ne (by decide), Function.update_of_ne (by decide), Function.update_self]
    exact key 4
  | 5, _ =>
    show Function.update (Function.update (Function.update (Function.update (V0 m c) main_v0_0 _) main_v0_1 _) main_v0_2 _) main_v0_3 _ (Proc.devRef .tc main_v0_1) = _
    rw [Function.update_of_ne (by decide), Function.update_of_ne (by decide), Function.update_self]
    exact key 5
  | 6, _ =>
    show Function.update (Function.update (Function.update (Function.update (V0 m c) main_v0_0 _) main_v0_1 _) main_v0_2 _) main_v0_3 _ (Proc.devRef .tc main_v0_2) = _
    rw [Function.update_of_ne (by decide), Function.update_self]
    exact key 6
  | 7, _ =>
    show Function.update (Function.update (Function.update (Function.update (V0 m c) main_v0_0 _) main_v0_1 _) main_v0_2 _) main_v0_3 _ (Proc.devRef .tc main_v0_3) = _
    rw [Function.update_self]
    exact key 7
  | 0, h => exact absurd h (by decide)
  | 1, h => exact absurd h (by decide)
  | 2, h => exact absurd h (by decide)
  | 3, h => exact absurd h (by decide)
  | ⟨_ + 8, h⟩, _ => exact absurd h (Nat.not_lt.2 (Nat.le_add_left _ _))

/-- Every array of the first region holds, after it, what the valuation after it says: the inputs their launch
    contents, the outputs what the write-backs leave. -/
theorem hF0 (c : Dev nD) (w : Fin cfg0.W) : (d0 m c).arrAt w cfg0.N = V1 m (outsOf m a8) c (Pipeline.arrRef spec0 w) := by
  match w with
  | 0 => exact ((d0 m c).arrAt_in 0 rfl _).trans ((R0.A_eq0 (vin0 m) c 0).trans (V1_of m (outsOf m a8) c main_arg0 (by decide)).symm)
  | 1 => exact ((d0 m c).arrAt_in 1 rfl _).trans ((R0.A_eq0 (vin0 m) c 1).trans (V1_of m (outsOf m a8) c main_arg1 (by decide)).symm)
  | 2 => exact ((d0 m c).arrAt_in 2 rfl _).trans ((R0.A_eq0 (vin0 m) c 2).trans (V1_of m (outsOf m a8) c main_arg2 (by decide)).symm)
  | 3 => exact ((d0 m c).arrAt_in 3 rfl _).trans ((R0.A_eq0 (vin0 m) c 3).trans (V1_of m (outsOf m a8) c main_arg3 (by decide)).symm)
  | 4 => exact (V1_out m a8 c 4 (by decide)).symm
  | 5 => exact (V1_out m a8 c 5 (by decide)).symm
  | 6 => exact (V1_out m a8 c 6 (by decide)).symm
  | 7 => exact (V1_out m a8 c 7 (by decide)).symm
  | ⟨_ + 8, h⟩ => exact absurd h (Nat.not_lt.2 (Nat.le_add_left _ _))

/-- Off the first region's arrays nothing has changed. -/
theorem hrest0 (c : Dev nD) (b : Ref sig .tc) (hb : b ∉ Finset.univ.image (Pipeline.arrRef spec0)) :
    V1 m (outsOf m a8) c (Proc.devRef .tc b) = V0 m c (Proc.devRef .tc b) :=
  V1_of m (outsOf m a8) c b fun h => hb (by
    simp only [List.mem_cons, List.not_mem_nil, or_false] at h
    rcases h with rfl | rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩
    · exact Finset.mem_image.mpr ⟨7, Finset.mem_univ _, rfl⟩)

/-- After the second region its output array holds `a8`. -/
theorem V2_v1 (c : Dev nD) : V2 m (outsOf m a8) c (Proc.devRef .tc main_v1) = a8 c := by
  show Function.update (V1 m (outsOf m a8) c) main_v1 (outsOf m a8 2 main_v1 c) (Proc.devRef .tc main_v1) = a8 c
  rw [Function.update_self]; exact outsOf_two_v1 m a8 c

/-- Off the second region's arrays nothing has changed. -/
theorem hrest1 (c : Dev nD) (b : Ref sig .tc) (hb : b ∉ Finset.univ.image (Pipeline.arrRef spec1)) :
    V2 m (outsOf m a8) c (Proc.devRef .tc b) = V1 m (outsOf m a8) c (Proc.devRef .tc b) :=
  V2_of m (outsOf m a8) c b fun h => hb (by
    simp only [List.mem_cons, List.not_mem_nil, or_false] at h
    subst h
    exact Finset.mem_image.mpr ⟨8, Finset.mem_univ _, rfl⟩)

/-- The valuation after the first region does not look at what the second leaves. -/
theorem V1_indep (a8' : (c : Dev nD) → Buf (Elt F) ((c : Thread nD τ).loc main_v1)) (c : Dev nD) :
    V1 m (outsOf m a8) c = V1 m (outsOf m a8') c := rfl

end Cert.Kernel.Asm

end
-- ==== Proof.WAsmShared.lean ====
/-
  The second kernel region's arrays among the core's unscoped buffers, when windows share an array.

  The region's nine windows sit on five buffers: each of the four normalised maps is read through two windows, a
  band of 1024 rows and a band of 512 rows, and the ninth window is the output array.  On entry each map's buffer,
  held outright, is divided into two half shares, one per window on it; the output's buffer goes to its window
  whole.  On exit the two halves of each map, both still at the entry contents, are joined again.
-/
import proofs.«181995_j31490700214616_2_alg».proof.Proof.Gen.Kernel.Regions
import proofs.«181995_j31490700214616_2_alg».proof.Proof.Gen.Kernel.Points
import Idealize.ShloMosaic.Lib.Pipeline.FrameBody
import Idealize.ShloMosaic.Lib.Pipeline.RegionsLoop

noncomputable section

namespace Cert.Kernel.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel Cert.Kernel.Gen

variable {F : FTy → Type} [FloatOps F]

local notation "𝕄" => MT nD τ sig Unit (Elt F) ℕ (UR sig nD τ) ℕ

/-- The share of its array each window of the second region holds: the windows on the bands of 1024 rows the left
    half, those on the bands of 512 rows the right half (the output window's entry is not consulted). -/
def qShared : Fin cfg1.W → PosShare TreeShare := fun w => if w.val % 2 = 0 then fullShare.left else fullShare.right

/-- The five buffers behind the nine windows. -/
theorem image_arrRef1 : Finset.univ.image (Pipeline.arrRef spec1) = ({main_v0_0, main_v0_1, main_v0_2, main_v0_3, main_v1} : Finset (Ref sig .tc)) := by decide

variable {c : Dev nD} (d : Dat τ (Elt F) Unit ℕ (UR sig nD τ) ℕ cfg1 c)

/-- A window's array at contents `G`, the array being a whole buffer. -/
theorem arrays1_eq (G : (w : Fin cfg1.W) → Buf (Elt F) (((cfg1.win w).arr.view.loc (c.tc : Thread nD τ)))) :
    d.arrays G = bigSep Finset.univ fun w : Fin cfg1.W => ((((c.tc : Thread nD τ).loc (Pipeline.arrRef spec1 w)) ↦{d.share w} G w : sProp 𝕄)) := by
  unfold Dat.arrays
  exact bigSep_congr fun w _ => by rw [(arr_whole1 w).set_eq_univ]

theorem share1_0 (hq : d.q = qShared) : d.share (0 : Fin 9) = fullShare.left := by unfold Dat.share; rw [hq]; rfl
theorem share1_1 (hq : d.q = qShared) : d.share (1 : Fin 9) = fullShare.right := by unfold Dat.share; rw [hq]; rfl
theorem share1_2 (hq : d.q = qShared) : d.share (2 : Fin 9) = fullShare.left := by unfold Dat.share; rw [hq]; rfl
theorem share1_3 (hq : d.q = qShared) : d.share (3 : Fin 9) = fullShare.right := by unfold Dat.share; rw [hq]; rfl
theorem share1_4 (hq : d.q = qShared) : d.share (4 : Fin 9) = fullShare.left := by unfold Dat.share; rw [hq]; rfl
theorem share1_5 (hq : d.q = qShared) : d.share (5 : Fin 9) = fullShare.right := by unfold Dat.share; rw [hq]; rfl
theorem share1_6 (hq : d.q = qShared) : d.share (6 : Fin 9) = fullShare.left := by unfold Dat.share; rw [hq]; rfl
theorem share1_7 (hq : d.q = qShared) : d.share (7 : Fin 9) = fullShare.right := by unfold Dat.share; rw [hq]; rfl
theorem share1_8 (hq : d.q = qShared) : d.share (8 : Fin 9) = fullShare := by unfold Dat.share; rw [hq]; rfl

/-- A buffer held outright is its two half shares, at the same contents. -/
theorem full_split (ℓ : Loc nD τ sig) (f : Buf (Elt F) ℓ) :
    (ℓ ↦{fullShare} f : sProp 𝕄) ⊢ iprop((ℓ ↦{fullShare.left} f) ∗ ℓ ↦{fullShare.right} f) :=
  (pointsTo_share (PosShare.mem_left_op_right fullShare)).1

theorem full_join (ℓ : Loc nD τ sig) (f : Buf (Elt F) ℓ) :
    iprop((ℓ ↦{fullShare.left} f) ∗ ℓ ↦{fullShare.right} f) ⊢ (ℓ ↦{fullShare} f : sProp 𝕄) :=
  (pointsTo_share (PosShare.mem_left_op_right fullShare)).2

/-- The five buffers behind the windows, each whole at contents `V`, one by one. -/
theorem arrBufs1_eq (V : (b : Ref sig .tc) → Buf (Elt F) ((c.tc : Thread nD τ).loc b)) :
    (Pipeline.arrBufs spec1 c V : sProp 𝕄) = iprop((((c.tc : Thread nD τ).loc main_v0_0) ↦{fullShare} V main_v0_0) ∗ (((c.tc : Thread nD τ).loc main_v0_1) ↦{fullShare} V main_v0_1)
      ∗ (((c.tc : Thread nD τ).loc main_v0_2) ↦{fullShare} V main_v0_2) ∗ (((c.tc : Thread nD τ).loc main_v0_3) ↦{fullShare} V main_v0_3) ∗ (((c.tc : Thread nD τ).loc main_v1) ↦{fullShare} V main_v1)) := by
  unfold Pipeline.arrBufs
  rw [image_arrRef1, bigSep_insert (by decide), bigSep_insert (by decide), bigSep_insert (by decide), bigSep_insert (by decide), bigSep_singleton]
  rfl

/-- ENTRY: the core's unscoped buffers at contents `V` are the region's arrays at the proof data's entry contents,
    each map's buffer divided between its two windows, and the unscoped rest. -/
theorem arrays1_of_unscopedBufs (hq : d.q = qShared) (V : (b : Ref sig .tc) → Buf (Elt F) ((c.tc : Thread nD τ).loc b))
    (hA : ∀ w, d.A w = V (Pipeline.arrRef spec1 w)) :
    (unscopedBufs c V : sProp 𝕄) ⊢ iprop(d.arrays (d.arrAt · 0) ∗ Pipeline.unscopedRest spec1 c V) := by
  rw [Pipeline.unscopedBufs_split₀ (fun _ : Fin 1 => cfg1) 0 winFacts₀1.arr_unscoped c V]
  refine sep_mono ?_ .rfl
  rw [arrays1_eq, arrBufs1_eq, bigSep_W1]
  simp only [share1_0 d hq, share1_1 d hq, share1_2 d hq, share1_3 d hq, share1_4 d hq, share1_5 d hq, share1_6 d hq, share1_7 d hq, share1_8 d hq, show ∀ w, d.arrAt w 0 = V (Pipeline.arrRef spec1 w) from fun w => hA w]
  iintro ⟨H0, H1, H2, H3, H4⟩
  ihave K0 := (full_split _ _) $$ [H0]
  · iexact H0
  ihave K1 := (full_split _ _) $$ [H1]
  · iexact H1
  ihave K2 := (full_split _ _) $$ [H2]
  · iexact H2
  ihave K3 := (full_split _ _) $$ [H3]
  · iexact H3
  icases K0 with ⟨H0l, H0r⟩
  icases K1 with ⟨H1l, H1r⟩
  icases K2 with ⟨H2l, H2r⟩
  icases K3 with ⟨H3l, H3r⟩
  isplitl [H0l]; · iexact H0l
  isplitl [H0r]; · iexact H0r
  isplitl [H1l]; · iexact H1l
  isplitl [H1r]; · iexact H1r
  isplitl [H2l]; · iexact H2l
  isplitl [H2r]; · iexact H2r
  isplitl [H3l]; · iexact H3l
  isplitl [H3r]; · iexact H3r
  iexact H4

/-- EXIT: the region's arrays at contents `G`, the two windows of each map agreeing, and the unscoped rest at `V`
    are the core's unscoped buffers at any valuation `V'` that has the arrays at `G` and agrees with `V` off them. -/
theorem unscopedBufs_of_arrays1 (hq : d.q = qShared) (V V' : (b : Ref sig .tc) → Buf (Elt F) ((c.tc : Thread nD τ).loc b))
    (G : (w : Fin cfg1.W) → Buf (Elt F) (((cfg1.win w).arr.view.loc (c.tc : Thread nD τ))))
    (hG : ∀ w, G w = V' (Pipeline.arrRef spec1 w))
    (hrest : ∀ b, b ∉ Finset.univ.image (Pipeline.arrRef spec1) → V' b = V b) :
    iprop(d.arrays G ∗ Pipeline.unscopedRest spec1 c V) ⊢ (unscopedBufs c V' : sProp 𝕄) := by
  rw [Pipeline.unscopedBufs_split₀ (fun _ : Fin 1 => cfg1) 0 winFacts₀1.arr_unscoped c V']
  refine sep_mono ?_ (Entails.of_eq ?_)
  · rw [arrays1_eq, arrBufs1_eq, bigSep_W1]
    simp only [share1_0 d hq, share1_1 d hq, share1_2 d hq, share1_3 d hq, share1_4 d hq, share1_5 d hq, share1_6 d hq, share1_7 d hq, share1_8 d hq, hG]
    iintro ⟨H0l, H0r, H1l, H1r, H2l, H2r, H3l, H3r, H4⟩
    isplitl [H0l H0r]
    · iapply (full_join _ _); isplitl [H0l] <;> iassumption
    isplitl [H1l H1r]
    · iapply (full_join _ _); isplitl [H1l] <;> iassumption
    isplitl [H2l H2r]
    · iapply (full_join _ _); isplitl [H2l] <;> iassumption
    isplitl [H3l H3r]
    · iapply (full_join _ _); isplitl [H3l] <;> iassumption
    iexact H4
  · unfold Pipeline.unscopedRest
    exact bigSep_congr fun b hb => by rw [hrest b (Finset.mem_sdiff.mp hb).2]

end Cert.Kernel.Asm

end
-- ==== Proof.WAsmSeg1.lean ====
/-
  The second kernel region as one item of the program's run.

  Entered holding every unscoped buffer at the valuation after the first region, left at the one after the second:
  each normalised map's buffer is divided between the two windows that read it and joined again on exit, the output
  array goes to its window whole and comes back at what the write-backs leave; the generator register and the
  scratch go into the body's invariant and come back; nothing is owed.
-/
import proofs.«181995_j31490700214616_2_alg».proof.Proof.WAsmSeg0
import proofs.«181995_j31490700214616_2_alg».proof.Proof.WAsmShared

noncomputable section

namespace Cert.Kernel.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (outs : Outs (F := F))
variable (d0 : (c : Dev nD) → Dat τ (Elt F) Unit ℕ (UR sig nD τ) ℕ cfg0 c) (d1 : (c : Dev nD) → Dat τ (Elt F) Unit ℕ (UR sig nD τ) ℕ cfg1 c)

set_option backward.isDefEq.respectTransparency.types false in
/-- The second region's record. -/
def reg1
    (hA : ∀ c w, (d1 c).A w = V1 m outs c (Pipeline.arrRef spec1 w))
    (hq : ∀ c, (d1 c).q = qShared) (howed : ∀ c t, (d1 c).owed t = 0) (hrec : ∀ c t, (d1 c).recorded t = Set.univ)
    (hbody : ∀ c, BodyObligation (d1 c) (defs₀ (F := F)) Variants.none () Set.univ)
    (hin : ∀ c, Pipeline.ΦA spec1 c ⊢ (d1 c).Φ 0) (hout : ∀ c, (d1 c).Φ (Fin.last cfg1.N) ⊢ Pipeline.ΦA spec1 c)
    (hF : ∀ c w, (d1 c).arrAt w cfg1.N = V2 m outs c (Pipeline.arrRef spec1 w))
    (hrest : ∀ c b, b ∉ Finset.univ.image (Pipeline.arrRef spec1) → V2 m outs c (Proc.devRef .tc b) = V1 m outs c (Proc.devRef .tc b)) :
    RegionSeg (pcfgs (F := F)) adm (pdatsOf d0 d1) () defs₀ Variants.none Lv lvl 1 where
  win := winFacts₀1
  block_pos := block_pos1
  stage_whole := stage_whole1
  K := PEmpty
  osem k := k.elim
  ho := Pipeline.OwnSemFacts.none _
  hbody c := (hbody c).loose
  hwaits := Pipeline.hwaits_of_owed_zero _ _ _ _ Lv lvl 1 fun c t => howed c t
  pre c := iprop(StableHlo.held (c : Thread nD τ) (Pipeline.ucRefs τ sig) (V1 m outs c) ∗ Ride c)
  post c := iprop(StableHlo.held (c : Thread nD τ) (Pipeline.ucRefs τ sig) (V2 m outs c) ∗ Ride c)
  X c := iprop(∃ r, prngReg c r)
  Y c := iprop(∃ r, prngReg c r)
  Z c := Pipeline.unscopedRest (Ix := Unit) (Name := ℕ) (U := UR sig nD τ) (Lvl := ℕ) spec1 c (fun b => V1 m outs c b)
  hentry c := by
    rw [Pipeline.ownSems0_none]
    have hsplit := arrays1_of_unscopedBufs (pdatsOf d0 d1 1 c) (hq c) (fun b => V1 m outs c b) fun w => hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdatsOf d0 d1 1 c).owed 0 = 0 from howed c 0]
      icases HO with ⟨%W, HO⟩; iexists W; isplitr; · ipureintro; exact fun _ _ => Or.inl (by rw [show (pdatsOf d0 d1 1 c).recorded 0 = Set.univ from hrec c 0]; trivial)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := unscopedBufs_of_arrays1 (pdatsOf d0 d1 1 c) (hq c) (fun b => V1 m outs c b) (fun b => V2 m outs c b) ((pdatsOf d0 d1 1 c).arrAt · cfg1.N) (fun w => hF c w) (fun b hb => hrest c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdatsOf d0 d1 1 c).owed (Fin.last _) = 0 from howed c _]
    icases HO with ⟨%W, -, HO⟩; iexists W; iexact HO

end Cert.Kernel.Asm

end
-- ==== Proof.WAsmRun.lean ====
/-
  The run of the whole program from the regions' records, with the result read back.

  Between two items of the program core `c` holds every unscoped buffer at a valuation: the launch contents, then
  what the first region leaves in its four output arrays, then what the second leaves in its output array, then the
  host operations after it applied in order.  Given one record per region entered from the valuation before it and
  left at the one after it, every weakly fair execution terminates, the result buffer ends at the last valuation's
  contents and every argument as launched.
-/
import proofs.«181995_j31490700214616_2_alg».proof.Proof.Gen.Kernel.Regions

noncomputable section

namespace Cert.Kernel.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

set_option backward.isDefEq.respectTransparency.types false in
/-- The program's run with the result named: as the conditional frame, the final memory also holding the result
    buffer at the last valuation. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V1 m outs c) ∗ E 1 c) ⊢ R1.pre c)
    (hpost1 : ∀ c : Dev nD, R1.post c ⊢ iprop(StableHlo.held (c : Thread nD τ) (Pipeline.ucRefs τ sig) (V2 m outs c) ∗ E 2 c)) :
    θ_run defs (onTc (τ := τ) (main (F := F))) ⟨m, fun _ => 0, ρ⟩ (fun r => ∀ c : Dev nD,
      r.2.mem ((c.tc : Thread nD τ).loc main_v6) = V3 m outs c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V3 m outs c))
    (hch := fun c => ⟨hpre0 c, (hpost0 c).trans (hpre1 c), hpost1 c, sep_mono .rfl (hE2 c)⟩)
    (hinit := ?_) (QY := fun c s => s.mem ((c.tc : Thread nD τ).loc main_v6) = V3 m outs c main_v6 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V3 m outs c) s') $$ [Hh HSI]
    · isplitl [Hh] <;> iassumption
    icases Hr with ⟨%h, HSI⟩
    imodintro
    isplitr
    · ipureintro
      exact ⟨h (Proc.devRef .tc main_v6) (Finset.mem_filter.mpr ⟨StableHlo.devRef_mem_tcRefs main_v6, by decide⟩),
        (h (Proc.devRef .tc main_arg0) (Finset.mem_filter.mpr ⟨StableHlo.devRef_mem_tcRefs main_arg0, by decide⟩)).trans (V3_main_arg0 m outs c),
        (h (Proc.devRef .tc main_arg1) (Finset.mem_filter.mpr ⟨StableHlo.devRef_mem_tcRefs main_arg1, by decide⟩)).trans (V3_main_arg1 m outs c),
        (h (Proc.devRef .tc main_arg2) (Finset.mem_filter.mpr ⟨StableHlo.devRef_mem_tcRefs main_arg2, by decide⟩)).trans (V3_main_arg2 m outs c),
        (h (Proc.devRef .tc main_arg3) (Finset.mem_filter.mpr ⟨StableHlo.devRef_mem_tcRefs main_arg3, by decide⟩)).trans (V3_main_arg3 m outs c)⟩
    · iexact HSI

end Cert.Kernel.Asm

end
-- ==== Proof.WAsmLaunch.lean ====
/-
  The launch: the program's run from the two regions' records, nothing owed at launch, no ghost state beside the
  pipelines' own, and beside the buffers only the generator register and the (empty) dues riding through every item.
-/
import proofs.«181995_j31490700214616_2_alg».proof.Proof.WAsmRun
import proofs.«181995_j31490700214616_2_alg».proof.Proof.WAsmSeg0

noncomputable section

namespace Cert.Kernel.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

set_option backward.isDefEq.respectTransparency.types false in
/-- The run, from the regions' records chained through the valuations. -/
theorem run_of (m : (ℓ : Loc nD τ sig) → Buf (Elt F) ℓ) (ρ : Dev nD → PrngReg) (outs : Outs (F := F))
    (pdats : (p : Fin 2) → (c : Dev nD) → Dat τ (Elt F) Unit ℕ (UR sig nD τ) ℕ (cfgs p) c)
    (R0 : RegionSeg (pcfgs (F := F)) adm pdats () defs₀ Variants.none Lv lvl 0)
    (hpre0 : ∀ c : Dev nD, iprop(StableHlo.held (c : Thread nD τ) (Pipeline.ucRefs τ sig) (V0 m c) ∗ Ride c) ⊢ R0.pre c)
    (hpost0 : ∀ c : Dev nD, R0.post c ⊢ iprop(StableHlo.held (c : Thread nD τ) (Pipeline.ucRefs τ sig) (V1 m outs c) ∗ Ride c))
    (R1 : RegionSeg (pcfgs (F := F)) adm pdats () defs₀ Variants.none Lv lvl 1)
    (hpre1 : ∀ c : Dev nD, iprop(StableHlo.held (c : Thread nD τ) (Pipeline.ucRefs τ sig) (V1 m outs c) ∗ Ride c) ⊢ R1.pre c)
    (hpost1 : ∀ c : Dev nD, R1.post c ⊢ iprop(StableHlo.held (c : Thread nD τ) (Pipeline.ucRefs τ sig) (V2 m outs c) ∗ Ride c)) :
    θ_run defs (onTc (τ := τ) (main (F := F))) ⟨m, fun _ => 0, ρ⟩ (fun r => ∀ c : Dev nD,
      r.2.mem ((c.tc : Thread nD τ).loc main_v6) = V3 m outs c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_cond m emb₁ () Variants.none Lv lvl (fun _ _ => rfl) ρ outs pdats (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Ride c)
    (hE0 := by
      refine Pipeline.initEach Lv lvl fun c => ?_
      iintro ⟨⟨-, HO, -, Hp, -⟩, -⟩
      imodintro
      isplitl [Hp]; · iexists _; iexact Hp
      iexists ∅; iexact HO)
    (hE2 := fun c => by
      iintro ⟨-, HO⟩; iexact HO)
    R0 hpre0 hpost0 R1 hpre1 hpost1

end Cert.Kernel.Asm

end
-- ==== Proof.WAsmMain.lean ====
/-
  The kernel program's run, assembled: both regions' records from their bodies' obligations, the valuations between
  the items, and the run with the result buffer named.
-/
import proofs.«181995_j31490700214616_2_alg».proof.Proof.WR0Body
import proofs.«181995_j31490700214616_2_alg».proof.Proof.WR1Sound
import proofs.«181995_j31490700214616_2_alg».proof.Proof.WAsmOuts
import proofs.«181995_j31490700214616_2_alg».proof.Proof.WAsmSeg1
import proofs.«181995_j31490700214616_2_alg».proof.Proof.WAsmLaunch

noncomputable section

namespace Cert.Kernel.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

variable (m : (ℓ : Loc nD τ sig) → Buf (Elt F) ℓ)

/-- A stand-in for what the second region leaves, used only to name the valuation it is entered at (which does not
    look at it). -/
def a8₀ (c : Dev nD) : Buf (Elt F) ((c : Thread nD τ).loc main_v1) := V0 m c main_v1

/-- The buffers as the second region finds them. -/
def vin1 (c : Dev nD) (b : Ref sig .tc) : Buf (Elt F) ((c : Thread nD τ).loc b) := V1 m (outsOf m (a8₀ m)) c b

/-- The second region's proof data, at those contents, each shared array divided between its two windows. -/
def d1 (c : Dev nD) : Dat τ (Elt F) Unit ℕ (UR sig nD τ) ℕ cfg1 c := R1.dat1 (vin1 m) qShared c

/-- What the second region leaves in its output array. -/
def a8 (c : Dev nD) : Buf (Elt F) ((c : Thread nD τ).loc main_v1) := (d1 m c).arrAt 8 cfg1.N

/-- What the regions leave. -/
def outsF : Outs (F := F) := outsOf m (a8 m)

theorem hA1 (c : Dev nD) (w : Fin cfg1.W) : (d1 m c).A w = V1 m (outsF m) c (Pipeline.arrRef spec1 w) :=
  R1.A_eq1 (vin1 m) qShared c w

/-- Every array of the second region after it: the maps as it found them, the output at what the write-backs leave. -/
theorem hF1 (c : Dev nD) (w : Fin cfg1.W) : (d1 m c).arrAt w cfg1.N = V2 m (outsF m) c (Pipeline.arrRef spec1 w) := by
  match w with
  | 0 => exact ((d1 m c).arrAt_in 0 rfl _).trans ((hA1 m c 0).trans (V2_of m (outsF m) c main_v0_0 (by decide)).symm)
  | 1 => exact ((d1 m c).arrAt_in 1 rfl _).trans ((hA1 m c 1).trans (V2_of m (outsF m) c main_v0_0 (by decide)).symm)
  | 2 => exact ((d1 m c).arrAt_in 2 rfl _).trans ((hA1 m c 2).trans (V2_of m (outsF m) c main_v0_1 (by decide)).symm)
  | 3 => exact ((d1 m c).arrAt_in 3 rfl _).trans ((hA1 m c 3).trans (V2_of m (outsF m) c main_v0_1 (by decide)).symm)
  | 4 => exact ((d1 m c).arrAt_in 4 rfl _).trans ((hA1 m c 4).trans (V2_of m (outsF m) c main_v0_2 (by decide)).symm)
  | 5 => exact ((d1 m c).arrAt_in 5 rfl _).trans ((hA1 m c 5).trans (V2_of m (outsF m) c main_v0_2 (by decide)).symm)
  | 6 => exact ((d1 m c).arrAt_in 6 rfl _).trans ((hA1 m c 6).trans (V2_of m (outsF m) c main_v0_3 (by decide)).symm)
  | 7 => exact ((d1 m c).arrAt_in 7 rfl _).trans ((hA1 m c 7).trans (V2_of m (outsF m) c main_v0_3 (by decide)).symm)
  | 8 => exact (V2_v1 m (a8 m) c).symm
  | ⟨_ + 9, h⟩ => exact absurd h (Nat.not_lt.2 (Nat.le_add_left _ _))

/-- The first region's record. -/
def R0rec : RegionSeg (pcfgs (F := F)) adm (pdatsOf (d0 m) (d1 m)) () defs₀ Variants.none Lv lvl 0 :=
  reg0 m (outsF m) (d0 m) (d1 m) (fun c w => R0.A_eq0 (vin0 m) c w) (fun _ _ => rfl) (fun _ _ => rfl) (fun _ _ => rfl)
    (fun c => R0.body_obligation0 (vin0 m) c) (fun _ => .rfl) (fun _ => .rfl) (fun c w => hF0 m (a8 m) c w) (fun c b hb => hrest0 m (a8 m) c b hb)

/-- The second region's record. -/
def R1rec : RegionSeg (pcfgs (F := F)) adm (pdatsOf (d0 m) (d1 m)) () defs₀ Variants.none Lv lvl 1 :=
  reg1 m (outsF m) (d0 m) (d1 m) (fun c w => hA1 m c w) (fun _ => rfl) (fun _ _ => rfl) (fun _ _ => rfl)
    (fun c => R1.body_obligation1 (vin1 m) qShared c) (fun c => R1.hin1 (vin1 m) qShared c) (fun c => R1.hout1 (vin1 m) qShared c)
    (fun c w => hF1 m c w) (fun c b hb => hrest1 m (a8 m) c b hb)

/-- THE RUN: every weakly fair execution of the kernel program terminates, its result buffer ending at the host
    operations' value of what the second region leaves, every argument as launched. -/
theorem run_value (ρ : Dev nD → PrngReg) :
    θ_run defs (onTc (τ := τ) (main (F := F))) ⟨m, fun _ => 0, ρ⟩ (fun r => ∀ c : Dev nD,
      r.2.mem ((c.tc : Thread nD τ).loc main_v6) = V3 m (outsF m) c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_of m ρ (outsF m) (pdatsOf (d0 m) (d1 m)) (R0rec m) (fun _ => .rfl) (fun _ => .rfl) (R1rec m) (fun _ => .rfl) (fun _ => .rfl)

/-- THE FRAME: the same run, keeping only that the arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_value m ρ)

end Cert.Kernel.Asm

end
-- ==== Proof.R0Body.lean ====
/-
  The row-normalisation call, region 0 of the program, at a parameter `V`: the contents of the core's buffers when
  the region is entered.

  The call walks four grid points.  At each it is handed a block of 1024 rows of each of the four input maps and a
  staging buffer for the same rows of each of the four output maps.  The body reads each input block once and
  overwrites the matching output buffer, whole, with a pure function of that block alone (each row divided by the
  larger of its norm and a small constant, then rounded); it reads every output buffer just before overwriting it,
  and makes no use of what it read.  So after the body an input buffer holds its block as before and output buffer
  `4 + k` holds `out0_(4+k)` of input block `k`, whatever it held before.

  This module states that as the pipeline's proof data `dat0` and proves the body's obligation against it, at any
  float instance.
-/
import proofs.«181995_j31490700214616_2_alg».proof.Proof.Gen.KernelIdeal.Launch
import proofs.«181995_j31490700214616_2_alg».proof.Proof.Gen.KernelIdeal.Skeleton
import proofs.«181995_j31490700214616_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the entry contents and whose body leaves the block in place: the window is never cut and
    never idle, and where it is not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is the entry contents and whose body leaves the block in place: the window is never cut and
    never idle, and where it is not fetched its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is the entry contents and whose body leaves the block in place: the window is never cut and
    never idle, and where it is not fetched its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is the entry contents and whose body leaves the block in place: the window is never cut and
    never idle, and where it is not fetched its block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle every load and store of the body goes through: the whole 1024 x 512 buffer. -/
abbrev r0_0 : Rect S1024x512 := Rect.unit (s := S1024x512) ![0, 0] S1024x512.size inb_S1024x512_S1024x512_0_0

/-! ## What the body leaves in each output window's buffer -/

/-- Output buffer 4 after the body: its one store, of the normalised and rounded rows of input block 0. -/
def out0_4 (x0 : Vec F S1024x512 .f32) : Vec F S1024x512 .bf16 :=
  View.canon [⟨r0_0, k0_pay2 (View.ld x0 r0_0)⟩]
/-- Output buffer 5 after the body: its one store, of the normalised and rounded rows of input block 1. -/
def out0_5 (x1 : Vec F S1024x512 .f32) : Vec F S1024x512 .bf16 :=
  View.canon [⟨r0_0, k0_pay3 (View.ld x1 r0_0)⟩]
/-- Output buffer 6 after the body: its one store, of the normalised and rounded rows of input block 2. -/
def out0_6 (x2 : Vec F S1024x512 .f32) : Vec F S1024x512 .bf16 :=
  View.canon [⟨r0_0, k0_pay4 (View.ld x2 r0_0)⟩]
/-- Output buffer 7 after the body: its one store, of the normalised and rounded rows of input block 3 (the squares
    of the entries are formed in the first part of the body and handed to the second). -/
def out0_7 (x3 : Vec F S1024x512 .f32) : Vec F S1024x512 .bf16 :=
  View.canon [⟨r0_0, k0_pay1 (View.ld x3 r0_0) (k0_pay5 (View.ld x3 r0_0))⟩]

/-- One store through the whole-buffer rectangle covers the buffer. -/
theorem cover0 (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

/-! ## The body's triple -/

set_option maxHeartbeats 4000000 in
/-- The body on whole staging memrefs, the inputs' at contents `x0 … x3` and the outputs' at anything, runs to the
    continuation holding the inputs' as they were and output `4 + k`'s at `out0_(4+k) xk`. -/
theorem sound_kernel0 (c : Dev nD) (E : Set ℕ) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole)
    (x0 : Vec F S1024x512 .f32) (x1 : Vec F S1024x512 .f32) (x2 : Vec F S1024x512 .f32) (x3 : Vec F S1024x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0) ∗ owns (c : Thread nD τ) arg6 fullShare (out0_5 x1) ∗ owns (c : Thread nD τ) arg7 fullShare (out0_6 x2) ∗ owns (c : Thread nD τ) arg8 fullShare (out0_7 x3)) -∗ K ⟨⟩))
      ⊢ wp frame (wpE (defs₀ (F := F)) Variants.none c none) E (cc0__normalize_cast_kernel i arg1 harg1 arg2 harg2 arg3 harg3 arg4 harg4 arg5 harg5 arg6 harg6 arg7 harg7 arg8 harg8) K := by
  simp only [cc0__normalize_cast_kernel_eq_skeleton]; unfold cc0__normalize_cast_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover0 _)
  isplitl [H5]
  · iexists _; isplitr
    swap; · iexact H5
    ipureintro
    try dsimp only
    exact View.read_writes_eq_canon _ _ _ (cover0 _)
  isplitl [H6]
  · iexists _; isplitr
    swap; · iexact H6
    ipureintro
    try dsimp only
    exact View.read_writes_eq_canon _ _ _ (cover0 _)
  iexists _; isplitr
  swap; · iexact H7
  ipureintro
  try dsimp only
  exact View.read_writes_eq_canon _ _ _ (cover0 _)

/-! ## The pipeline's proof data -/

/-- The proof data of the call on core `c`: the arrays as the region finds them; after the body at point `t` each
    input's buffer at its block and output `4 + k`'s at `out0_(4+k)` of input block `k`; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t)
    | ⟨5, _⟩ => out0_5 (iblk0 V c 1 t)
    | ⟨6, _⟩ => out0_6 (iblk0 V c 2 t)
    | ⟨7, _⟩ => out0_7 (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) := by dsimp only [dat0]
theorem after0_5 (c : Dev nD) (t : Fin cfg0.N) : (dat0 V c).after 5 t = out0_5 (iblk0 V c 1 t) := by dsimp only [dat0]
theorem after0_6 (c : Dev nD) (t : Fin cfg0.N) : (dat0 V c).after 6 t = out0_6 (iblk0 V c 2 t) := by dsimp only [dat0]
theorem after0_7 (c : Dev nD) (t : Fin cfg0.N) : (dat0 V c).after 7 t = out0_7 (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.R1Runs.lean ====
import proofs.«181995_j31490700214616_2_alg».proof.Proof.Gen.KernelIdeal.Launch
import proofs.«181995_j31490700214616_2_alg».proof.Proof.Gen.KernelIdeal.Skeleton
import proofs.«181995_j31490700214616_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the Gram-difference kernel: what its three control cases share

The grid is 4 x 8; point `t` has coordinates `(t / 8, t % 8)`. Along the second axis the body accumulates into a
scratch vector: at the first column of a row of the grid it clears the scratch, at every column it adds the tile's
sum of squared Gram differences, at the last column it copies the scratch into the output block. Everything is
stated at a parameter `V`: the TensorCore's buffer contents when the region is entered. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The input windows hold their blocks

An input window that is not fetched at a point has the block index of the point before, so its staging buffer
still holds the point's block; the windows are uncut and never idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form -/

/-- The first conditional (clear the scratch): the second grid coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional (copy the scratch to the output block): the second grid coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
/-- Away from the last column the output window is idle and not written back. -/
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
/-- At the last column it is live. -/
theorem liveAt1_8 : ∀ t : Fin cfg1.N, cond1_1 (grid1.coords t) → cfg1.idle 8 (grid1.coords t) = false := by decide +kernel

/-! ## The point's memrefs -/

/-- One staging buffer of the output window, through which its contents are stated. -/
abbrev VO1_8 : View sig .tc .vmem S1x8x128 .f32 := (Memref.whole cc1_stg8_0 : Memref sig .tc .vmem S1x8x128 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x512 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x512 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x8x128 .f32 := win1_8.stage (cfg1.slots t 8)
abbrev hs1_8 (t : Fin cfg1.N) : (ms1_8 t).IsWhole := hstage1_8 ((cfg1.slots t 8).cast nbuf1_8)
/-- The scratch vector the body carries from point to point, as a memref and as a view. -/
abbrev scM1 : Memref sig .tc .vmem S8x128 .f32 := Memref.whole cc1_scratch0
abbrev VS1 : View sig .tc .vmem S8x128 .f32 := scM1.view

/-! ## The region's invariant, with the scratch in sight -/

/-- The core's scoped buffers other than this call's staging buffers and its scratch, at some contents each. -/
abbrev Rest1 (c : Dev nD) : sProp 𝕄 :=
  Pipeline.scopedRestBut (Ix := Unit) (Name := ℕ) (U := UR sig nD τ) (Lvl := ℕ) (Val := Elt F) spec1 c [cc1_scratch0]

theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ Rest1 c) :=
  Pipeline.scopedRest_split_of_list spec1 c [cc1_scratch0] (by decide) (by decide)

/-- The class invariant is: the scratch at some contents, the other scoped buffers, the generator register. -/
theorem PhiA1_eq (c : Dev nD) :
    (Pipeline.ΦA spec1 c : sProp 𝕄)
      = iprop(iprop((∃ d, owns (c : Thread nD τ) scM1 fullShare d) ∗ Rest1 c) ∗ (∃ r, prngReg c r)) := by
  unfold Pipeline.ΦA; rw [scopedRest1_split]; simp only [scM1, owns_whole]; try rfl

end Cert.KernelIdeal.R1

end
-- ==== Proof.R1RunA.lean ====
import proofs.«181995_j31490700214616_2_alg».proof.Proof.R1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at the first column of a grid row: the scratch is cleared, then accumulated into; the output block is left alone. On whole staging memrefs, the eight input blocks at their contents, it runs to the
    continuation with the inputs as they were and the pieces its stores wrote: the witness lists them, last first
    (`L8` for the output block, `LS` for the scratch). -/
noncomputable def kernelRun1_A (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x512 .bf16) (harg4 : arg4.IsWhole) (arg5 : Memref sig .tc .vmem S512x512 .bf16) (harg5 : arg5.IsWhole) (arg6 : Memref sig .tc .vmem S1024x512 .bf16) (harg6 : arg6.IsWhole) (arg7 : Memref sig .tc .vmem S512x512 .bf16) (harg7 : arg7.IsWhole) (arg8 : Memref sig .tc .vmem S1024x512 .bf16) (harg8 : arg8.IsWhole) (arg9 : Memref sig .tc .vmem S512x512 .bf16) (harg9 : arg9.IsWhole) (arg10 : Memref sig .tc .vmem S1x8x128 .f32) (harg10 : arg10.IsWhole) (arg11 : Memref sig .tc .vmem S8x128 .f32) (harg11 : arg11.IsWhole) (hc0 : cond1_0 i) (hc1 : ¬cond1_1 i)
    (x0 : Vec F S1024x512 .bf16) (x1 : Vec F S512x512 .bf16) (x2 : Vec F S1024x512 .bf16) (x3 : Vec F S512x512 .bf16) (x4 : Vec F S1024x512 .bf16) (x5 : Vec F S512x512 .bf16) (x6 : Vec F S1024x512 .bf16) (x7 : Vec F S512x512 .bf16) :
    Σ' (L8 : List (View.Piece (Elt F) S1x8x128 .f32)), { LS : List (View.Piece (Elt F) S8x128 .f32) //
      ∀ (xi8 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc1_pgcl_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1_pgcl_kernel_eq_skeleton]; unfold cc1_pgcl_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.KernelIdeal.R1

end
-- ==== Proof.R1RunB.lean ====
import proofs.«181995_j31490700214616_2_alg».proof.Proof.R1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at an inner column: the scratch the point before left is accumulated into; the output block is left alone. On whole staging memrefs, the eight input blocks at their contents, it runs to the
    continuation with the inputs as they were and the pieces its stores wrote: the witness lists them, last first
    (`L8` for the output block, `LS` for the scratch). -/
noncomputable def kernelRun1_B (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x512 .bf16) (harg4 : arg4.IsWhole) (arg5 : Memref sig .tc .vmem S512x512 .bf16) (harg5 : arg5.IsWhole) (arg6 : Memref sig .tc .vmem S1024x512 .bf16) (harg6 : arg6.IsWhole) (arg7 : Memref sig .tc .vmem S512x512 .bf16) (harg7 : arg7.IsWhole) (arg8 : Memref sig .tc .vmem S1024x512 .bf16) (harg8 : arg8.IsWhole) (arg9 : Memref sig .tc .vmem S512x512 .bf16) (harg9 : arg9.IsWhole) (arg10 : Memref sig .tc .vmem S1x8x128 .f32) (harg10 : arg10.IsWhole) (arg11 : Memref sig .tc .vmem S8x128 .f32) (harg11 : arg11.IsWhole) (hc0 : ¬cond1_0 i) (hc1 : ¬cond1_1 i)
    (x0 : Vec F S1024x512 .bf16) (x1 : Vec F S512x512 .bf16) (x2 : Vec F S1024x512 .bf16) (x3 : Vec F S512x512 .bf16) (x4 : Vec F S1024x512 .bf16) (x5 : Vec F S512x512 .bf16) (x6 : Vec F S1024x512 .bf16) (x7 : Vec F S512x512 .bf16) (xs : Vec F S8x128 .f32) :
    Σ' (L8 : List (View.Piece (Elt F) S1x8x128 .f32)), { LS : List (View.Piece (Elt F) S8x128 .f32) //
      ∀ (xi8 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc1_pgcl_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1_pgcl_kernel_eq_skeleton]; unfold cc1_pgcl_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.KernelIdeal.R1

end
-- ==== Proof.R1RunC.lean ====
import proofs.«181995_j31490700214616_2_alg».proof.Proof.R1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at the last column: the scratch is accumulated into, then copied into the output block. On whole staging memrefs, the eight input blocks at their contents, it runs to the
    continuation with the inputs as they were and the pieces its stores wrote: the witness lists them, last first
    (`L8` for the output block, `LS` for the scratch). -/
noncomputable def kernelRun1_C (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x512 .bf16) (harg4 : arg4.IsWhole) (arg5 : Memref sig .tc .vmem S512x512 .bf16) (harg5 : arg5.IsWhole) (arg6 : Memref sig .tc .vmem S1024x512 .bf16) (harg6 : arg6.IsWhole) (arg7 : Memref sig .tc .vmem S512x512 .bf16) (harg7 : arg7.IsWhole) (arg8 : Memref sig .tc .vmem S1024x512 .bf16) (harg8 : arg8.IsWhole) (arg9 : Memref sig .tc .vmem S512x512 .bf16) (harg9 : arg9.IsWhole) (arg10 : Memref sig .tc .vmem S1x8x128 .f32) (harg10 : arg10.IsWhole) (arg11 : Memref sig .tc .vmem S8x128 .f32) (harg11 : arg11.IsWhole) (hc0 : ¬cond1_0 i) (hc1 : cond1_1 i)
    (x0 : Vec F S1024x512 .bf16) (x1 : Vec F S512x512 .bf16) (x2 : Vec F S1024x512 .bf16) (x3 : Vec F S512x512 .bf16) (x4 : Vec F S1024x512 .bf16) (x5 : Vec F S512x512 .bf16) (x6 : Vec F S1024x512 .bf16) (x7 : Vec F S512x512 .bf16) (xs : Vec F S8x128 .f32) :
    Σ' (L8 : List (View.Piece (Elt F) S1x8x128 .f32)), { LS : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc1_pgcl_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1_pgcl_kernel_eq_skeleton]; unfold cc1_pgcl_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS

end Cert.KernelIdeal.R1

end
-- ==== Proof.R1Body.lean ====
import proofs.«181995_j31490700214616_2_alg».proof.Proof.R1RunA
import proofs.«181995_j31490700214616_2_alg».proof.Proof.R1RunB
import proofs.«181995_j31490700214616_2_alg».proof.Proof.R1RunC
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The Gram-difference kernel's body at every grid point

What the three control cases leave in the scratch vector and in the output block, as the pure payloads of the
point's eight input blocks; the scratch after each point by recursion along the grid (cleared at the first column of
each grid row, then one tile's sum of squared differences added per column); the proof data; the body obligation. -/

variable (V : (c : Dev nD) → (b : Ref sig .tc) → Buf (Elt F) ((c : Thread nD τ).loc b))
variable (q : Fin cfg1.W → PosShare TreeShare)

/-- Every store and load of the body is through the whole block at zero offsets. -/
theorem hz2 : (![0, 0] : Fin 2 → ℕ) = fun _ => 0 := funext fun a => by
  match a with
  | ⟨0, _⟩ => rfl
  | ⟨1, _⟩ => rfl
theorem hz3 : (![0, 0, 0] : Fin 3 → ℕ) = fun _ => 0 := funext fun a => by
  match a with
  | ⟨0, _⟩ => rfl
  | ⟨1, _⟩ => rfl
  | ⟨2, _⟩ => rfl

/-! ## What each case leaves, as payloads -/

section Pieces
variable (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x512 .bf16) (harg4 : arg4.IsWhole) (arg5 : Memref sig .tc .vmem S512x512 .bf16) (harg5 : arg5.IsWhole) (arg6 : Memref sig .tc .vmem S1024x512 .bf16) (harg6 : arg6.IsWhole) (arg7 : Memref sig .tc .vmem S512x512 .bf16) (harg7 : arg7.IsWhole) (arg8 : Memref sig .tc .vmem S1024x512 .bf16) (harg8 : arg8.IsWhole) (arg9 : Memref sig .tc .vmem S512x512 .bf16) (harg9 : arg9.IsWhole) (arg10 : Memref sig .tc .vmem S1x8x128 .f32) (harg10 : arg10.IsWhole) (arg11 : Memref sig .tc .vmem S8x128 .f32) (harg11 : arg11.IsWhole)
variable (x0 : Vec F S1024x512 .bf16) (x1 : Vec F S512x512 .bf16) (x2 : Vec F S1024x512 .bf16) (x3 : Vec F S512x512 .bf16) (x4 : Vec F S1024x512 .bf16) (x5 : Vec F S512x512 .bf16) (x6 : Vec F S1024x512 .bf16) (x7 : Vec F S512x512 .bf16) (xs : Vec F S8x128 .f32)

/-- First column: the scratch ends at the tile's sum added to the zero vector. -/
theorem canonS_A (hc0 : cond1_0 i) (hc1 : ¬cond1_1 i) :
    View.canon (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1 = k1_pay1 (k1_pay5 x6 x7 x4 x5) (k1_pay6 x6 x7 x0 x1) (k1_pay7 x6 x7 x2 x3) (k1_pay3 (F := F)) := by
  unfold kernelRun1_A; dsimp only; sl_unfold_words
  rw [View.canon_cons_unit_zero hz2]
  simp only [View.readAt_eq_ld, harg2.read_unread, harg3.read_unread, harg4.read_unread, harg5.read_unread, harg6.read_unread, harg7.read_unread, harg8.read_unread, harg9.read_unread, View.ld_unit_zero (S := S1024x512) hz2, View.ld_unit_zero (S := S512x512) hz2, View.readCov_unit_zero (S := S8x128) _ hz2]

theorem coverS_A (hc0 : cond1_0 i) (hc1 : ¬cond1_1 i) (y : S8x128.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set := by
  unfold kernelRun1_A; dsimp only; sl_unfold_words
  exact ⟨_, List.mem_cons_self, View.mem_set_unit_zero hz2 inb_S8x128_S8x128_0_0 y⟩

/-- Inner column: the scratch ends at the tile's sum added to what it held. -/
theorem canonS_B (hc0 : ¬cond1_0 i) (hc1 : ¬cond1_1 i) :
    View.canon (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs).2.1 = k1_pay1 (k1_pay5 x6 x7 x4 x5) (k1_pay6 x6 x7 x0 x1) (k1_pay7 x6 x7 x2 x3) xs := by
  unfold kernelRun1_B; dsimp only; sl_unfold_words
  rw [View.canon_cons_unit_zero hz2]
  simp only [View.readAt_eq_ld, harg2.read_unread, harg3.read_unread, harg4.read_unread, harg5.read_unread, harg6.read_unread, harg7.read_unread, harg8.read_unread, harg9.read_unread, harg11.read_unread, View.ld_unit_zero (S := S1024x512) hz2, View.ld_unit_zero (S := S512x512) hz2, View.ld_unit_zero (S := S8x128) hz2]

theorem coverS_B (hc0 : ¬cond1_0 i) (hc1 : ¬cond1_1 i) (y : S8x128.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set := by
  unfold kernelRun1_B; dsimp only; sl_unfold_words
  exact ⟨_, List.mem_cons_self, View.mem_set_unit_zero hz2 inb_S8x128_S8x128_0_0 y⟩

/-- Last column: the scratch ends as at an inner column. -/
theorem canonS_C (hc0 : ¬cond1_0 i) (hc1 : cond1_1 i) :
    View.canon (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).2.1 = k1_pay1 (k1_pay5 x6 x7 x4 x5) (k1_pay6 x6 x7 x0 x1) (k1_pay7 x6 x7 x2 x3) xs := by
  unfold kernelRun1_C; dsimp only; sl_unfold_words
  rw [View.canon_cons_unit_zero hz2]
  simp only [View.readAt_eq_ld, harg2.read_unread, harg3.read_unread, harg4.read_unread, harg5.read_unread, harg6.read_unread, harg7.read_unread, harg8.read_unread, harg9.read_unread, harg11.read_unread, View.ld_unit_zero (S := S1024x512) hz2, View.ld_unit_zero (S := S512x512) hz2, View.ld_unit_zero (S := S8x128) hz2]

theorem coverS_C (hc0 : ¬cond1_0 i) (hc1 : cond1_1 i) (y : S8x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set := by
  unfold kernelRun1_C; dsimp only; sl_unfold_words
  exact ⟨_, List.mem_cons_self, View.mem_set_unit_zero hz2 inb_S8x128_S8x128_0_0 y⟩

/-- Last column: the output block is the scratch's new contents, re-laid as one 8 x 128 page. -/
theorem canonO_C (hc0 : ¬cond1_0 i) (hc1 : cond1_1 i) :
    View.canon (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).1 = k1_pay2 (k1_pay1 (k1_pay5 x6 x7 x4 x5) (k1_pay6 x6 x7 x0 x1) (k1_pay7 x6 x7 x2 x3) xs) := by
  unfold kernelRun1_C; dsimp only; sl_unfold_words
  rw [View.canon_cons_unit_zero hz3]
  simp only [View.readCov_unit_zero (S := S8x128) _ hz2, View.readAt_eq_ld, harg2.read_unread, harg3.read_unread, harg4.read_unread, harg5.read_unread, harg6.read_unread, harg7.read_unread, harg8.read_unread, harg9.read_unread, harg11.read_unread, View.ld_unit_zero (S := S1024x512) hz2, View.ld_unit_zero (S := S512x512) hz2, View.ld_unit_zero (S := S8x128) hz2]

theorem coverO_C (hc0 : ¬cond1_0 i) (hc1 : cond1_1 i) (y : S1x8x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set := by
  unfold kernelRun1_C; dsimp only; sl_unfold_words
  exact ⟨_, List.mem_cons_self, View.mem_set_unit_zero hz3 inb_S1x8x128_S1x8x128_0_0_0 y⟩

end Pieces

/-! ## The scratch after each point -/

/-- The scratch after the body at position `n`: the tile's sum of squared differences added to the zero vector at
    the first column of a grid row, to what the point before left elsewhere. -/
def scAt (c : Dev nD) : (n : ℕ) → n < cfg1.N → Vec F S8x128 .f32
  | 0, hn => k1_pay1 (k1_pay5 (iblk1 V c 6 ⟨0, hn⟩) (iblk1 V c 7 ⟨0, hn⟩) (iblk1 V c 4 ⟨0, hn⟩) (iblk1 V c 5 ⟨0, hn⟩)) (k1_pay6 (iblk1 V c 6 ⟨0, hn⟩) (iblk1 V c 7 ⟨0, hn⟩) (iblk1 V c 0 ⟨0, hn⟩) (iblk1 V c 1 ⟨0, hn⟩)) (k1_pay7 (iblk1 V c 6 ⟨0, hn⟩) (iblk1 V c 7 ⟨0, hn⟩) (iblk1 V c 2 ⟨0, hn⟩) (iblk1 V c 3 ⟨0, hn⟩)) (k1_pay3 (F := F))
  | n + 1, hn => k1_pay1 (k1_pay5 (iblk1 V c 6 ⟨n + 1, hn⟩) (iblk1 V c 7 ⟨n + 1, hn⟩) (iblk1 V c 4 ⟨n + 1, hn⟩) (iblk1 V c 5 ⟨n + 1, hn⟩)) (k1_pay6 (iblk1 V c 6 ⟨n + 1, hn⟩) (iblk1 V c 7 ⟨n + 1, hn⟩) (iblk1 V c 0 ⟨n + 1, hn⟩) (iblk1 V c 1 ⟨n + 1, hn⟩)) (k1_pay7 (iblk1 V c 6 ⟨n + 1, hn⟩) (iblk1 V c 7 ⟨n + 1, hn⟩) (iblk1 V c 2 ⟨n + 1, hn⟩) (iblk1 V c 3 ⟨n + 1, hn⟩))
      (if (n + 1) % 8 = 0 then (k1_pay3 (F := F)) else scAt c n (Nat.lt_of_succ_lt hn))

theorem scAt_first (c : Dev nD) (n : ℕ) (hn : n < cfg1.N) (h : n % 8 = 0) :
    scAt V c n hn = k1_pay1 (k1_pay5 (iblk1 V c 6 ⟨n, hn⟩) (iblk1 V c 7 ⟨n, hn⟩) (iblk1 V c 4 ⟨n, hn⟩) (iblk1 V c 5 ⟨n, hn⟩)) (k1_pay6 (iblk1 V c 6 ⟨n, hn⟩) (iblk1 V c 7 ⟨n, hn⟩) (iblk1 V c 0 ⟨n, hn⟩) (iblk1 V c 1 ⟨n, hn⟩)) (k1_pay7 (iblk1 V c 6 ⟨n, hn⟩) (iblk1 V c 7 ⟨n, hn⟩) (iblk1 V c 2 ⟨n, hn⟩) (iblk1 V c 3 ⟨n, hn⟩)) (k1_pay3 (F := F)) := by
  cases n with
  | zero => rfl
  | succ n => rw [scAt, if_pos h]

theorem scAt_next (c : Dev nD) (n : ℕ) (hn : n < cfg1.N) (h : n % 8 ≠ 0) :
    scAt V c n hn = k1_pay1 (k1_pay5 (iblk1 V c 6 ⟨n, hn⟩) (iblk1 V c 7 ⟨n, hn⟩) (iblk1 V c 4 ⟨n, hn⟩) (iblk1 V c 5 ⟨n, hn⟩)) (k1_pay6 (iblk1 V c 6 ⟨n, hn⟩) (iblk1 V c 7 ⟨n, hn⟩) (iblk1 V c 0 ⟨n, hn⟩) (iblk1 V c 1 ⟨n, hn⟩)) (k1_pay7 (iblk1 V c 6 ⟨n, hn⟩) (iblk1 V c 7 ⟨n, hn⟩) (iblk1 V c 2 ⟨n, hn⟩) (iblk1 V c 3 ⟨n, hn⟩)) (scAt V c (n - 1) (Nat.lt_of_le_of_lt (Nat.sub_le _ _) hn)) := by
  cases n with
  | zero => exact absurd (Nat.zero_mod _) h
  | succ n => rw [scAt, if_neg h]; rfl

/-! ## The invariant carrying the scratch -/

/-- Before the first point the class invariant; afterwards the scratch at what the point before left, beside the
    other scoped buffers and the generator register. -/
def PhiS (c : Dev nD) : (n : ℕ) → n ≤ cfg1.N → sProp 𝕄
  | 0, _ => Pipeline.ΦA spec1 c
  | n + 1, hn => iprop(iprop(owns (c : Thread nD τ) scM1 fullShare (scAt V c n hn) ∗ Rest1 c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1 fullShare (scAt V c n hn) ∗ Rest1 c) ∗ (∃ r, prngReg c r)) := rfl

theorem PhiS_pos (c : Dev nD) (n : ℕ) (h : n ≤ cfg1.N) (hz : n ≠ 0) :
    PhiS V c n h = iprop(iprop(owns (c : Thread nD τ) scM1 fullShare (scAt V c (n - 1) (by omega)) ∗ Rest1 c) ∗ (∃ r, prngReg c r)) := by
  cases n with
  | zero => exact absurd rfl hz
  | succ n => rfl

/-! ## The proof data -/

/-- The arrays as the region finds them; after the body each input's buffer at its block, the output's at the
    scratch re-laid as a page (consulted at the last column of a grid row only); the invariant carrying the scratch;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => k1_pay2 (scAt V c t.val t.isLt)
  Φ t := PhiS V c t.val (Nat.le_of_lt_succ t.isLt)
  q := q
  owed _ := 0

theorem A_eq1 (c : Dev nD) (w : Fin cfg1.W) : (dat1 V q c).A w = V c (Pipeline.arrRef spec1 w) := by
  dsimp only [dat1]

theorem PhiS_castSucc (c : Dev nD) (t : Fin cfg1.N) :
    (dat1 V q c).Φ t.castSucc = PhiS V c t.val (Nat.le_of_lt t.isLt) := by
  dsimp only [dat1]; simp only [Fin.coe_castSucc]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = iblk1 V c 3 t := by dsimp only [dat1]
theorem after1_4 (c : Dev nD) (t : Fin cfg1.N) : (dat1 V q c).after 4 t = iblk1 V c 4 t := by dsimp only [dat1]
theorem after1_5 (c : Dev nD) (t : Fin cfg1.N) : (dat1 V q c).after 5 t = iblk1 V c 5 t := by dsimp only [dat1]
theorem after1_6 (c : Dev nD) (t : Fin cfg1.N) : (dat1 V q c).after 6 t = iblk1 V c 6 t := by dsimp only [dat1]
theorem after1_7 (c : Dev nD) (t : Fin cfg1.N) : (dat1 V q c).after 7 t = iblk1 V c 7 t := by dsimp only [dat1]
theorem after1_8' (c : Dev nD) (t : Fin cfg1.N) : (dat1 V q c).after 8 t = k1_pay2 (scAt V c t.val t.isLt) := by dsimp only [dat1]
/-- At the last column of a grid row the output block is the scratch's contents there. -/
theorem after1_8 (c : Dev nD) (t : Fin cfg1.N) (h : t.val % 8 = 7) : (dat1 V q c).after 8 t = k1_pay2 (scAt V c t.val t.isLt) :=
  after1_8' V q c t

theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d
theorem before1_3 (c : Dev nD) (t : Fin cfg1.N) (d) : (dat1 V q c).before 3 t d = iblk1 V c 3 t :=
  before1_3_of V (dat1 V q c) (A_eq1 V q c 3) (after1_3 V q c) t d
theorem before1_4 (c : Dev nD) (t : Fin cfg1.N) (d) : (dat1 V q c).before 4 t d = iblk1 V c 4 t :=
  before1_4_of V (dat1 V q c) (A_eq1 V q c 4) (after1_4 V q c) t d
theorem before1_5 (c : Dev nD) (t : Fin cfg1.N) (d) : (dat1 V q c).before 5 t d = iblk1 V c 5 t :=
  before1_5_of V (dat1 V q c) (A_eq1 V q c 5) (after1_5 V q c) t d
theorem before1_6 (c : Dev nD) (t : Fin cfg1.N) (d) : (dat1 V q c).before 6 t d = iblk1 V c 6 t :=
  before1_6_of V (dat1 V q c) (A_eq1 V q c 6) (after1_6 V q c) t d
theorem before1_7 (c : Dev nD) (t : Fin cfg1.N) (d) : (dat1 V q c).before 7 t d = iblk1 V c 7 t :=
  before1_7_of V (dat1 V q c) (A_eq1 V q c 7) (after1_7 V q c) t d

end Cert.KernelIdeal.R1

end
-- ==== Proof.R1Sound.lean ====
import proofs.«181995_j31490700214616_2_alg».proof.Proof.R1Body

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body obligation of the Gram-difference kernel's region

At every grid point the eight input buffers hold their blocks; which of the three control cases the point is in is
read off its position modulo 8; the invariant hands the body the scratch at what the point before left (at anything
before the first point) and takes it back at this point's contents. -/

variable (V : (c : Dev nD) → (b : Ref sig .tc) → Buf (Elt F) ((c : Thread nD τ).loc b))
variable (q : Fin cfg1.W → PosShare TreeShare)

/-- What the body is called with at point `t`, the windows one by one. -/
def bodyPre (c : Dev nD) (t : Fin cfg1.N) : sProp 𝕄 :=
  iprop((dat1 V q c).Φ t.castSucc ∗ (dat1 V q c).owesAt () t.castSucc
    ∗ (∃ d, owns (c : Thread nD τ) (ms1_0 t) fullShare ((dat1 V q c).before 0 t d))
    ∗ (∃ d, owns (c : Thread nD τ) (ms1_1 t) fullShare ((dat1 V q c).before 1 t d))
    ∗ (∃ d, owns (c : Thread nD τ) (ms1_2 t) fullShare ((dat1 V q c).before 2 t d))
    ∗ (∃ d, owns (c : Thread nD τ) (ms1_3 t) fullShare ((dat1 V q c).before 3 t d))
    ∗ (∃ d, owns (c : Thread nD τ) (ms1_4 t) fullShare ((dat1 V q c).before 4 t d))
    ∗ (∃ d, owns (c : Thread nD τ) (ms1_5 t) fullShare ((dat1 V q c).before 5 t d))
    ∗ (∃ d, owns (c : Thread nD τ) (ms1_6 t) fullShare ((dat1 V q c).before 6 t d))
    ∗ (∃ d, owns (c : Thread nD τ) (ms1_7 t) fullShare ((dat1 V q c).before 7 t d))
    ∗ (∃ d, owns (c : Thread nD τ) (ms1_8 t) fullShare ((dat1 V q c).before 8 t d)))

/-- What the body returns at point `t`. -/
def bodyPost (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t
    ∗ (dat1 V q c).leavesExact 3 t
    ∗ (dat1 V q c).leavesExact 4 t
    ∗ (dat1 V q c).leavesExact 5 t
    ∗ (dat1 V q c).leavesExact 6 t
    ∗ (dat1 V q c).leavesExact 7 t
    ∗ (dat1 V q c).leavesExact 8 t)

set_option maxHeartbeats 4800000 in
theorem sound_body (c : Dev nD) (t : Fin cfg1.N) :
    bodyPre V q c t ⊢ wp frame (wpE (defs₀ (F := F)) Variants.none c none) Set.univ (bodyAt1 t) (fun _ => bodyPost V q c t) := by
  unfold bodyPre bodyPost bodyAt1
  simp only [before1_0, before1_1, before1_2, before1_3, before1_4, before1_5, before1_6, before1_7]
  rw [show (dat1 V q c).owesAt () t.succ = (dat1 V q c).owesAt () t.castSucc from rfl]
  rw [show (dat1 V q c).Φ t.succ = PhiS V c (t.val + 1) t.isLt from rfl, PhiS_succ]
  rw [show (dat1 V q c).leavesExact 0 t = owns (c : Thread nD τ) (ms1_0 t) fullShare ((dat1 V q c).after 0 t) from by
    unfold Dat.leavesExact; rw [liveAt1_0 t], after1_0]
  rw [show (dat1 V q c).leavesExact 1 t = owns (c : Thread nD τ) (ms1_1 t) fullShare ((dat1 V q c).after 1 t) from by
    unfold Dat.leavesExact; rw [liveAt1_1 t], after1_1]
  rw [show (dat1 V q c).leavesExact 2 t = owns (c : Thread nD τ) (ms1_2 t) fullShare ((dat1 V q c).after 2 t) from by
    unfold Dat.leavesExact; rw [liveAt1_2 t], after1_2]
  rw [show (dat1 V q c).leavesExact 3 t = owns (c : Thread nD τ) (ms1_3 t) fullShare ((dat1 V q c).after 3 t) from by
    unfold Dat.leavesExact; rw [liveAt1_3 t], after1_3]
  rw [show (dat1 V q c).leavesExact 4 t = owns (c : Thread nD τ) (ms1_4 t) fullShare ((dat1 V q c).after 4 t) from by
    unfold Dat.leavesExact; rw [liveAt1_4 t], after1_4]
  rw [show (dat1 V q c).leavesExact 5 t = owns (c : Thread nD τ) (ms1_5 t) fullShare ((dat1 V q c).after 5 t) from by
    unfold Dat.leavesExact; rw [liveAt1_5 t], after1_5]
  rw [show (dat1 V q c).leavesExact 6 t = owns (c : Thread nD τ) (ms1_6 t) fullShare ((dat1 V q c).after 6 t) from by
    unfold Dat.leavesExact; rw [liveAt1_6 t], after1_6]
  rw [show (dat1 V q c).leavesExact 7 t = owns (c : Thread nD τ) (ms1_7 t) fullShare ((dat1 V q c).after 7 t) from by
    unfold Dat.leavesExact; rw [liveAt1_7 t], after1_7]
  by_cases h0 : t.val % 8 = 0
  · have h1 : ¬t.val % 8 = 7 := by omega
    rw [Dat.leavesExact_idle (dat1 V q c) 8 t (idleAt1_8 t (fun h => h1 ((hcond1_1 t).mp h))) (noFlush1_8 t (fun h => h1 ((hcond1_1 t).mp h)))]
    by_cases hz : t.val = 0
    · rw [PhiS_castSucc V q c t, PhiS_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [HS HR Hg]
      · isplitl [HS HR]
        · isplitl [HS]
          · unfold owns; iexists _; isplitr
            swap; · iexact HS
            ipureintro
            exact (View.read_writes_eq_canon _ _ _ (coverS_A c _ _ _ _ _ _ _ _ _ _ _ _ _ _ _ _ _ _ _ _ _ _ _ _ _ _ _ _ _ _ _)).trans
              ((canonS_A c _ _ _ _ _ _ _ _ _ _ _ _ _ _ _ _ _ _ _ _ _ _ _ _ _ _ _ _ _ _ _).trans (scAt_first V c t.val t.isLt h0).symm)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS_castSucc V q c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexists _; iexact HS
      iintro ⟨H0, H1, H2, H3, H4, H5, H6, H7, H8, ⟨%es, HS⟩⟩
      isplitl [HS HR Hg]
      · isplitl [HS HR]
        · isplitl [HS]
          · unfold owns; iexists _; isplitr
            swap; · iexact HS
            ipureintro
            exact (View.read_writes_eq_canon _ _ _ (coverS_A c _ _ _ _ _ _ _ _ _ _ _ _ _ _ _ _ _ _ _ _ _ _ _ _ _ _ _ _ _ _ _)).trans
              ((canonS_A c _ _ _ _ _ _ _ _ _ _ _ _ _ _ _ _ _ _ _ _ _ _ _ _ _ _ _ _ _ _ _).trans (scAt_first V c t.val t.isLt h0).symm)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · by_cases h1 : t.val % 8 = 7
    · rw [show (dat1 V q c).leavesExact 8 t = owns (c : Thread nD τ) (ms1_8 t) fullShare ((dat1 V q c).after 8 t) from by
            unfold Dat.leavesExact; rw [liveAt1_8 t ((hcond1_1 t).mpr h1)], after1_8']
      have hz : t.val ≠ 0 := fun e => h0 (by rw [e])
      rw [PhiS_castSucc V q c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, ⟨%e8, H8⟩, ⟨%es, HS⟩⟩
      isplitl [HS HR Hg]
      · isplitl [HS HR]
        · isplitl [HS]
          · unfold owns; iexists _; isplitr
            swap; · iexact HS
            ipureintro
            exact (View.read_writes_eq_canon _ _ _ (coverS_C c _ _ _ _ _ _ _ _ _ _ _ _ _ _ _ _ _ _ _ _ _ _ _ _ _ _ _ _ _ _ _ _)).trans
              ((canonS_C c _ _ _ _ _ _ _ _ _ _ _ _ _ _ _ _ _ _ _ _ _ _ _ _ _ _ _ _ _ _ _ _).trans (scAt_next V c t.val t.isLt h0).symm)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro
      exact (View.read_writes_eq_canon _ _ _ (coverO_C c _ _ _ _ _ _ _ _ _ _ _ _ _ _ _ _ _ _ _ _ _ _ _ _ _ _ _ _ _ _ _ _)).trans
        ((canonO_C c _ _ _ _ _ _ _ _ _ _ _ _ _ _ _ _ _ _ _ _ _ _ _ _ _ _ _ _ _ _ _ _).trans (congrArg k1_pay2 (scAt_next V c t.val t.isLt h0).symm))
    · rw [Dat.leavesExact_idle (dat1 V q c) 8 t (idleAt1_8 t (fun h => h1 ((hcond1_1 t).mp h))) (noFlush1_8 t (fun h => h1 ((hcond1_1 t).mp h)))]
      have hz : t.val ≠ 0 := fun e => h0 (by rw [e])
      rw [PhiS_castSucc V q c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [HS HR Hg]
      · isplitl [HS HR]
        · isplitl [HS]
          · unfold owns; iexists _; isplitr
            swap; · iexact HS
            ipureintro
            exact (View.read_writes_eq_canon _ _ _ (coverS_B c _ _ _ _ _ _ _ _ _ _ _ _ _ _ _ _ _ _ _ _ _ _ _ _ _ _ _ _ _ _ _ _)).trans
              ((canonS_B c _ _ _ _ _ _ _ _ _ _ _ _ _ _ _ _ _ _ _ _ _ _ _ _ _ _ _ _ _ _ _ _).trans (scAt_next V c t.val t.isLt h0).symm)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) : BodyObligation (dat1 (F := F) V q c) (defs₀ (F := F)) Variants.none () Set.univ := fun t => by
  rw [bigSep_W1, bigSep_W1]
  exact sound_body V q c t

/-- What the launch hands the region is the invariant before the first point. -/
theorem hin1 (c : Dev nD) : Pipeline.ΦA spec1 c ⊢ (dat1 V q c).Φ 0 := by
  rw [show (dat1 V q c).Φ 0 = PhiS V c 0 (Nat.zero_le _) from rfl, PhiS_zero V c 0 _ rfl]
  try exact Idealize.SL.BI.Entails.refl _

/-- After any point but the first the invariant gives the class invariant back: the scratch's contents are forgotten. -/
theorem Phi_out (c : Dev nD) (t : Fin (cfg1.N + 1)) (ht : t.val ≠ 0) : (dat1 V q c).Φ t ⊢ Pipeline.ΦA spec1 c := by
  rw [show (dat1 V q c).Φ t = PhiS V c t.val (Nat.le_of_lt_succ t.isLt) from rfl, PhiS_pos V c _ _ ht, PhiA1_eq]
  iintro ⟨⟨HS, HR⟩, Hg⟩
  isplitl [HS HR]
  · isplitl [HS]
    · iexists _; iexact HS
    iexact HR
  iexact Hg

theorem hout1 (c : Dev nD) : (dat1 V q c).Φ (Fin.last cfg1.N) ⊢ Pipeline.ΦA spec1 c :=
  Phi_out V q c _ (by rw [Fin.val_last]; have : cfg1.N = 32 := N_1; omega)

end Cert.KernelIdeal.R1

end
-- ==== Proof.AsmSeg0.lean ====
/-
  The first kernel region as one item of the program's run.

  The region is entered holding every unscoped buffer at the launch contents and left holding them at the
  valuation after it: its eight arrays are split out of the unscoped buffers on entry (they are distinct whole
  buffers, each held outright) and put back on exit at what the write-backs leave; the generator register goes
  into the body's invariant and comes back; nothing is owed and the kernel has no semaphore of its own.
-/
import proofs.«181995_j31490700214616_2_alg».proof.Proof.Gen.KernelIdeal.Regions
import proofs.«181995_j31490700214616_2_alg».proof.Proof.Gen.KernelIdeal.Points
import Idealize.ShloMosaic.Lib.Pipeline.FrameBody
import Idealize.ShloMosaic.Lib.Pipeline.RegionsLoop
import Idealize.ShloMosaic.Lib.Pipeline.FrameSuffix

noncomputable section

namespace Cert.KernelIdeal.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

/-- No core owes another anything: no level is assigned. -/
abbrev Lv : GSem nD τ sig → Finset Unit := fun _ => ∅
abbrev lvl : GSem nD τ sig → Unit → ℕ := fun _ _ => 0

/-- What rides beside the buffers through every item: the core's generator register at some state and its dues, none. -/
abbrev Ride (c : Dev nD) : sProp 𝕄 := iprop((∃ r, prngReg c r) ∗ ∃ W, owes (c : Thread nD τ) (0 : CellTallies nD τ sig Unit) W)

/-- The two pipelines' proof data as one family. -/
def pdatsOf (d0 : (c : Dev nD) → Dat τ (Elt F) Unit ℕ (UR sig nD τ) ℕ cfg0 c) (d1 : (c : Dev nD) → Dat τ (Elt F) Unit ℕ (UR sig nD τ) ℕ cfg1 c) :
    (p : Fin 2) → (c : Dev nD) → Dat τ (Elt F) Unit ℕ (UR sig nD τ) ℕ (cfgs p) c
  | ⟨0, _⟩ => d0
  | ⟨1, _⟩ => d1

variable (m : (ℓ : Loc nD τ sig) → Buf (Elt F) ℓ) (outs : Outs (F := F))
variable (d0 : (c : Dev nD) → Dat τ (Elt F) Unit ℕ (UR sig nD τ) ℕ cfg0 c) (d1 : (c : Dev nD) → Dat τ (Elt F) Unit ℕ (UR sig nD τ) ℕ cfg1 c)

set_option backward.isDefEq.respectTransparency.types false in
/-- The first region's record. -/
def reg0
    (hA : ∀ c w, (d0 c).A w = V0 m c (Pipeline.arrRef spec0 w))
    (hq : ∀ c w, (d0 c).q w = fullShare) (howed : ∀ c t, (d0 c).owed t = 0) (hrec : ∀ c t, (d0 c).recorded t = Set.univ)
    (hbody : ∀ c, BodyObligation (d0 c) (defs₀ (F := F)) Variants.none () Set.univ)
    (hin : ∀ c, Pipeline.ΦA spec0 c ⊢ (d0 c).Φ 0) (hout : ∀ c, (d0 c).Φ (Fin.last cfg0.N) ⊢ Pipeline.ΦA spec0 c)
    (hF : ∀ c w, (d0 c).arrAt w cfg0.N = V1 m outs c (Pipeline.arrRef spec0 w))
    (hrest : ∀ c b, b ∉ Finset.univ.image (Pipeline.arrRef spec0) → V1 m outs c (Proc.devRef .tc b) = V0 m c (Proc.devRef .tc b)) :
    RegionSeg (pcfgs (F := F)) adm (pdatsOf d0 d1) () defs₀ Variants.none Lv lvl 0 where
  win := launch0.win.to₀
  block_pos := launch0.block_pos
  stage_whole := launch0.stage_whole
  K := PEmpty
  osem k := k.elim
  ho := Pipeline.OwnSemFacts.none _
  hbody c := (hbody c).loose
  hwaits := Pipeline.hwaits_of_owed_zero _ _ _ _ Lv lvl 0 fun c t => howed c t
  pre c := iprop(StableHlo.held (c : Thread nD τ) (Pipeline.ucRefs τ sig) (V0 m c) ∗ Ride c)
  post c := iprop(StableHlo.held (c : Thread nD τ) (Pipeline.ucRefs τ sig) (V1 m outs c) ∗ Ride c)
  X c := iprop(∃ r, prngReg c r)
  Y c := iprop(∃ r, prngReg c r)
  Z c := Pipeline.unscopedRest (Ix := Unit) (Name := ℕ) (U := UR sig nD τ) (Lvl := ℕ) spec0 c (fun b => V0 m c b)
  hentry c := by
    rw [Pipeline.ownSems0_none]
    have hsplit := Pipeline.arrays_of_unscopedBufs (p := 0) (pcfgs (F := F)) adm (pdatsOf d0 d1) launch0.win launch0.arr_whole c
      ((pdatsOf d0 d1 0 c).share_full fun w => hq c w) (fun b => V0 m c b) fun w => hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdatsOf d0 d1 0 c).owed 0 = 0 from howed c 0]
      icases HO with ⟨%W, HO⟩; iexists W; isplitr; · ipureintro; exact fun _ _ => Or.inl (by rw [show (pdatsOf d0 d1 0 c).recorded 0 = Set.univ from hrec c 0]; trivial)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsOf d0 d1) ((pdatsOf d0 d1 0 c).share_full fun w => hq c w)
      (fun b => V0 m c b) (fun b => V1 m outs c b) ((pdatsOf d0 d1 0 c).arrAt · cfg0.N) (fun w => hF c w) (fun b hb => hrest c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdatsOf d0 d1 0 c).owed (Fin.last _) = 0 from howed c _]
    icases HO with ⟨%W, -, HO⟩; iexists W; iexact HO

end Cert.KernelIdeal.Asm

end
-- ==== Proof.AsmOuts.lean ====
/-
  What the two kernel regions leave in the buffers they may change, and the valuations between the program's items.

  The first region leaves its four output arrays at what its write-backs compute from the launch contents; the second
  leaves its output array at a contents given from outside (its own write-backs, once its proof data are at hand).
  Every array a region only reads, and every buffer it does not touch, is as before.
-/
import proofs.«181995_j31490700214616_2_alg».proof.Proof.R0Body
import proofs.«181995_j31490700214616_2_alg».proof.Proof.AsmSeg0
import Idealize.ShloMosaic.Lib.Pipeline.FrameSuffix

noncomputable section

namespace Cert.KernelIdeal.Asm

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

/-- The launch contents read at the TensorCore's references: what the first region is entered at. -/
def vin0 (c : Dev nD) (b : Ref sig .tc) : Buf (Elt F) ((c : Thread nD τ).loc b) := V0 m c b

/-- The first region's proof data, at the launch contents. -/
def d0 (c : Dev nD) : Dat τ (Elt F) Unit ℕ (UR sig nD τ) ℕ cfg0 c := R0.dat0 (vin0 m) c

/-- What the regions leave: after the first, its arrays at what its write-backs leave; after the second, its
    output array at `a8`. -/
def outsOf (a8 : (c : Dev nD) → Buf (Elt F) ((c : Thread nD τ).loc main_v1)) : Outs (F := F)
  | 1, r, c => Pipeline.withArrays spec0 c (V0 m c) (fun w => (d0 m c).arrAt w cfg0.N) (Proc.devRef .tc r)
  | _, r, c => Function.update (V0 m c) (Proc.devRef .tc main_v1) (a8 c) (Proc.devRef .tc r)

variable (a8 : (c : Dev nD) → Buf (Elt F) ((c : Thread nD τ).loc main_v1))

theorem outsOf_one (r : Ref sig .tc) (c : Dev nD) :
    outsOf m a8 1 r c = Pipeline.withArrays spec0 c (V0 m c) (fun w => (d0 m c).arrAt w cfg0.N) (Proc.devRef .tc r) := rfl

theorem outsOf_two_v1 (c : Dev nD) : outsOf m a8 2 main_v1 c = a8 c := by
  show Function.update (V0 m c) (Proc.devRef .tc main_v1) (a8 c) (Proc.devRef .tc main_v1) = a8 c
  exact Function.update_self _ _ _

/-- After the first region each of its output arrays holds what the write-backs leave. -/
theorem V1_out (c : Dev nD) (w : Fin cfg0.W) (hw : 4 ≤ w.val) :
    V1 m (outsOf m a8) c (Proc.devRef .tc (Pipeline.arrRef spec0 w)) = (d0 m c).arrAt w cfg0.N := by
  have key : ∀ w' : Fin cfg0.W, outsOf m a8 1 (Pipeline.arrRef spec0 w') c = (d0 m c).arrAt w' cfg0.N := fun w' => by
    rw [outsOf_one]; exact Pipeline.withArrays_arr spec0 launch0.win.arr_inj c _ _ w'
  match w, hw with
  | 4, _ =>
    show Function.update (Function.update (Function.update (Function.update (V0 m c) main_v0_0 _) main_v0_1 _) main_v0_2 _) main_v0_3 _ (Proc.devRef .tc main_v0_0) = _
    rw [Function.update_of_ne (by decide), Function.update_of_ne (by decide), Function.update_of_ne (by decide), Function.update_self]
    exact key 4
  | 5, _ =>
    show Function.update (Function.update (Function.update (Function.update (V0 m c) main_v0_0 _) main_v0_1 _) main_v0_2 _) main_v0_3 _ (Proc.devRef .tc main_v0_1) = _
    rw [Function.update_of_ne (by decide), Function.update_of_ne (by decide), Function.update_self]
    exact key 5
  | 6, _ =>
    show Function.update (Function.update (Function.update (Function.update (V0 m c) main_v0_0 _) main_v0_1 _) main_v0_2 _) main_v0_3 _ (Proc.devRef .tc main_v0_2) = _
    rw [Function.update_of_ne (by decide), Function.update_self]
    exact key 6
  | 7, _ =>
    show Function.update (Function.update (Function.update (Function.update (V0 m c) main_v0_0 _) main_v0_1 _) main_v0_2 _) main_v0_3 _ (Proc.devRef .tc main_v0_3) = _
    rw [Function.update_self]
    exact key 7
  | 0, h => exact absurd h (by decide)
  | 1, h => exact absurd h (by decide)
  | 2, h => exact absurd h (by decide)
  | 3, h => exact absurd h (by decide)
  | ⟨_ + 8, h⟩, _ => exact absurd h (Nat.not_lt.2 (Nat.le_add_left _ _))

/-- Every array of the first region holds, after it, what the valuation after it says: the inputs their launch
    contents, the outputs what the write-backs leave. -/
theorem hF0 (c : Dev nD) (w : Fin cfg0.W) : (d0 m c).arrAt w cfg0.N = V1 m (outsOf m a8) c (Pipeline.arrRef spec0 w) := by
  match w with
  | 0 => exact ((d0 m c).arrAt_in 0 rfl _).trans ((R0.A_eq0 (vin0 m) c 0).trans (V1_of m (outsOf m a8) c main_arg0 (by decide)).symm)
  | 1 => exact ((d0 m c).arrAt_in 1 rfl _).trans ((R0.A_eq0 (vin0 m) c 1).trans (V1_of m (outsOf m a8) c main_arg1 (by decide)).symm)
  | 2 => exact ((d0 m c).arrAt_in 2 rfl _).trans ((R0.A_eq0 (vin0 m) c 2).trans (V1_of m (outsOf m a8) c main_arg2 (by decide)).symm)
  | 3 => exact ((d0 m c).arrAt_in 3 rfl _).trans ((R0.A_eq0 (vin0 m) c 3).trans (V1_of m (outsOf m a8) c main_arg3 (by decide)).symm)
  | 4 => exact (V1_out m a8 c 4 (by decide)).symm
  | 5 => exact (V1_out m a8 c 5 (by decide)).symm
  | 6 => exact (V1_out m a8 c 6 (by decide)).symm
  | 7 => exact (V1_out m a8 c 7 (by decide)).symm
  | ⟨_ + 8, h⟩ => exact absurd h (Nat.not_lt.2 (Nat.le_add_left _ _))

/-- Off the first region's arrays nothing has changed. -/
theorem hrest0 (c : Dev nD) (b : Ref sig .tc) (hb : b ∉ Finset.univ.image (Pipeline.arrRef spec0)) :
    V1 m (outsOf m a8) c (Proc.devRef .tc b) = V0 m c (Proc.devRef .tc b) :=
  V1_of m (outsOf m a8) c b fun h => hb (by
    simp only [List.mem_cons, List.not_mem_nil, or_false] at h
    rcases h with rfl | rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩
    · exact Finset.mem_image.mpr ⟨7, Finset.mem_univ _, rfl⟩)

/-- After the second region its output array holds `a8`. -/
theorem V2_v1 (c : Dev nD) : V2 m (outsOf m a8) c (Proc.devRef .tc main_v1) = a8 c := by
  show Function.update (V1 m (outsOf m a8) c) main_v1 (outsOf m a8 2 main_v1 c) (Proc.devRef .tc main_v1) = a8 c
  rw [Function.update_self]; exact outsOf_two_v1 m a8 c

/-- Off the second region's arrays nothing has changed. -/
theorem hrest1 (c : Dev nD) (b : Ref sig .tc) (hb : b ∉ Finset.univ.image (Pipeline.arrRef spec1)) :
    V2 m (outsOf m a8) c (Proc.devRef .tc b) = V1 m (outsOf m a8) c (Proc.devRef .tc b) :=
  V2_of m (outsOf m a8) c b fun h => hb (by
    simp only [List.mem_cons, List.not_mem_nil, or_false] at h
    subst h
    exact Finset.mem_image.mpr ⟨8, Finset.mem_univ _, rfl⟩)

/-- The valuation after the first region does not look at what the second leaves. -/
theorem V1_indep (a8' : (c : Dev nD) → Buf (Elt F) ((c : Thread nD τ).loc main_v1)) (c : Dev nD) :
    V1 m (outsOf m a8) c = V1 m (outsOf m a8') c := rfl

end Cert.KernelIdeal.Asm

end
-- ==== Proof.AsmShared.lean ====
/-
  The second kernel region's arrays among the core's unscoped buffers, when windows share an array.

  The region's nine windows sit on five buffers: each of the four normalised maps is read through two windows, a
  band of 1024 rows and a band of 512 rows, and the ninth window is the output array.  On entry each map's buffer,
  held outright, is divided into two half shares, one per window on it; the output's buffer goes to its window
  whole.  On exit the two halves of each map, both still at the entry contents, are joined again.
-/
import proofs.«181995_j31490700214616_2_alg».proof.Proof.Gen.KernelIdeal.Regions
import proofs.«181995_j31490700214616_2_alg».proof.Proof.Gen.KernelIdeal.Points
import Idealize.ShloMosaic.Lib.Pipeline.FrameBody
import Idealize.ShloMosaic.Lib.Pipeline.RegionsLoop

noncomputable section

namespace Cert.KernelIdeal.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

/-- The share of its array each window of the second region holds: the windows on the bands of 1024 rows the left
    half, those on the bands of 512 rows the right half (the output window's entry is not consulted). -/
def qShared : Fin cfg1.W → PosShare TreeShare := fun w => if w.val % 2 = 0 then fullShare.left else fullShare.right

/-- The five buffers behind the nine windows. -/
theorem image_arrRef1 : Finset.univ.image (Pipeline.arrRef spec1) = ({main_v0_0, main_v0_1, main_v0_2, main_v0_3, main_v1} : Finset (Ref sig .tc)) := by decide

variable {c : Dev nD} (d : Dat τ (Elt F) Unit ℕ (UR sig nD τ) ℕ cfg1 c)

/-- A window's array at contents `G`, the array being a whole buffer. -/
theorem arrays1_eq (G : (w : Fin cfg1.W) → Buf (Elt F) (((cfg1.win w).arr.view.loc (c.tc : Thread nD τ)))) :
    d.arrays G = bigSep Finset.univ fun w : Fin cfg1.W => ((((c.tc : Thread nD τ).loc (Pipeline.arrRef spec1 w)) ↦{d.share w} G w : sProp 𝕄)) := by
  unfold Dat.arrays
  exact bigSep_congr fun w _ => by rw [(arr_whole1 w).set_eq_univ]

theorem share1_0 (hq : d.q = qShared) : d.share (0 : Fin 9) = fullShare.left := by unfold Dat.share; rw [hq]; rfl
theorem share1_1 (hq : d.q = qShared) : d.share (1 : Fin 9) = fullShare.right := by unfold Dat.share; rw [hq]; rfl
theorem share1_2 (hq : d.q = qShared) : d.share (2 : Fin 9) = fullShare.left := by unfold Dat.share; rw [hq]; rfl
theorem share1_3 (hq : d.q = qShared) : d.share (3 : Fin 9) = fullShare.right := by unfold Dat.share; rw [hq]; rfl
theorem share1_4 (hq : d.q = qShared) : d.share (4 : Fin 9) = fullShare.left := by unfold Dat.share; rw [hq]; rfl
theorem share1_5 (hq : d.q = qShared) : d.share (5 : Fin 9) = fullShare.right := by unfold Dat.share; rw [hq]; rfl
theorem share1_6 (hq : d.q = qShared) : d.share (6 : Fin 9) = fullShare.left := by unfold Dat.share; rw [hq]; rfl
theorem share1_7 (hq : d.q = qShared) : d.share (7 : Fin 9) = fullShare.right := by unfold Dat.share; rw [hq]; rfl
theorem share1_8 (hq : d.q = qShared) : d.share (8 : Fin 9) = fullShare := by unfold Dat.share; rw [hq]; rfl

/-- A buffer held outright is its two half shares, at the same contents. -/
theorem full_split (ℓ : Loc nD τ sig) (f : Buf (Elt F) ℓ) :
    (ℓ ↦{fullShare} f : sProp 𝕄) ⊢ iprop((ℓ ↦{fullShare.left} f) ∗ ℓ ↦{fullShare.right} f) :=
  (pointsTo_share (PosShare.mem_left_op_right fullShare)).1

theorem full_join (ℓ : Loc nD τ sig) (f : Buf (Elt F) ℓ) :
    iprop((ℓ ↦{fullShare.left} f) ∗ ℓ ↦{fullShare.right} f) ⊢ (ℓ ↦{fullShare} f : sProp 𝕄) :=
  (pointsTo_share (PosShare.mem_left_op_right fullShare)).2

/-- The five buffers behind the windows, each whole at contents `V`, one by one. -/
theorem arrBufs1_eq (V : (b : Ref sig .tc) → Buf (Elt F) ((c.tc : Thread nD τ).loc b)) :
    (Pipeline.arrBufs spec1 c V : sProp 𝕄) = iprop((((c.tc : Thread nD τ).loc main_v0_0) ↦{fullShare} V main_v0_0) ∗ (((c.tc : Thread nD τ).loc main_v0_1) ↦{fullShare} V main_v0_1)
      ∗ (((c.tc : Thread nD τ).loc main_v0_2) ↦{fullShare} V main_v0_2) ∗ (((c.tc : Thread nD τ).loc main_v0_3) ↦{fullShare} V main_v0_3) ∗ (((c.tc : Thread nD τ).loc main_v1) ↦{fullShare} V main_v1)) := by
  unfold Pipeline.arrBufs
  rw [image_arrRef1, bigSep_insert (by decide), bigSep_insert (by decide), bigSep_insert (by decide), bigSep_insert (by decide), bigSep_singleton]
  rfl

/-- ENTRY: the core's unscoped buffers at contents `V` are the region's arrays at the proof data's entry contents,
    each map's buffer divided between its two windows, and the unscoped rest. -/
theorem arrays1_of_unscopedBufs (hq : d.q = qShared) (V : (b : Ref sig .tc) → Buf (Elt F) ((c.tc : Thread nD τ).loc b))
    (hA : ∀ w, d.A w = V (Pipeline.arrRef spec1 w)) :
    (unscopedBufs c V : sProp 𝕄) ⊢ iprop(d.arrays (d.arrAt · 0) ∗ Pipeline.unscopedRest spec1 c V) := by
  rw [Pipeline.unscopedBufs_split₀ (fun _ : Fin 1 => cfg1) 0 winFacts₀1.arr_unscoped c V]
  refine sep_mono ?_ .rfl
  rw [arrays1_eq, arrBufs1_eq, bigSep_W1]
  simp only [share1_0 d hq, share1_1 d hq, share1_2 d hq, share1_3 d hq, share1_4 d hq, share1_5 d hq, share1_6 d hq, share1_7 d hq, share1_8 d hq, show ∀ w, d.arrAt w 0 = V (Pipeline.arrRef spec1 w) from fun w => hA w]
  iintro ⟨H0, H1, H2, H3, H4⟩
  ihave K0 := (full_split _ _) $$ [H0]
  · iexact H0
  ihave K1 := (full_split _ _) $$ [H1]
  · iexact H1
  ihave K2 := (full_split _ _) $$ [H2]
  · iexact H2
  ihave K3 := (full_split _ _) $$ [H3]
  · iexact H3
  icases K0 with ⟨H0l, H0r⟩
  icases K1 with ⟨H1l, H1r⟩
  icases K2 with ⟨H2l, H2r⟩
  icases K3 with ⟨H3l, H3r⟩
  isplitl [H0l]; · iexact H0l
  isplitl [H0r]; · iexact H0r
  isplitl [H1l]; · iexact H1l
  isplitl [H1r]; · iexact H1r
  isplitl [H2l]; · iexact H2l
  isplitl [H2r]; · iexact H2r
  isplitl [H3l]; · iexact H3l
  isplitl [H3r]; · iexact H3r
  iexact H4

/-- EXIT: the region's arrays at contents `G`, the two windows of each map agreeing, and the unscoped rest at `V`
    are the core's unscoped buffers at any valuation `V'` that has the arrays at `G` and agrees with `V` off them. -/
theorem unscopedBufs_of_arrays1 (hq : d.q = qShared) (V V' : (b : Ref sig .tc) → Buf (Elt F) ((c.tc : Thread nD τ).loc b))
    (G : (w : Fin cfg1.W) → Buf (Elt F) (((cfg1.win w).arr.view.loc (c.tc : Thread nD τ))))
    (hG : ∀ w, G w = V' (Pipeline.arrRef spec1 w))
    (hrest : ∀ b, b ∉ Finset.univ.image (Pipeline.arrRef spec1) → V' b = V b) :
    iprop(d.arrays G ∗ Pipeline.unscopedRest spec1 c V) ⊢ (unscopedBufs c V' : sProp 𝕄) := by
  rw [Pipeline.unscopedBufs_split₀ (fun _ : Fin 1 => cfg1) 0 winFacts₀1.arr_unscoped c V']
  refine sep_mono ?_ (Entails.of_eq ?_)
  · rw [arrays1_eq, arrBufs1_eq, bigSep_W1]
    simp only [share1_0 d hq, share1_1 d hq, share1_2 d hq, share1_3 d hq, share1_4 d hq, share1_5 d hq, share1_6 d hq, share1_7 d hq, share1_8 d hq, hG]
    iintro ⟨H0l, H0r, H1l, H1r, H2l, H2r, H3l, H3r, H4⟩
    isplitl [H0l H0r]
    · iapply (full_join _ _); isplitl [H0l] <;> iassumption
    isplitl [H1l H1r]
    · iapply (full_join _ _); isplitl [H1l] <;> iassumption
    isplitl [H2l H2r]
    · iapply (full_join _ _); isplitl [H2l] <;> iassumption
    isplitl [H3l H3r]
    · iapply (full_join _ _); isplitl [H3l] <;> iassumption
    iexact H4
  · unfold Pipeline.unscopedRest
    exact bigSep_congr fun b hb => by rw [hrest b (Finset.mem_sdiff.mp hb).2]

end Cert.KernelIdeal.Asm

end
-- ==== Proof.AsmSeg1.lean ====
/-
  The second kernel region as one item of the program's run.

  Entered holding every unscoped buffer at the valuation after the first region, left at the one after the second:
  each normalised map's buffer is divided between the two windows that read it and joined again on exit, the output
  array goes to its window whole and comes back at what the write-backs leave; the generator register and the
  scratch go into the body's invariant and come back; nothing is owed.
-/
import proofs.«181995_j31490700214616_2_alg».proof.Proof.AsmSeg0
import proofs.«181995_j31490700214616_2_alg».proof.Proof.AsmShared

noncomputable section

namespace Cert.KernelIdeal.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (outs : Outs (F := F))
variable (d0 : (c : Dev nD) → Dat τ (Elt F) Unit ℕ (UR sig nD τ) ℕ cfg0 c) (d1 : (c : Dev nD) → Dat τ (Elt F) Unit ℕ (UR sig nD τ) ℕ cfg1 c)

set_option backward.isDefEq.respectTransparency.types false in
/-- The second region's record. -/
def reg1
    (hA : ∀ c w, (d1 c).A w = V1 m outs c (Pipeline.arrRef spec1 w))
    (hq : ∀ c, (d1 c).q = qShared) (howed : ∀ c t, (d1 c).owed t = 0) (hrec : ∀ c t, (d1 c).recorded t = Set.univ)
    (hbody : ∀ c, BodyObligation (d1 c) (defs₀ (F := F)) Variants.none () Set.univ)
    (hin : ∀ c, Pipeline.ΦA spec1 c ⊢ (d1 c).Φ 0) (hout : ∀ c, (d1 c).Φ (Fin.last cfg1.N) ⊢ Pipeline.ΦA spec1 c)
    (hF : ∀ c w, (d1 c).arrAt w cfg1.N = V2 m outs c (Pipeline.arrRef spec1 w))
    (hrest : ∀ c b, b ∉ Finset.univ.image (Pipeline.arrRef spec1) → V2 m outs c (Proc.devRef .tc b) = V1 m outs c (Proc.devRef .tc b)) :
    RegionSeg (pcfgs (F := F)) adm (pdatsOf d0 d1) () defs₀ Variants.none Lv lvl 1 where
  win := winFacts₀1
  block_pos := block_pos1
  stage_whole := stage_whole1
  K := PEmpty
  osem k := k.elim
  ho := Pipeline.OwnSemFacts.none _
  hbody c := (hbody c).loose
  hwaits := Pipeline.hwaits_of_owed_zero _ _ _ _ Lv lvl 1 fun c t => howed c t
  pre c := iprop(StableHlo.held (c : Thread nD τ) (Pipeline.ucRefs τ sig) (V1 m outs c) ∗ Ride c)
  post c := iprop(StableHlo.held (c : Thread nD τ) (Pipeline.ucRefs τ sig) (V2 m outs c) ∗ Ride c)
  X c := iprop(∃ r, prngReg c r)
  Y c := iprop(∃ r, prngReg c r)
  Z c := Pipeline.unscopedRest (Ix := Unit) (Name := ℕ) (U := UR sig nD τ) (Lvl := ℕ) spec1 c (fun b => V1 m outs c b)
  hentry c := by
    rw [Pipeline.ownSems0_none]
    have hsplit := arrays1_of_unscopedBufs (pdatsOf d0 d1 1 c) (hq c) (fun b => V1 m outs c b) fun w => hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdatsOf d0 d1 1 c).owed 0 = 0 from howed c 0]
      icases HO with ⟨%W, HO⟩; iexists W; isplitr; · ipureintro; exact fun _ _ => Or.inl (by rw [show (pdatsOf d0 d1 1 c).recorded 0 = Set.univ from hrec c 0]; trivial)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := unscopedBufs_of_arrays1 (pdatsOf d0 d1 1 c) (hq c) (fun b => V1 m outs c b) (fun b => V2 m outs c b) ((pdatsOf d0 d1 1 c).arrAt · cfg1.N) (fun w => hF c w) (fun b hb => hrest c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdatsOf d0 d1 1 c).owed (Fin.last _) = 0 from howed c _]
    icases HO with ⟨%W, -, HO⟩; iexists W; iexact HO

end Cert.KernelIdeal.Asm

end
-- ==== Proof.AsmRun.lean ====
/-
  The run of the whole program from the regions' records, with the result read back.

  Between two items of the program core `c` holds every unscoped buffer at a valuation: the launch contents, then
  what the first region leaves in its four output arrays, then what the second leaves in its output array, then the
  host operations after it applied in order.  Given one record per region entered from the valuation before it and
  left at the one after it, every weakly fair execution terminates, the result buffer ends at the last valuation's
  contents and every argument as launched.
-/
import proofs.«181995_j31490700214616_2_alg».proof.Proof.Gen.KernelIdeal.Regions

noncomputable section

namespace Cert.KernelIdeal.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

set_option backward.isDefEq.respectTransparency.types false in
/-- The program's run with the result named: as the conditional frame, the final memory also holding the result
    buffer at the last valuation. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V1 m outs c) ∗ E 1 c) ⊢ R1.pre c)
    (hpost1 : ∀ c : Dev nD, R1.post c ⊢ iprop(StableHlo.held (c : Thread nD τ) (Pipeline.ucRefs τ sig) (V2 m outs c) ∗ E 2 c)) :
    θ_run defs (onTc (τ := τ) (main (F := F))) ⟨m, fun _ => 0, ρ⟩ (fun r => ∀ c : Dev nD,
      r.2.mem ((c.tc : Thread nD τ).loc main_v6) = V3 m outs c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V3 m outs c))
    (hch := fun c => ⟨hpre0 c, (hpost0 c).trans (hpre1 c), hpost1 c, sep_mono .rfl (hE2 c)⟩)
    (hinit := ?_) (QY := fun c s => s.mem ((c.tc : Thread nD τ).loc main_v6) = V3 m outs c main_v6 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V3 m outs c) s') $$ [Hh HSI]
    · isplitl [Hh] <;> iassumption
    icases Hr with ⟨%h, HSI⟩
    imodintro
    isplitr
    · ipureintro
      exact ⟨h (Proc.devRef .tc main_v6) (Finset.mem_filter.mpr ⟨StableHlo.devRef_mem_tcRefs main_v6, by decide⟩),
        (h (Proc.devRef .tc main_arg0) (Finset.mem_filter.mpr ⟨StableHlo.devRef_mem_tcRefs main_arg0, by decide⟩)).trans (V3_main_arg0 m outs c),
        (h (Proc.devRef .tc main_arg1) (Finset.mem_filter.mpr ⟨StableHlo.devRef_mem_tcRefs main_arg1, by decide⟩)).trans (V3_main_arg1 m outs c),
        (h (Proc.devRef .tc main_arg2) (Finset.mem_filter.mpr ⟨StableHlo.devRef_mem_tcRefs main_arg2, by decide⟩)).trans (V3_main_arg2 m outs c),
        (h (Proc.devRef .tc main_arg3) (Finset.mem_filter.mpr ⟨StableHlo.devRef_mem_tcRefs main_arg3, by decide⟩)).trans (V3_main_arg3 m outs c)⟩
    · iexact HSI

end Cert.KernelIdeal.Asm

end
-- ==== Proof.AsmLaunch.lean ====
/-
  The launch: the program's run from the two regions' records, nothing owed at launch, no ghost state beside the
  pipelines' own, and beside the buffers only the generator register and the (empty) dues riding through every item.
-/
import proofs.«181995_j31490700214616_2_alg».proof.Proof.AsmRun
import proofs.«181995_j31490700214616_2_alg».proof.Proof.AsmSeg0

noncomputable section

namespace Cert.KernelIdeal.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

set_option backward.isDefEq.respectTransparency.types false in
/-- The run, from the regions' records chained through the valuations. -/
theorem run_of (m : (ℓ : Loc nD τ sig) → Buf (Elt F) ℓ) (ρ : Dev nD → PrngReg) (outs : Outs (F := F))
    (pdats : (p : Fin 2) → (c : Dev nD) → Dat τ (Elt F) Unit ℕ (UR sig nD τ) ℕ (cfgs p) c)
    (R0 : RegionSeg (pcfgs (F := F)) adm pdats () defs₀ Variants.none Lv lvl 0)
    (hpre0 : ∀ c : Dev nD, iprop(StableHlo.held (c : Thread nD τ) (Pipeline.ucRefs τ sig) (V0 m c) ∗ Ride c) ⊢ R0.pre c)
    (hpost0 : ∀ c : Dev nD, R0.post c ⊢ iprop(StableHlo.held (c : Thread nD τ) (Pipeline.ucRefs τ sig) (V1 m outs c) ∗ Ride c))
    (R1 : RegionSeg (pcfgs (F := F)) adm pdats () defs₀ Variants.none Lv lvl 1)
    (hpre1 : ∀ c : Dev nD, iprop(StableHlo.held (c : Thread nD τ) (Pipeline.ucRefs τ sig) (V1 m outs c) ∗ Ride c) ⊢ R1.pre c)
    (hpost1 : ∀ c : Dev nD, R1.post c ⊢ iprop(StableHlo.held (c : Thread nD τ) (Pipeline.ucRefs τ sig) (V2 m outs c) ∗ Ride c)) :
    θ_run defs (onTc (τ := τ) (main (F := F))) ⟨m, fun _ => 0, ρ⟩ (fun r => ∀ c : Dev nD,
      r.2.mem ((c.tc : Thread nD τ).loc main_v6) = V3 m outs c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_cond m emb₁ () Variants.none Lv lvl (fun _ _ => rfl) ρ outs pdats (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Ride c)
    (hE0 := by
      refine Pipeline.initEach Lv lvl fun c => ?_
      iintro ⟨⟨-, HO, -, Hp, -⟩, -⟩
      imodintro
      isplitl [Hp]; · iexists _; iexact Hp
      iexists ∅; iexact HO)
    (hE2 := fun c => by
      iintro ⟨-, HO⟩; iexact HO)
    R0 hpre0 hpost0 R1 hpre1 hpost1

end Cert.KernelIdeal.Asm

end
-- ==== Proof.AsmMain.lean ====
/-
  The kernel program's run, assembled: both regions' records from their bodies' obligations, the valuations between
  the items, and the run with the result buffer named.
-/
import proofs.«181995_j31490700214616_2_alg».proof.Proof.R0Body
import proofs.«181995_j31490700214616_2_alg».proof.Proof.R1Sound
import proofs.«181995_j31490700214616_2_alg».proof.Proof.AsmOuts
import proofs.«181995_j31490700214616_2_alg».proof.Proof.AsmSeg1
import proofs.«181995_j31490700214616_2_alg».proof.Proof.AsmLaunch

noncomputable section

namespace Cert.KernelIdeal.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

variable (m : (ℓ : Loc nD τ sig) → Buf (Elt F) ℓ)

/-- A stand-in for what the second region leaves, used only to name the valuation it is entered at (which does not
    look at it). -/
def a8₀ (c : Dev nD) : Buf (Elt F) ((c : Thread nD τ).loc main_v1) := V0 m c main_v1

/-- The buffers as the second region finds them. -/
def vin1 (c : Dev nD) (b : Ref sig .tc) : Buf (Elt F) ((c : Thread nD τ).loc b) := V1 m (outsOf m (a8₀ m)) c b

/-- The second region's proof data, at those contents, each shared array divided between its two windows. -/
def d1 (c : Dev nD) : Dat τ (Elt F) Unit ℕ (UR sig nD τ) ℕ cfg1 c := R1.dat1 (vin1 m) qShared c

/-- What the second region leaves in its output array. -/
def a8 (c : Dev nD) : Buf (Elt F) ((c : Thread nD τ).loc main_v1) := (d1 m c).arrAt 8 cfg1.N

/-- What the regions leave. -/
def outsF : Outs (F := F) := outsOf m (a8 m)

theorem hA1 (c : Dev nD) (w : Fin cfg1.W) : (d1 m c).A w = V1 m (outsF m) c (Pipeline.arrRef spec1 w) :=
  R1.A_eq1 (vin1 m) qShared c w

/-- Every array of the second region after it: the maps as it found them, the output at what the write-backs leave. -/
theorem hF1 (c : Dev nD) (w : Fin cfg1.W) : (d1 m c).arrAt w cfg1.N = V2 m (outsF m) c (Pipeline.arrRef spec1 w) := by
  match w with
  | 0 => exact ((d1 m c).arrAt_in 0 rfl _).trans ((hA1 m c 0).trans (V2_of m (outsF m) c main_v0_0 (by decide)).symm)
  | 1 => exact ((d1 m c).arrAt_in 1 rfl _).trans ((hA1 m c 1).trans (V2_of m (outsF m) c main_v0_0 (by decide)).symm)
  | 2 => exact ((d1 m c).arrAt_in 2 rfl _).trans ((hA1 m c 2).trans (V2_of m (outsF m) c main_v0_1 (by decide)).symm)
  | 3 => exact ((d1 m c).arrAt_in 3 rfl _).trans ((hA1 m c 3).trans (V2_of m (outsF m) c main_v0_1 (by decide)).symm)
  | 4 => exact ((d1 m c).arrAt_in 4 rfl _).trans ((hA1 m c 4).trans (V2_of m (outsF m) c main_v0_2 (by decide)).symm)
  | 5 => exact ((d1 m c).arrAt_in 5 rfl _).trans ((hA1 m c 5).trans (V2_of m (outsF m) c main_v0_2 (by decide)).symm)
  | 6 => exact ((d1 m c).arrAt_in 6 rfl _).trans ((hA1 m c 6).trans (V2_of m (outsF m) c main_v0_3 (by decide)).symm)
  | 7 => exact ((d1 m c).arrAt_in 7 rfl _).trans ((hA1 m c 7).trans (V2_of m (outsF m) c main_v0_3 (by decide)).symm)
  | 8 => exact (V2_v1 m (a8 m) c).symm
  | ⟨_ + 9, h⟩ => exact absurd h (Nat.not_lt.2 (Nat.le_add_left _ _))

/-- The first region's record. -/
def R0rec : RegionSeg (pcfgs (F := F)) adm (pdatsOf (d0 m) (d1 m)) () defs₀ Variants.none Lv lvl 0 :=
  reg0 m (outsF m) (d0 m) (d1 m) (fun c w => R0.A_eq0 (vin0 m) c w) (fun _ _ => rfl) (fun _ _ => rfl) (fun _ _ => rfl)
    (fun c => R0.body_obligation0 (vin0 m) c) (fun _ => .rfl) (fun _ => .rfl) (fun c w => hF0 m (a8 m) c w) (fun c b hb => hrest0 m (a8 m) c b hb)

/-- The second region's record. -/
def R1rec : RegionSeg (pcfgs (F := F)) adm (pdatsOf (d0 m) (d1 m)) () defs₀ Variants.none Lv lvl 1 :=
  reg1 m (outsF m) (d0 m) (d1 m) (fun c w => hA1 m c w) (fun _ => rfl) (fun _ _ => rfl) (fun _ _ => rfl)
    (fun c => R1.body_obligation1 (vin1 m) qShared c) (fun c => R1.hin1 (vin1 m) qShared c) (fun c => R1.hout1 (vin1 m) qShared c)
    (fun c w => hF1 m c w) (fun c b hb => hrest1 m (a8 m) c b hb)

/-- THE RUN: every weakly fair execution of the kernel program terminates, its result buffer ending at the host
    operations' value of what the second region leaves, every argument as launched. -/
theorem run_value (ρ : Dev nD → PrngReg) :
    θ_run defs (onTc (τ := τ) (main (F := F))) ⟨m, fun _ => 0, ρ⟩ (fun r => ∀ c : Dev nD,
      r.2.mem ((c.tc : Thread nD τ).loc main_v6) = V3 m (outsF m) c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_of m ρ (outsF m) (pdatsOf (d0 m) (d1 m)) (R0rec m) (fun _ => .rfl) (fun _ => .rfl) (R1rec m) (fun _ => .rfl) (fun _ => .rfl)

/-- THE FRAME: the same run, keeping only that the arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_value m ρ)

end Cert.KernelIdeal.Asm

end
-- ==== Proof.Spec.lean ====
/-
  The quantity both programs compute, over the real numbers.

  Four feature maps of 4096 rows and 512 columns.  Each row is divided by the larger of its Euclidean norm and a
  small positive constant; the Gram matrix of a map holds the inner products of its normalised rows.  The loss is
  one hundred times the sum, over the first three maps, of the squared differences between the fourth map's Gram
  matrix and that map's, entry by entry, divided by the number of entries (2^24).

  The same quantity is also written tile by tile: the 4096 x 4096 entries cut into 4 x 8 tiles of 1024 x 512, the
  three squared differences summed inside a tile, the tiles of one row band added up, then the four bands.
-/
import Idealize.ShloMosaic.PureOps.Ideal

noncomputable section

namespace Cert.Spec

open Idealize.ShloMosaic

/-- The small positive constant a row's norm is kept above: the real number the single-precision pattern denotes. -/
def eps : ℝ := (Ideal.ofBits .f32 0x2B8CBCCC#32).toReal

/-- The sum of the squares of row `r`. -/
def sumsq (x : Fin 4096 → Fin 512 → ℝ) (r : Fin 4096) : ℝ := ∑ k : Fin 512, x r k * x r k

/-- Entry `(r, d)` of the map with every row divided by the larger of its norm and `eps`. -/
def nrm (x : Fin 4096 → Fin 512 → ℝ) (r : Fin 4096) (d : Fin 512) : ℝ :=
  x r d / max (Real.sqrt (sumsq x r)) eps

/-- Entry `(a, b)` of the matrix of inner products of the rows of `n`. -/
def gramOf (n : Fin 4096 → Fin 512 → ℝ) (a b : Fin 4096) : ℝ := ∑ d : Fin 512, n a d * n b d

/-- Entry `(a, b)` of the Gram matrix of the normalised rows of `x`. -/
def gram (x : Fin 4096 → Fin 512 → ℝ) (a b : Fin 4096) : ℝ := gramOf (nrm x) a b

/-- The sum over all entries of the squared difference between the Gram matrices of `y` and of `x`. -/
def sqd (x y : Fin 4096 → Fin 512 → ℝ) : ℝ :=
  ∑ a : Fin 4096, ∑ b : Fin 4096, (gram y a b - gram x a b) * (gram y a b - gram x a b)

/-- The loss: the three squared-difference sums against the fourth map, scaled by 100 / 2^24. -/
def loss (x0 x1 x2 x3 : Fin 4096 → Fin 512 → ℝ) : ℝ :=
  100 * (sqd x0 x3 + sqd x1 x3 + sqd x2 x3) / 16777216

/-! ## The same, tile by tile -/

/-- Row `p` of row band `i` (bands of 1024 rows). -/
def rowIx (i : Fin 4) (p : Fin 1024) : Fin 4096 := ⟨1024 * i.val + p.val, by have := i.isLt; have := p.isLt; omega⟩

/-- Column `q` of column band `j` (bands of 512 columns). -/
def colIx (j : Fin 8) (q : Fin 512) : Fin 4096 := ⟨512 * j.val + q.val, by have := j.isLt; have := q.isLt; omega⟩

/-- The squared differences between the inner-product matrices of `y` and of `x`, summed over tile `(i, j)`. -/
def blockSq (x y : Fin 4096 → Fin 512 → ℝ) (i : Fin 4) (j : Fin 8) : ℝ :=
  ∑ p : Fin 1024, ∑ q : Fin 512,
    (gramOf y (rowIx i p) (colIx j q) - gramOf x (rowIx i p) (colIx j q))
      * (gramOf y (rowIx i p) (colIx j q) - gramOf x (rowIx i p) (colIx j q))

/-- What row band `i` accumulates over its eight tiles: in each tile the three squared-difference sums, added in
    the order first, second, third. -/
def tileAcc (n0 n1 n2 n3 : Fin 4096 → Fin 512 → ℝ) (i : Fin 4) : ℝ :=
  ∑ j : Fin 8, ((blockSq n0 n3 i j + blockSq n1 n3 i j) + blockSq n2 n3 i j)

/-- The four bands added up, times 100, over 2^24. -/
def tiledLoss (n0 n1 n2 n3 : Fin 4096 → Fin 512 → ℝ) : ℝ :=
  100 * (∑ i : Fin 4, tileAcc n0 n1 n2 n3 i) / 16777216

end Cert.Spec

end
-- ==== Proof.SpecLaws.lean ====
/-
  Laws of the real-number specification.

  The constants the two programs spell, as the real numbers their single-precision patterns denote; the row
  normalisation as one real division (a row's sum of squares is never negative, so its square root is a real
  number, and the divisor, being at least the small positive constant, is never zero); a finite sum of real
  numbers taken inside the extended reals; and the regrouping of the 4096 x 4096 double sum into 4 x 8 tiles of
  1024 x 512 entries, which makes the tile-by-tile quantity equal to the loss.
-/
import proofs.«181995_j31490700214616_2_alg».proof.Proof.Spec
import Idealize.ShloMosaic.PureOps.Ideal.Laws

noncomputable section

namespace Cert.Spec

open Idealize.ShloMosaic

/-! ## The constants -/

/-- The pattern of the small constant denotes 9223372 / 2^63 (a little under 10^-12). -/
theorem ofBits_eps : Ideal.ofBits .f32 0x2B8CBCCC#32 = ((9223372 / 2 ^ 63 : ℝ) : EReal) := by
  simp [Ideal.ofBits, Ideal.ieee, -EReal.coe_mul]; norm_num

/-- The pattern 0x41200000 denotes ten. -/
theorem ofBits_ten : Ideal.ofBits .f32 0x41200000#32 = ((10 : ℝ) : EReal) := by
  simp [Ideal.ofBits, Ideal.ieee, -EReal.coe_mul]; norm_num

/-- The pattern 0x42C80000 denotes one hundred. -/
theorem ofBits_hundred : Ideal.ofBits .f32 0x42C80000#32 = ((100 : ℝ) : EReal) := by
  simp [Ideal.ofBits, Ideal.ieee, -EReal.coe_mul]; norm_num

/-- The pattern 0x4B800000 denotes 2^24 = 16777216, the number of entries of a Gram matrix. -/
theorem ofBits_entries : Ideal.ofBits .f32 0x4B800000#32 = ((16777216 : ℝ) : EReal) := by
  simp [Ideal.ofBits, Ideal.ieee, -EReal.coe_mul]; norm_num

/-- The zero pattern denotes zero. -/
theorem ofBits_zero : Ideal.ofBits .f32 0x00000000#32 = 0 := Ideal.ofBits_zero_f32

/-- The small constant as a fraction. -/
theorem eps_eq : eps = 9223372 / 2 ^ 63 := by
  unfold eps; rw [ofBits_eps, EReal.toReal_coe]

/-- The small constant, as a real number, is what its pattern denotes. -/
theorem eps_coe : ((eps : ℝ) : EReal) = Ideal.ofBits .f32 0x2B8CBCCC#32 := by
  rw [eps_eq, ofBits_eps]

/-- The small constant is positive. -/
theorem eps_pos : 0 < eps := by
  rw [eps_eq]; positivity

/-! ## Sums and the normalised rows -/

/-- A finite sum of real numbers, taken in the extended reals, is the sum of the terms taken there. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A row's sum of squares is not negative. -/
theorem sumsq_nonneg (x : Fin 4096 → Fin 512 → ℝ) (r : Fin 4096) : 0 ≤ sumsq x r :=
  Finset.sum_nonneg fun k _ => mul_self_nonneg (x r k)

/-- The larger of two real numbers, taken in the extended reals. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The divisor of a row is positive: it is at least the small constant. -/
theorem divisor_pos (x : Fin 4096 → Fin 512 → ℝ) (r : Fin 4096) : 0 < max (Real.sqrt (sumsq x r)) eps :=
  lt_of_lt_of_le eps_pos (le_max_right _ _)

/-- The extended-real division of an entry by the larger of the square root of its row's sum of squares and the
    small constant is the real quotient: the square root is real because the sum of squares is not negative, and
    the divisor is not zero. -/
theorem nrm_coe (x : Fin 4096 → Fin 512 → ℝ) (r : Fin 4096) (d : Fin 512) :
    Ideal.div ((x r d : ℝ) : EReal)
        (max (Ideal.sqrt (((sumsq x r : ℝ)) : EReal)) (Ideal.ofBits .f32 0x2B8CBCCC#32))
      = ((nrm x r d : ℝ) : EReal) := by
  rw [Ideal.sqrt_coe, if_neg (not_lt.mpr (sumsq_nonneg x r)), ← eps_coe, coe_max,
    Ideal.div_coe (ne_of_gt (divisor_pos x r)), ← EReal.coe_mul]
  unfold nrm
  rw [mul_one_div]

/-! ## The double sum, tile by tile -/

/-- A sum over the 4096 rows is the sum over the four bands of the sums over a band's 1024 rows. -/
theorem sum_rows (g : Fin 4096 → ℝ) : ∑ a, g a = ∑ i : Fin 4, ∑ p : Fin 1024, g (rowIx i p) := by
  rw [← Fintype.sum_prod_type']
  refine (Fintype.sum_equiv
    { toFun := fun ip : Fin 4 × Fin 1024 => rowIx ip.1 ip.2
      invFun := fun a => (⟨a.val / 1024, by have := a.isLt; omega⟩, ⟨a.val % 1024, Nat.mod_lt _ (by decide)⟩)
      left_inv := fun ip => by
        obtain ⟨i, p⟩ := ip
        have hi := i.isLt; have hp := p.isLt
        refine Prod.ext (Fin.ext ?_) (Fin.ext ?_)
        · show (1024 * i.val + p.val) / 1024 = i.val; omega
        · show (1024 * i.val + p.val) % 1024 = p.val; omega
      right_inv := fun a => Fin.ext (by
        show 1024 * (a.val / 1024) + a.val % 1024 = a.val; omega) }
    _ _ fun ip => rfl).symm

/-- A sum over the 4096 columns is the sum over the eight bands of the sums over a band's 512 columns. -/
theorem sum_cols (g : Fin 4096 → ℝ) : ∑ b, g b = ∑ j : Fin 8, ∑ q : Fin 512, g (colIx j q) := by
  rw [← Fintype.sum_prod_type']
  refine (Fintype.sum_equiv
    { toFun := fun jq : Fin 8 × Fin 512 => colIx jq.1 jq.2
      invFun := fun b => (⟨b.val / 512, by have := b.isLt; omega⟩, ⟨b.val % 512, Nat.mod_lt _ (by decide)⟩)
      left_inv := fun jq => by
        obtain ⟨j, q⟩ := jq
        have hj := j.isLt; have hq := q.isLt
        refine Prod.ext (Fin.ext ?_) (Fin.ext ?_)
        · show (512 * j.val + q.val) / 512 = j.val; omega
        · show (512 * j.val + q.val) % 512 = q.val; omega
      right_inv := fun b => Fin.ext (by
        show 512 * (b.val / 512) + b.val % 512 = b.val; omega) }
    _ _ fun jq => rfl).symm

/-- The squared differences of two Gram matrices summed over all entries are the tile sums added up. -/
theorem sqd_tiles (x y : Fin 4096 → Fin 512 → ℝ) :
    sqd x y = ∑ i : Fin 4, ∑ j : Fin 8, blockSq (nrm x) (nrm y) i j := by
  unfold sqd blockSq gram
  rw [sum_rows]
  exact Finset.sum_congr rfl fun i _ => (Finset.sum_congr rfl fun p _ => sum_cols _).trans Finset.sum_comm

/-- The tile-by-tile quantity of the normalised maps is the loss. -/
theorem tiledLoss_eq (x0 x1 x2 x3 : Fin 4096 → Fin 512 → ℝ) :
    tiledLoss (nrm x0) (nrm x1) (nrm x2) (nrm x3) = loss x0 x1 x2 x3 := by
  unfold tiledLoss loss tileAcc
  rw [sqd_tiles, sqd_tiles, sqd_tiles]
  simp only [Finset.sum_add_distrib]

end Cert.Spec

end
-- ==== Proof.LibKeepdims.lean ====
/-
  Column forms of the two layout operations a row statistic kept as a column goes through: a vector of one entry
  per row written as a one-column matrix, and a one-column matrix repeated along every column of a wider one.
  Both are read at an index: the entry of the result at (row, column) is the operand's entry of that row.
-/
import Idealize.ShloMosaic.Lib.Pipeline.Value
import Idealize.ShloMosaic.Lib.ValueIdx

namespace Idealize.ShloMosaic.ValueIdx

variable {α : Type}

/-- An `[a]` vector cast to the column `[a, 1]` reads, at `(p, u)`, the operand at `p`: in row-major order the
    column's entry `(p, u)` is entry `p · 1 + u = p` of the vector, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.R0ValuePay.lean ====
/-
  The body's arithmetic, read entry by entry over the extended reals.

  Every output block of the row-normalisation call is one pure function of one input block of 1024 rows and 512
  columns: the squares of a row's entries are added along the row, the square root of that sum is taken, the
  larger of the root and a small positive constant divides every entry of the row, and the change of float format
  that follows is the identity on exact values.  Only row `p` of the block enters row `p` of the result.  So when
  row `p` of the block holds the real numbers `x r q` of row `r` of a real matrix, entry `(p, d)` of the result is
  the real number `nrm x r d`: the sum of squares is the real `sumsq x r`, and the scalar step is the
  specification's law that the extended-real division by the larger of its root and the constant is the real
  quotient.

  The four stores of the body carry this one function: three spell it from the block alone, the fourth takes the
  squares from the first part of the body.
-/
import proofs.«181995_j31490700214616_2_alg».proof.Proof.Gen.KernelIdeal.Skeleton
import proofs.«181995_j31490700214616_2_alg».proof.Proof.SpecLaws
import proofs.«181995_j31490700214616_2_alg».proof.Proof.LibKeepdims
import Idealize.ShloMosaic.PureOps.Ideal.Laws
import Idealize.ShloMosaic.Lib.ValueIdx

noncomputable section

namespace Cert.KernelIdeal.R0V

open Idealize.ShloMosaic Idealize.ShloMosaic.ValueIdx
open Cert.KernelIdeal Cert.KernelIdeal.Gen

/-- The lane sum along row `p` of a block of squares whose row `p` holds the squares of the reals `x r q`: the
    real sum of squares of row `r`. -/
theorem lane_sum_row (sq : FVec Ideal S1024x512 .f32) (x : Fin 4096 → Fin 512 → ℝ) (p : Fin 1024) (r : Fin 4096)
    (hsq : ∀ q : Fin 512, sq (ix2 p q) = ((x r q * x r q : ℝ) : EReal))
    (hacc : (0x00000000#32 : BitVec 32) = 0x00000000#32) :
    multiReduction .add [1] S1024 sq 0x00000000#32 reduces_S1024x512_S1024 (.inl rfl) hacc (ix1 p)
      = ((Cert.Spec.sumsq x r : ℝ) : EReal) := by
  refine (Ideal.multiReduction_add_single sq 0x00000000#32 reduces_S1024x512_S1024 (.inl rfl) hacc (ix1 p)).trans ?_
  unfold Cert.Spec.sumsq
  rw [Cert.Spec.coe_sum]
  refine Finset.sum_congr rfl fun k _ => ?_
  have hk : reduces_S1024x512_S1024.lift (ix1 p) k = (ix2 p (k : Fin 512) : S1024x512.Idx) := by
    funext a; match a with | ⟨0, _⟩ => rfl | ⟨1, _⟩ => rfl
  exact (congrArg sq hk).trans (hsq k)

/-- The normalisation at entry `(p, d)`, the squares handed in: when row `p` of the block holds the reals of row `r`
    of `x` and row `p` of the squares their squares, the entry is `nrm x r d`. -/
theorem pay1_row (xb : Vec Ideal S1024x512 .f32) (sq : FVec Ideal S1024x512 .f32) (x : Fin 4096 → Fin 512 → ℝ)
    (p : Fin 1024) (r : Fin 4096) (h : ∀ q : Fin 512, xb (ix2 p q) = ((x r q : ℝ) : EReal))
    (hsq : ∀ q : Fin 512, sq (ix2 p q) = ((x r q * x r q : ℝ) : EReal)) (d : Fin 512) :
    k0_pay1 xb sq (ix2 p d) = ((Cert.Spec.nrm x r d : ℝ) : EReal) := by
  unfold k0_pay1
  have h1 := lane_sum_row sq x p r hsq rfl
  have h2 := (shapeCast_a_a1_apply
      (multiReduction .add [1] S1024 sq 0x00000000#32 reduces_S1024x512_S1024 (.inl rfl) rfl)
      shapeCasts_S1024_S1024x1 p (0 : Fin 1)).trans h1
  refine (congrArg (Ideal.div (xb (ix2 p d))) (broadcastTo_a1_ab_apply _ broadcasts_S1024x1_S1024x512 p d)).trans ?_
  refine Eq.trans ?_ (Cert.Spec.nrm_coe x r d)
  rw [← h d, ← h2]
  rfl

/-- The squares of a block, entry by entry. -/
theorem pay5_row (xb : Vec Ideal S1024x512 .f32) (x : Fin 4096 → Fin 512 → ℝ) (p : Fin 1024) (r : Fin 4096)
    (h : ∀ q : Fin 512, xb (ix2 p q) = ((x r q : ℝ) : EReal)) (q : Fin 512) :
    k0_pay5 xb (ix2 p q) = ((x r q * x r q : ℝ) : EReal) := by
  show xb (ix2 p q) * xb (ix2 p q) = _
  rw [h q, EReal.coe_mul]

/-- The three stores that spell the normalisation from the block alone carry the same function as the fourth. -/
theorem pay2_eq (xb : Vec Ideal S1024x512 .f32) : k0_pay2 xb = k0_pay1 xb (k0_pay5 xb) := rfl
theorem pay3_eq (xb : Vec Ideal S1024x512 .f32) : k0_pay3 xb = k0_pay1 xb (k0_pay5 xb) := rfl
theorem pay4_eq (xb : Vec Ideal S1024x512 .f32) : k0_pay4 xb = k0_pay1 xb (k0_pay5 xb) := rfl

/-- Entry `(p, d)` of the normalised block is `nrm x r d` when row `p` of the block holds row `r` of `x`. -/
theorem pay_row (xb : Vec Ideal S1024x512 .f32) (x : Fin 4096 → Fin 512 → ℝ) (p : Fin 1024) (r : Fin 4096)
    (h : ∀ q : Fin 512, xb (ix2 p q) = ((x r q : ℝ) : EReal)) (d : Fin 512) :
    k0_pay1 xb (k0_pay5 xb) (ix2 p d) = ((Cert.Spec.nrm x r d : ℝ) : EReal) :=
  pay1_row xb (k0_pay5 xb) x p r h (pay5_row xb x p r h) d

end Cert.KernelIdeal.R0V

end
-- ==== Proof.R0Value.lean ====
/-
  The arrays the row-normalisation call leaves, entry by entry over the extended reals.

  The call's four points each take a band of 1024 rows: at point `t` every window's block is rows
  `1024 t … 1024 t + 1023` and all 512 columns of its array.  The body writes to output `k` the normalised block of
  input `k`, and a row of the normalised block depends on that row of the input alone; so what point `t` writes
  back is band `t` of the normalised map `nrm x` of the whole input array `x`.  The four bands cover the array —
  row `r` lies in band `r / 1024` — so after the last point output `k` holds `nrm x` at every entry.  The input
  arrays are never written back and end as the call found them.
-/
import proofs.«181995_j31490700214616_2_alg».proof.Proof.R0Body
import proofs.«181995_j31490700214616_2_alg».proof.Proof.R0ValuePay
import Idealize.ShloMosaic.Lib.Pipeline.Value
import Idealize.ShloMosaic.Lib.Tactic

noncomputable section

namespace Cert.KernelIdeal.R0V

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.R0

variable (V : (c : Dev nD) → (b : Ref sig .tc) → Buf (Elt Ideal) ((c : Thread nD τ).loc b))

theorem hz : (![0, 0] : Fin 2 → Nat) = fun _ => 0 := funext fun a => by fin_cases a <;> rfl

/-- The normalised map of a real matrix as an array of extended reals. -/
def nrmArr (x : Fin 4096 → Fin 512 → ℝ) : S4096x512.Idx → EReal :=
  fun i => ((Cert.Spec.nrm x ⟨(i 0).val, idx2_lt0 i⟩ ⟨(i 1).val, idx2_lt1 i⟩ : ℝ) : EReal)

/-- The normalised map at equal coordinates. -/
theorem nrm_congr (x : Fin 4096 → Fin 512 → ℝ) (r r' : Fin 4096) (d d' : Fin 512) (hr : r.val = r'.val) (hd : d.val = d'.val) :
    Cert.Spec.nrm x r d = Cert.Spec.nrm x r' d' := by
  obtain rfl := Fin.ext hr
  obtain rfl := Fin.ext hd
  rfl

/-! ## The index maps, decided over the four points: every window's block index is (the point, 0) -/

theorem idx_in0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_in1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_in2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_in3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx_out4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx_out5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx_out6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem idx_out7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-! ## Output 0: window 4 of input window 0 -/

/-- Output buffer 4 after the body is the normalised block. -/
theorem out0_4_eq (xb : Vec Ideal S1024x512 .f32) : out0_4 xb = k0_pay1 xb (k0_pay5 xb) := by
  unfold out0_4
  rw [View.canon_unit_zero hz]
  simp only [View.ld_unit_zero (S := S1024x512) hz]
  exact pay2_eq xb

/-- Row `p` of input window 0's block at point `t` is row `1024 t + p` of its array. -/
theorem iblk_row_0 (c : Dev nD) (x : Fin 4096 → Fin 512 → ℝ)
    (hx : ∀ r d, (V c main_arg0 : S4096x512.Idx → EReal) (ix2 r d) = ((x r d : ℝ) : EReal))
    (t : Fin cfg0.N) (p : Fin 1024) (hr : 1024 * t.val + p.val < 4096) (q : Fin 512) :
    (iblk0 V c 0 t : Vec Ideal S1024x512 .f32) (ix2 p q) = ((x ⟨1024 * t.val + p.val, hr⟩ q : ℝ) : EReal) := by
  obtain ⟨e0, e1⟩ := idx_in0 t
  unfold iblk0
  rw [View.read_apply]
  show (V c main_arg0 : S4096x512.Idx → EReal) _ = _
  rw [← hx]
  congr 1
  funext a
  apply Fin.ext
  match a with
  | ⟨0, _⟩ => show win0_0.index t 0 * 1024 + 1 * p.val = 1024 * t.val + p.val; rw [e0]; omega
  | ⟨1, _⟩ => show win0_0.index t 1 * 512 + 1 * q.val = q.val; rw [e1]; omega

/-- What point `t` writes back to output 0's array is block `t` of the normalised map. -/
theorem flushed_eq_4 (c : Dev nD) (x : Fin 4096 → Fin 512 → ℝ)
    (hx : ∀ r d, (V c main_arg0 : S4096x512.Idx → EReal) (ix2 r d) = ((x r d : ℝ) : EReal)) (t : Fin cfg0.N) :
    (dat0 V c).flushed 4 t = ((cfg0.win 4).blk t).view.read (Elt Ideal) (nrmArr x) := by
  show (cfg0.win 4).cut (grid0.coords t) ((dat0 V c).after 4 t) = _
  rw [after0_4, out0_4_eq]
  funext j
  obtain ⟨p, d, rfl⟩ : ∃ (p : Fin 1024) (d : Fin 512), j = ix2 p d := ⟨j 0, j 1, eq_ix2 j⟩
  have hN : cfg0.N = 4 := N_0
  have ht : t.val < 4 := by have := t.isLt; omega
  have hr : 1024 * t.val + p.val < 4096 := by have := p.isLt; omega
  obtain ⟨e0, e1⟩ := idx_out4 t
  refine (pay_row (iblk0 V c 0 t) x p ⟨1024 * t.val + p.val, hr⟩ (fun q => iblk_row_0 V c x hx t p hr q) d).trans ?_
  show _ = nrmArr x (((cfg0.win 4).blk t).view.emb (ix2 p d))
  unfold nrmArr
  refine congrArg _ (nrm_congr x _ _ _ _ ?_ ?_)
  · show 1024 * t.val + p.val = win0_4.index t 0 * 1024 + 1 * p.val; rw [e0]; omega
  · show d.val = win0_4.index t 1 * 512 + 1 * d.val; rw [e1]; omega

/-- An index of output 0's array is in point `t`'s block iff each coordinate is in the block's range on its axis. -/
theorem mem_blk4 (t : Fin cfg0.N) (i : S4096x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v0_0).slice (win0_4.rect t)).set ↔ _
  rw [View.set_slice_whole, Rect.mem_set_unit]
  exact Iff.rfl

/-- Every index of output 0's array is written back by the point of its row band: row `r` by point `r / 1024`. -/
theorem cover4 (i : S4096x512.Idx) :
    ∃ t : Fin cfg0.N, (cfg0.win 4).flush t = true ∧ i ∈ ((cfg0.win 4).blk t).view.set := by
  have hN : cfg0.N = 4 := N_0
  have hi0 : (i 0).val < 4096 := idx2_lt0 i
  have hi1 : (i 1).val < 512 := idx2_lt1 i
  obtain ⟨t, ht⟩ : ∃ t : Fin cfg0.N, t.val = (i 0).val / 1024 := ⟨⟨(i 0).val / 1024, by omega⟩, rfl⟩
  obtain ⟨e0, e1⟩ := idx_out4 t
  refine ⟨t, flush0_4 t, ?_⟩
  rw [mem_blk4]
  intro a
  match a with
  | ⟨0, _⟩ => show win0_4.index t 0 * 1024 ≤ (i 0).val ∧ (i 0).val < win0_4.index t 0 * 1024 + 1024; rw [e0, ht]; omega
  | ⟨1, _⟩ => show win0_4.index t 1 * 512 ≤ (i 1).val ∧ (i 1).val < win0_4.index t 1 * 512 + 512; rw [e1]; omega

/-- Output 0's array after all four points is the normalised map of input 0. -/
theorem final4 (c : Dev nD) (x : Fin 4096 → Fin 512 → ℝ)
    (hx : ∀ r d, (V c main_arg0 : S4096x512.Idx → EReal) (ix2 r d) = ((x r d : ℝ) : EReal)) :
    (dat0 V c).arrAt 4 cfg0.N = nrmArr x :=
  (dat0 V c).arrAt_eq_of_cover 4 (nrmArr x) (fun t _ => flushed_eq_4 V c x hx t) cover4

/-- Entry `(r, d)` of output 0's array after all four points is `nrm x r d`. -/
theorem arrAt_out_0 (c : Dev nD) (x : Fin 4096 → Fin 512 → ℝ)
    (hx : ∀ r d, (V c main_arg0 : S4096x512.Idx → EReal) (ix2 r d) = ((x r d : ℝ) : EReal)) (r : Fin 4096) (d : Fin 512) :
    ((dat0 V c).arrAt 4 cfg0.N : S4096x512.Idx → EReal) (ix2 r d) = ((Cert.Spec.nrm x r d : ℝ) : EReal) := by
  rw [final4 V c x hx]
  rfl

/-! ## Output 1: window 5 of input window 1 -/

/-- Output buffer 5 after the body is the normalised block. -/
theorem out0_5_eq (xb : Vec Ideal S1024x512 .f32) : out0_5 xb = k0_pay1 xb (k0_pay5 xb) := by
  unfold out0_5
  rw [View.canon_unit_zero hz]
  simp only [View.ld_unit_zero (S := S1024x512) hz]
  exact pay3_eq xb

/-- Row `p` of input window 1's block at point `t` is row `1024 t + p` of its array. -/
theorem iblk_row_1 (c : Dev nD) (x : Fin 4096 → Fin 512 → ℝ)
    (hx : ∀ r d, (V c main_arg1 : S4096x512.Idx → EReal) (ix2 r d) = ((x r d : ℝ) : EReal))
    (t : Fin cfg0.N) (p : Fin 1024) (hr : 1024 * t.val + p.val < 4096) (q : Fin 512) :
    (iblk0 V c 1 t : Vec Ideal S1024x512 .f32) (ix2 p q) = ((x ⟨1024 * t.val + p.val, hr⟩ q : ℝ) : EReal) := by
  obtain ⟨e0, e1⟩ := idx_in1 t
  unfold iblk0
  rw [View.read_apply]
  show (V c main_arg1 : S4096x512.Idx → EReal) _ = _
  rw [← hx]
  congr 1
  funext a
  apply Fin.ext
  match a with
  | ⟨0, _⟩ => show win0_1.index t 0 * 1024 + 1 * p.val = 1024 * t.val + p.val; rw [e0]; omega
  | ⟨1, _⟩ => show win0_1.index t 1 * 512 + 1 * q.val = q.val; rw [e1]; omega

/-- What point `t` writes back to output 1's array is block `t` of the normalised map. -/
theorem flushed_eq_5 (c : Dev nD) (x : Fin 4096 → Fin 512 → ℝ)
    (hx : ∀ r d, (V c main_arg1 : S4096x512.Idx → EReal) (ix2 r d) = ((x r d : ℝ) : EReal)) (t : Fin cfg0.N) :
    (dat0 V c).flushed 5 t = ((cfg0.win 5).blk t).view.read (Elt Ideal) (nrmArr x) := by
  show (cfg0.win 5).cut (grid0.coords t) ((dat0 V c).after 5 t) = _
  rw [after0_5, out0_5_eq]
  funext j
  obtain ⟨p, d, rfl⟩ : ∃ (p : Fin 1024) (d : Fin 512), j = ix2 p d := ⟨j 0, j 1, eq_ix2 j⟩
  have hN : cfg0.N = 4 := N_0
  have ht : t.val < 4 := by have := t.isLt; omega
  have hr : 1024 * t.val + p.val < 4096 := by have := p.isLt; omega
  obtain ⟨e0, e1⟩ := idx_out5 t
  refine (pay_row (iblk0 V c 1 t) x p ⟨1024 * t.val + p.val, hr⟩ (fun q => iblk_row_1 V c x hx t p hr q) d).trans ?_
  show _ = nrmArr x (((cfg0.win 5).blk t).view.emb (ix2 p d))
  unfold nrmArr
  refine congrArg _ (nrm_congr x _ _ _ _ ?_ ?_)
  · show 1024 * t.val + p.val = win0_5.index t 0 * 1024 + 1 * p.val; rw [e0]; omega
  · show d.val = win0_5.index t 1 * 512 + 1 * d.val; rw [e1]; omega

/-- An index of output 1's array is in point `t`'s block iff each coordinate is in the block's range on its axis. -/
theorem mem_blk5 (t : Fin cfg0.N) (i : S4096x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v0_1).slice (win0_5.rect t)).set ↔ _
  rw [View.set_slice_whole, Rect.mem_set_unit]
  exact Iff.rfl

/-- Every index of output 1's array is written back by the point of its row band: row `r` by point `r / 1024`. -/
theorem cover5 (i : S4096x512.Idx) :
    ∃ t : Fin cfg0.N, (cfg0.win 5).flush t = true ∧ i ∈ ((cfg0.win 5).blk t).view.set := by
  have hN : cfg0.N = 4 := N_0
  have hi0 : (i 0).val < 4096 := idx2_lt0 i
  have hi1 : (i 1).val < 512 := idx2_lt1 i
  obtain ⟨t, ht⟩ : ∃ t : Fin cfg0.N, t.val = (i 0).val / 1024 := ⟨⟨(i 0).val / 1024, by omega⟩, rfl⟩
  obtain ⟨e0, e1⟩ := idx_out5 t
  refine ⟨t, flush0_5 t, ?_⟩
  rw [mem_blk5]
  intro a
  match a with
  | ⟨0, _⟩ => show win0_5.index t 0 * 1024 ≤ (i 0).val ∧ (i 0).val < win0_5.index t 0 * 1024 + 1024; rw [e0, ht]; omega
  | ⟨1, _⟩ => show win0_5.index t 1 * 512 ≤ (i 1).val ∧ (i 1).val < win0_5.index t 1 * 512 + 512; rw [e1]; omega

/-- Output 1's array after all four points is the normalised map of input 1. -/
theorem final5 (c : Dev nD) (x : Fin 4096 → Fin 512 → ℝ)
    (hx : ∀ r d, (V c main_arg1 : S4096x512.Idx → EReal) (ix2 r d) = ((x r d : ℝ) : EReal)) :
    (dat0 V c).arrAt 5 cfg0.N = nrmArr x :=
  (dat0 V c).arrAt_eq_of_cover 5 (nrmArr x) (fun t _ => flushed_eq_5 V c x hx t) cover5

/-- Entry `(r, d)` of output 1's array after all four points is `nrm x r d`. -/
theorem arrAt_out_1 (c : Dev nD) (x : Fin 4096 → Fin 512 → ℝ)
    (hx : ∀ r d, (V c main_arg1 : S4096x512.Idx → EReal) (ix2 r d) = ((x r d : ℝ) : EReal)) (r : Fin 4096) (d : Fin 512) :
    ((dat0 V c).arrAt 5 cfg0.N : S4096x512.Idx → EReal) (ix2 r d) = ((Cert.Spec.nrm x r d : ℝ) : EReal) := by
  rw [final5 V c x hx]
  rfl

/-! ## Output 2: window 6 of input window 2 -/

/-- Output buffer 6 after the body is the normalised block. -/
theorem out0_6_eq (xb : Vec Ideal S1024x512 .f32) : out0_6 xb = k0_pay1 xb (k0_pay5 xb) := by
  unfold out0_6
  rw [View.canon_unit_zero hz]
  simp only [View.ld_unit_zero (S := S1024x512) hz]
  exact pay4_eq xb

/-- Row `p` of input window 2's block at point `t` is row `1024 t + p` of its array. -/
theorem iblk_row_2 (c : Dev nD) (x : Fin 4096 → Fin 512 → ℝ)
    (hx : ∀ r d, (V c main_arg2 : S4096x512.Idx → EReal) (ix2 r d) = ((x r d : ℝ) : EReal))
    (t : Fin cfg0.N) (p : Fin 1024) (hr : 1024 * t.val + p.val < 4096) (q : Fin 512) :
    (iblk0 V c 2 t : Vec Ideal S1024x512 .f32) (ix2 p q) = ((x ⟨1024 * t.val + p.val, hr⟩ q : ℝ) : EReal) := by
  obtain ⟨e0, e1⟩ := idx_in2 t
  unfold iblk0
  rw [View.read_apply]
  show (V c main_arg2 : S4096x512.Idx → EReal) _ = _
  rw [← hx]
  congr 1
  funext a
  apply Fin.ext
  match a with
  | ⟨0, _⟩ => show win0_2.index t 0 * 1024 + 1 * p.val = 1024 * t.val + p.val; rw [e0]; omega
  | ⟨1, _⟩ => show win0_2.index t 1 * 512 + 1 * q.val = q.val; rw [e1]; omega

/-- What point `t` writes back to output 2's array is block `t` of the normalised map. -/
theorem flushed_eq_6 (c : Dev nD) (x : Fin 4096 → Fin 512 → ℝ)
    (hx : ∀ r d, (V c main_arg2 : S4096x512.Idx → EReal) (ix2 r d) = ((x r d : ℝ) : EReal)) (t : Fin cfg0.N) :
    (dat0 V c).flushed 6 t = ((cfg0.win 6).blk t).view.read (Elt Ideal) (nrmArr x) := by
  show (cfg0.win 6).cut (grid0.coords t) ((dat0 V c).after 6 t) = _
  rw [after0_6, out0_6_eq]
  funext j
  obtain ⟨p, d, rfl⟩ : ∃ (p : Fin 1024) (d : Fin 512), j = ix2 p d := ⟨j 0, j 1, eq_ix2 j⟩
  have hN : cfg0.N = 4 := N_0
  have ht : t.val < 4 := by have := t.isLt; omega
  have hr : 1024 * t.val + p.val < 4096 := by have := p.isLt; omega
  obtain ⟨e0, e1⟩ := idx_out6 t
  refine (pay_row (iblk0 V c 2 t) x p ⟨1024 * t.val + p.val, hr⟩ (fun q => iblk_row_2 V c x hx t p hr q) d).trans ?_
  show _ = nrmArr x (((cfg0.win 6).blk t).view.emb (ix2 p d))
  unfold nrmArr
  refine congrArg _ (nrm_congr x _ _ _ _ ?_ ?_)
  · show 1024 * t.val + p.val = win0_6.index t 0 * 1024 + 1 * p.val; rw [e0]; omega
  · show d.val = win0_6.index t 1 * 512 + 1 * d.val; rw [e1]; omega

/-- An index of output 2's array is in point `t`'s block iff each coordinate is in the block's range on its axis. -/
theorem mem_blk6 (t : Fin cfg0.N) (i : S4096x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v0_2).slice (win0_6.rect t)).set ↔ _
  rw [View.set_slice_whole, Rect.mem_set_unit]
  exact Iff.rfl

/-- Every index of output 2's array is written back by the point of its row band: row `r` by point `r / 1024`. -/
theorem cover6 (i : S4096x512.Idx) :
    ∃ t : Fin cfg0.N, (cfg0.win 6).flush t = true ∧ i ∈ ((cfg0.win 6).blk t).view.set := by
  have hN : cfg0.N = 4 := N_0
  have hi0 : (i 0).val < 4096 := idx2_lt0 i
  have hi1 : (i 1).val < 512 := idx2_lt1 i
  obtain ⟨t, ht⟩ : ∃ t : Fin cfg0.N, t.val = (i 0).val / 1024 := ⟨⟨(i 0).val / 1024, by omega⟩, rfl⟩
  obtain ⟨e0, e1⟩ := idx_out6 t
  refine ⟨t, flush0_6 t, ?_⟩
  rw [mem_blk6]
  intro a
  match a with
  | ⟨0, _⟩ => show win0_6.index t 0 * 1024 ≤ (i 0).val ∧ (i 0).val < win0_6.index t 0 * 1024 + 1024; rw [e0, ht]; omega
  | ⟨1, _⟩ => show win0_6.index t 1 * 512 ≤ (i 1).val ∧ (i 1).val < win0_6.index t 1 * 512 + 512; rw [e1]; omega

/-- Output 2's array after all four points is the normalised map of input 2. -/
theorem final6 (c : Dev nD) (x : Fin 4096 → Fin 512 → ℝ)
    (hx : ∀ r d, (V c main_arg2 : S4096x512.Idx → EReal) (ix2 r d) = ((x r d : ℝ) : EReal)) :
    (dat0 V c).arrAt 6 cfg0.N = nrmArr x :=
  (dat0 V c).arrAt_eq_of_cover 6 (nrmArr x) (fun t _ => flushed_eq_6 V c x hx t) cover6

/-- Entry `(r, d)` of output 2's array after all four points is `nrm x r d`. -/
theorem arrAt_out_2 (c : Dev nD) (x : Fin 4096 → Fin 512 → ℝ)
    (hx : ∀ r d, (V c main_arg2 : S4096x512.Idx → EReal) (ix2 r d) = ((x r d : ℝ) : EReal)) (r : Fin 4096) (d : Fin 512) :
    ((dat0 V c).arrAt 6 cfg0.N : S4096x512.Idx → EReal) (ix2 r d) = ((Cert.Spec.nrm x r d : ℝ) : EReal) := by
  rw [final6 V c x hx]
  rfl

/-! ## Output 3: window 7 of input window 3 -/

/-- Output buffer 7 after the body is the normalised block. -/
theorem out0_7_eq (xb : Vec Ideal S1024x512 .f32) : out0_7 xb = k0_pay1 xb (k0_pay5 xb) := by
  unfold out0_7
  rw [View.canon_unit_zero hz]
  simp only [View.ld_unit_zero (S := S1024x512) hz]

/-- Row `p` of input window 3's block at point `t` is row `1024 t + p` of its array. -/
theorem iblk_row_3 (c : Dev nD) (x : Fin 4096 → Fin 512 → ℝ)
    (hx : ∀ r d, (V c main_arg3 : S4096x512.Idx → EReal) (ix2 r d) = ((x r d : ℝ) : EReal))
    (t : Fin cfg0.N) (p : Fin 1024) (hr : 1024 * t.val + p.val < 4096) (q : Fin 512) :
    (iblk0 V c 3 t : Vec Ideal S1024x512 .f32) (ix2 p q) = ((x ⟨1024 * t.val + p.val, hr⟩ q : ℝ) : EReal) := by
  obtain ⟨e0, e1⟩ := idx_in3 t
  unfold iblk0
  rw [View.read_apply]
  show (V c main_arg3 : S4096x512.Idx → EReal) _ = _
  rw [← hx]
  congr 1
  funext a
  apply Fin.ext
  match a with
  | ⟨0, _⟩ => show win0_3.index t 0 * 1024 + 1 * p.val = 1024 * t.val + p.val; rw [e0]; omega
  | ⟨1, _⟩ => show win0_3.index t 1 * 512 + 1 * q.val = q.val; rw [e1]; omega

/-- What point `t` writes back to output 3's array is block `t` of the normalised map. -/
theorem flushed_eq_7 (c : Dev nD) (x : Fin 4096 → Fin 512 → ℝ)
    (hx : ∀ r d, (V c main_arg3 : S4096x512.Idx → EReal) (ix2 r d) = ((x r d : ℝ) : EReal)) (t : Fin cfg0.N) :
    (dat0 V c).flushed 7 t = ((cfg0.win 7).blk t).view.read (Elt Ideal) (nrmArr x) := by
  show (cfg0.win 7).cut (grid0.coords t) ((dat0 V c).after 7 t) = _
  rw [after0_7, out0_7_eq]
  funext j
  obtain ⟨p, d, rfl⟩ : ∃ (p : Fin 1024) (d : Fin 512), j = ix2 p d := ⟨j 0, j 1, eq_ix2 j⟩
  have hN : cfg0.N = 4 := N_0
  have ht : t.val < 4 := by have := t.isLt; omega
  have hr : 1024 * t.val + p.val < 4096 := by have := p.isLt; omega
  obtain ⟨e0, e1⟩ := idx_out7 t
  refine (pay_row (iblk0 V c 3 t) x p ⟨1024 * t.val + p.val, hr⟩ (fun q => iblk_row_3 V c x hx t p hr q) d).trans ?_
  show _ = nrmArr x (((cfg0.win 7).blk t).view.emb (ix2 p d))
  unfold nrmArr
  refine congrArg _ (nrm_congr x _ _ _ _ ?_ ?_)
  · show 1024 * t.val + p.val = win0_7.index t 0 * 1024 + 1 * p.val; rw [e0]; omega
  · show d.val = win0_7.index t 1 * 512 + 1 * d.val; rw [e1]; omega

/-- An index of output 3's array is in point `t`'s block iff each coordinate is in the block's range on its axis. -/
theorem mem_blk7 (t : Fin cfg0.N) (i : S4096x512.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v0_3).slice (win0_7.rect t)).set ↔ _
  rw [View.set_slice_whole, Rect.mem_set_unit]
  exact Iff.rfl

/-- Every index of output 3's array is written back by the point of its row band: row `r` by point `r / 1024`. -/
theorem cover7 (i : S4096x512.Idx) :
    ∃ t : Fin cfg0.N, (cfg0.win 7).flush t = true ∧ i ∈ ((cfg0.win 7).blk t).view.set := by
  have hN : cfg0.N = 4 := N_0
  have hi0 : (i 0).val < 4096 := idx2_lt0 i
  have hi1 : (i 1).val < 512 := idx2_lt1 i
  obtain ⟨t, ht⟩ : ∃ t : Fin cfg0.N, t.val = (i 0).val / 1024 := ⟨⟨(i 0).val / 1024, by omega⟩, rfl⟩
  obtain ⟨e0, e1⟩ := idx_out7 t
  refine ⟨t, flush0_7 t, ?_⟩
  rw [mem_blk7]
  intro a
  match a with
  | ⟨0, _⟩ => show win0_7.index t 0 * 1024 ≤ (i 0).val ∧ (i 0).val < win0_7.index t 0 * 1024 + 1024; rw [e0, ht]; omega
  | ⟨1, _⟩ => show win0_7.index t 1 * 512 ≤ (i 1).val ∧ (i 1).val < win0_7.index t 1 * 512 + 512; rw [e1]; omega

/-- Output 3's array after all four points is the normalised map of input 3. -/
theorem final7 (c : Dev nD) (x : Fin 4096 → Fin 512 → ℝ)
    (hx : ∀ r d, (V c main_arg3 : S4096x512.Idx → EReal) (ix2 r d) = ((x r d : ℝ) : EReal)) :
    (dat0 V c).arrAt 7 cfg0.N = nrmArr x :=
  (dat0 V c).arrAt_eq_of_cover 7 (nrmArr x) (fun t _ => flushed_eq_7 V c x hx t) cover7

/-- Entry `(r, d)` of output 3's array after all four points is `nrm x r d`. -/
theorem arrAt_out_3 (c : Dev nD) (x : Fin 4096 → Fin 512 → ℝ)
    (hx : ∀ r d, (V c main_arg3 : S4096x512.Idx → EReal) (ix2 r d) = ((x r d : ℝ) : EReal)) (r : Fin 4096) (d : Fin 512) :
    ((dat0 V c).arrAt 7 cfg0.N : S4096x512.Idx → EReal) (ix2 r d) = ((Cert.Spec.nrm x r d : ℝ) : EReal) := by
  rw [final7 V c x hx]
  rfl

/-! ## The inputs -/

/-- The first four windows are inputs. -/
theorem isOut_in : ∀ w : Fin cfg0.W, w.val < 4 → (cfg0.win w).isOut = false := by decide

/-- An input's array is never written back: at every point it holds what the call found. -/
theorem arrAt_in (c : Dev nD) (w : Fin cfg0.W) (hw : w.val < 4) (n : Nat) :
    (dat0 V c).arrAt w n = V c (Pipeline.arrRef spec0 w) :=
  ((dat0 V c).arrAt_in w (isOut_in w hw) n).trans (A_eq0 V c w)

end Cert.KernelIdeal.R0V

end
-- ==== Proof.R1Blk.lean ====
/-
  The second region's input blocks, entry by entry.  The grid has 4 x 8 points, point t at row band t / 8 and
  column band t % 8.  Each of the four normalised maps is read through two windows: an even window takes the block
  of 1024 rows at block index (t / 8, 0), an odd window the block of 512 rows at block index (t % 8, 0).  An entry
  of a block sits in its array, on each axis, at the block index times the block's extent plus its own coordinate;
  so when a map holds the real matrix n, the even window's block at (p, d) is n at row 1024 (t / 8) + p, and the odd
  window's block at (q, d) is n at row 512 (t % 8) + q, both at column d.
-/
import proofs.«181995_j31490700214616_2_alg».proof.Proof.R1Runs
import proofs.«181995_j31490700214616_2_alg».proof.Proof.Spec
import Idealize.ShloMosaic.Lib.Pipeline.Value
import Idealize.ShloMosaic.Lib.ValueIdx

noncomputable section

namespace Cert.KernelIdeal.R1V

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- A point's row band is one of the four. -/
theorem band_lt (t : Fin cfg1.N) : t.val / 8 < 4 := by
  have h : t.val < 32 := lt_of_lt_of_eq t.isLt N_1
  omega

/-- A point's column band is one of the eight. -/
theorem tile_lt (t : Fin cfg1.N) : t.val % 8 < 8 := Nat.mod_lt _ (by decide)

/-- The index map of window 0, at every point of the grid: block (t / 8, 0). -/
theorem index1_0 : ∀ t : Fin cfg1.N, win1_0.index t 0 = t.val / 8 ∧ win1_0.index t 1 = 0 :=
  (by decide +kernel : ∀ t : Fin grid1.N, win1_0.index t 0 = t.val / 8 ∧ win1_0.index t 1 = 0)

/-- Window 0's block at point t, entry (p, d): row 1024 (t / 8) + p of the first normalised map, column d. -/
theorem iblk1_even_0 (c : Dev nD) (n : Fin 4096 → Fin 512 → ℝ)
    (hn : ∀ r d, V c main_v0_0 (ValueIdx.ix2 r d) = ((n r d : ℝ) : EReal))
    (t : Fin cfg1.N) (p : Fin 1024) (d : Fin 512) :
    R1.iblk1 V c 0 t (ValueIdx.ix2 p d) = ((n (Cert.Spec.rowIx ⟨t.val / 8, band_lt t⟩ p) d : ℝ) : EReal) := by
  obtain ⟨h0, h1⟩ := index1_0 t
  unfold R1.iblk1
  show V c main_v0_0 (((cfg1.win 0).blk t).view.emb (ix2 p d)) = _
  refine (congrArg (V c main_v0_0) ?_).trans (hn (Cert.Spec.rowIx ⟨t.val / 8, band_lt t⟩ p) d)
  funext a
  apply Fin.ext
  match a with
  | ⟨0, _⟩ => show win1_0.index t 0 * 1024 + 1 * p.val = 1024 * (t.val / 8) + p.val; rw [h0]; omega
  | ⟨1, _⟩ => show win1_0.index t 1 * 512 + 1 * d.val = d.val; rw [h1]; omega

/-- The index map of window 1, at every point of the grid: block (t % 8, 0). -/
theorem index1_1 : ∀ t : Fin cfg1.N, win1_1.index t 0 = t.val % 8 ∧ win1_1.index t 1 = 0 :=
  (by decide +kernel : ∀ t : Fin grid1.N, win1_1.index t 0 = t.val % 8 ∧ win1_1.index t 1 = 0)

/-- Window 1's block at point t, entry (q, d): row 512 (t % 8) + q of the first normalised map, column d. -/
theorem iblk1_odd_0 (c : Dev nD) (n : Fin 4096 → Fin 512 → ℝ)
    (hn : ∀ r d, V c main_v0_0 (ValueIdx.ix2 r d) = ((n r d : ℝ) : EReal))
    (t : Fin cfg1.N) (q : Fin 512) (d : Fin 512) :
    R1.iblk1 V c 1 t (ValueIdx.ix2 q d) = ((n (Cert.Spec.colIx ⟨t.val % 8, tile_lt t⟩ q) d : ℝ) : EReal) := by
  obtain ⟨h0, h1⟩ := index1_1 t
  unfold R1.iblk1
  show V c main_v0_0 (((cfg1.win 1).blk t).view.emb (ix2 q d)) = _
  refine (congrArg (V c main_v0_0) ?_).trans (hn (Cert.Spec.colIx ⟨t.val % 8, tile_lt t⟩ q) d)
  funext a
  apply Fin.ext
  match a with
  | ⟨0, _⟩ => show win1_1.index t 0 * 512 + 1 * q.val = 512 * (t.val % 8) + q.val; rw [h0]; omega
  | ⟨1, _⟩ => show win1_1.index t 1 * 512 + 1 * d.val = d.val; rw [h1]; omega

/-- The index map of window 2, at every point of the grid: block (t / 8, 0). -/
theorem index1_2 : ∀ t : Fin cfg1.N, win1_2.index t 0 = t.val / 8 ∧ win1_2.index t 1 = 0 :=
  (by decide +kernel : ∀ t : Fin grid1.N, win1_2.index t 0 = t.val / 8 ∧ win1_2.index t 1 = 0)

/-- Window 2's block at point t, entry (p, d): row 1024 (t / 8) + p of the second normalised map, column d. -/
theorem iblk1_even_1 (c : Dev nD) (n : Fin 4096 → Fin 512 → ℝ)
    (hn : ∀ r d, V c main_v0_1 (ValueIdx.ix2 r d) = ((n r d : ℝ) : EReal))
    (t : Fin cfg1.N) (p : Fin 1024) (d : Fin 512) :
    R1.iblk1 V c 2 t (ValueIdx.ix2 p d) = ((n (Cert.Spec.rowIx ⟨t.val / 8, band_lt t⟩ p) d : ℝ) : EReal) := by
  obtain ⟨h0, h1⟩ := index1_2 t
  unfold R1.iblk1
  show V c main_v0_1 (((cfg1.win 2).blk t).view.emb (ix2 p d)) = _
  refine (congrArg (V c main_v0_1) ?_).trans (hn (Cert.Spec.rowIx ⟨t.val / 8, band_lt t⟩ p) d)
  funext a
  apply Fin.ext
  match a with
  | ⟨0, _⟩ => show win1_2.index t 0 * 1024 + 1 * p.val = 1024 * (t.val / 8) + p.val; rw [h0]; omega
  | ⟨1, _⟩ => show win1_2.index t 1 * 512 + 1 * d.val = d.val; rw [h1]; omega

/-- The index map of window 3, at every point of the grid: block (t % 8, 0). -/
theorem index1_3 : ∀ t : Fin cfg1.N, win1_3.index t 0 = t.val % 8 ∧ win1_3.index t 1 = 0 :=
  (by decide +kernel : ∀ t : Fin grid1.N, win1_3.index t 0 = t.val % 8 ∧ win1_3.index t 1 = 0)

/-- Window 3's block at point t, entry (q, d): row 512 (t % 8) + q of the second normalised map, column d. -/
theorem iblk1_odd_1 (c : Dev nD) (n : Fin 4096 → Fin 512 → ℝ)
    (hn : ∀ r d, V c main_v0_1 (ValueIdx.ix2 r d) = ((n r d : ℝ) : EReal))
    (t : Fin cfg1.N) (q : Fin 512) (d : Fin 512) :
    R1.iblk1 V c 3 t (ValueIdx.ix2 q d) = ((n (Cert.Spec.colIx ⟨t.val % 8, tile_lt t⟩ q) d : ℝ) : EReal) := by
  obtain ⟨h0, h1⟩ := index1_3 t
  unfold R1.iblk1
  show V c main_v0_1 (((cfg1.win 3).blk t).view.emb (ix2 q d)) = _
  refine (congrArg (V c main_v0_1) ?_).trans (hn (Cert.Spec.colIx ⟨t.val % 8, tile_lt t⟩ q) d)
  funext a
  apply Fin.ext
  match a with
  | ⟨0, _⟩ => show win1_3.index t 0 * 512 + 1 * q.val = 512 * (t.val % 8) + q.val; rw [h0]; omega
  | ⟨1, _⟩ => show win1_3.index t 1 * 512 + 1 * d.val = d.val; rw [h1]; omega

/-- The index map of window 4, at every point of the grid: block (t / 8, 0). -/
theorem index1_4 : ∀ t : Fin cfg1.N, win1_4.index t 0 = t.val / 8 ∧ win1_4.index t 1 = 0 :=
  (by decide +kernel : ∀ t : Fin grid1.N, win1_4.index t 0 = t.val / 8 ∧ win1_4.index t 1 = 0)

/-- Window 4's block at point t, entry (p, d): row 1024 (t / 8) + p of the third normalised map, column d. -/
theorem iblk1_even_2 (c : Dev nD) (n : Fin 4096 → Fin 512 → ℝ)
    (hn : ∀ r d, V c main_v0_2 (ValueIdx.ix2 r d) = ((n r d : ℝ) : EReal))
    (t : Fin cfg1.N) (p : Fin 1024) (d : Fin 512) :
    R1.iblk1 V c 4 t (ValueIdx.ix2 p d) = ((n (Cert.Spec.rowIx ⟨t.val / 8, band_lt t⟩ p) d : ℝ) : EReal) := by
  obtain ⟨h0, h1⟩ := index1_4 t
  unfold R1.iblk1
  show V c main_v0_2 (((cfg1.win 4).blk t).view.emb (ix2 p d)) = _
  refine (congrArg (V c main_v0_2) ?_).trans (hn (Cert.Spec.rowIx ⟨t.val / 8, band_lt t⟩ p) d)
  funext a
  apply Fin.ext
  match a with
  | ⟨0, _⟩ => show win1_4.index t 0 * 1024 + 1 * p.val = 1024 * (t.val / 8) + p.val; rw [h0]; omega
  | ⟨1, _⟩ => show win1_4.index t 1 * 512 + 1 * d.val = d.val; rw [h1]; omega

/-- The index map of window 5, at every point of the grid: block (t % 8, 0). -/
theorem index1_5 : ∀ t : Fin cfg1.N, win1_5.index t 0 = t.val % 8 ∧ win1_5.index t 1 = 0 :=
  (by decide +kernel : ∀ t : Fin grid1.N, win1_5.index t 0 = t.val % 8 ∧ win1_5.index t 1 = 0)

/-- Window 5's block at point t, entry (q, d): row 512 (t % 8) + q of the third normalised map, column d. -/
theorem iblk1_odd_2 (c : Dev nD) (n : Fin 4096 → Fin 512 → ℝ)
    (hn : ∀ r d, V c main_v0_2 (ValueIdx.ix2 r d) = ((n r d : ℝ) : EReal))
    (t : Fin cfg1.N) (q : Fin 512) (d : Fin 512) :
    R1.iblk1 V c 5 t (ValueIdx.ix2 q d) = ((n (Cert.Spec.colIx ⟨t.val % 8, tile_lt t⟩ q) d : ℝ) : EReal) := by
  obtain ⟨h0, h1⟩ := index1_5 t
  unfold R1.iblk1
  show V c main_v0_2 (((cfg1.win 5).blk t).view.emb (ix2 q d)) = _
  refine (congrArg (V c main_v0_2) ?_).trans (hn (Cert.Spec.colIx ⟨t.val % 8, tile_lt t⟩ q) d)
  funext a
  apply Fin.ext
  match a with
  | ⟨0, _⟩ => show win1_5.index t 0 * 512 + 1 * q.val = 512 * (t.val % 8) + q.val; rw [h0]; omega
  | ⟨1, _⟩ => show win1_5.index t 1 * 512 + 1 * d.val = d.val; rw [h1]; omega

/-- The index map of window 6, at every point of the grid: block (t / 8, 0). -/
theorem index1_6 : ∀ t : Fin cfg1.N, win1_6.index t 0 = t.val / 8 ∧ win1_6.index t 1 = 0 :=
  (by decide +kernel : ∀ t : Fin grid1.N, win1_6.index t 0 = t.val / 8 ∧ win1_6.index t 1 = 0)

/-- Window 6's block at point t, entry (p, d): row 1024 (t / 8) + p of the fourth normalised map, column d. -/
theorem iblk1_even_3 (c : Dev nD) (n : Fin 4096 → Fin 512 → ℝ)
    (hn : ∀ r d, V c main_v0_3 (ValueIdx.ix2 r d) = ((n r d : ℝ) : EReal))
    (t : Fin cfg1.N) (p : Fin 1024) (d : Fin 512) :
    R1.iblk1 V c 6 t (ValueIdx.ix2 p d) = ((n (Cert.Spec.rowIx ⟨t.val / 8, band_lt t⟩ p) d : ℝ) : EReal) := by
  obtain ⟨h0, h1⟩ := index1_6 t
  unfold R1.iblk1
  show V c main_v0_3 (((cfg1.win 6).blk t).view.emb (ix2 p d)) = _
  refine (congrArg (V c main_v0_3) ?_).trans (hn (Cert.Spec.rowIx ⟨t.val / 8, band_lt t⟩ p) d)
  funext a
  apply Fin.ext
  match a with
  | ⟨0, _⟩ => show win1_6.index t 0 * 1024 + 1 * p.val = 1024 * (t.val / 8) + p.val; rw [h0]; omega
  | ⟨1, _⟩ => show win1_6.index t 1 * 512 + 1 * d.val = d.val; rw [h1]; omega

/-- The index map of window 7, at every point of the grid: block (t % 8, 0). -/
theorem index1_7 : ∀ t : Fin cfg1.N, win1_7.index t 0 = t.val % 8 ∧ win1_7.index t 1 = 0 :=
  (by decide +kernel : ∀ t : Fin grid1.N, win1_7.index t 0 = t.val % 8 ∧ win1_7.index t 1 = 0)

/-- Window 7's block at point t, entry (q, d): row 512 (t % 8) + q of the fourth normalised map, column d. -/
theorem iblk1_odd_3 (c : Dev nD) (n : Fin 4096 → Fin 512 → ℝ)
    (hn : ∀ r d, V c main_v0_3 (ValueIdx.ix2 r d) = ((n r d : ℝ) : EReal))
    (t : Fin cfg1.N) (q : Fin 512) (d : Fin 512) :
    R1.iblk1 V c 7 t (ValueIdx.ix2 q d) = ((n (Cert.Spec.colIx ⟨t.val % 8, tile_lt t⟩ q) d : ℝ) : EReal) := by
  obtain ⟨h0, h1⟩ := index1_7 t
  unfold R1.iblk1
  show V c main_v0_3 (((cfg1.win 7).blk t).view.emb (ix2 q d)) = _
  refine (congrArg (V c main_v0_3) ?_).trans (hn (Cert.Spec.colIx ⟨t.val % 8, tile_lt t⟩ q) d)
  funext a
  apply Fin.ext
  match a with
  | ⟨0, _⟩ => show win1_7.index t 0 * 512 + 1 * q.val = 512 * (t.val % 8) + q.val; rw [h0]; omega
  | ⟨1, _⟩ => show win1_7.index t 1 * 512 + 1 * d.val = d.val; rw [h1]; omega

end Cert.KernelIdeal.R1V

end
-- ==== Proof.R1PayCoe.lean ====
/-
  A finite sum of real numbers read in the extended reals: the inclusion of the reals is additive, so it passes
  through a finite sum term by term.
-/
import Idealize.ShloMosaic.PureOps.Ideal

namespace Cert.KernelIdeal.R1V

/-- A finite sum of real numbers, read in the extended reals, is the sum of the terms read there. -/
theorem coe_fin_sum {ι : Type} (s : Finset ι) (f : ι → ℝ) :
    ((∑ i ∈ s, f i : ℝ) : EReal) = ∑ i ∈ s, ((f i : ℝ) : EReal) := by
  classical
  refine Finset.induction_on s (by simp) fun a t ha ih => ?_
  rw [Finset.sum_insert ha, Finset.sum_insert ha, EReal.coe_add, ih]

end Cert.KernelIdeal.R1V
-- ==== Proof.R1PayGram.lean ====
/-
  One tile of a Gram matrix.  The matrix product of a 1024 x 512 tile with a 512 x 512 tile, contracting the second
  axis of both into a zero accumulator, has at (p, q) the sum over d of a(p, d) * b(q, d).  When the two tiles hold
  rows of one real matrix n -- rows 1024 i + p on the left, rows 512 j + q on the right -- that sum is the inner
  product of those two rows: the entry of the Gram matrix of n in row band i, column band j.
-/
import proofs.«181995_j31490700214616_2_alg».proof.Proof.Gen.KernelIdeal.Skeleton
import proofs.«181995_j31490700214616_2_alg».proof.Proof.Spec
import proofs.«181995_j31490700214616_2_alg».proof.Proof.R1PayCoe

import Idealize.ShloMosaic.Lib.Pipeline.Value
import Idealize.ShloMosaic.Lib.ValueIdx
import Idealize.ShloMosaic.PureOps.Ideal.Laws

noncomputable section

namespace Cert.KernelIdeal.R1V

open Cert.KernelIdeal Cert.KernelIdeal.Gen Idealize.ShloMosaic Idealize.ShloMosaic.ValueIdx

theorem lhs_row (i : S1024x512.Idx) (k : dot_S1024x512_S512x512_S1024x512_1_1_0_0_n_n.contr.Idx) :
    (dot_S1024x512_S512x512_S1024x512_1_1_0_0_n_n.lhsIdx i k 0).val = (i 0).val := by
  unfold DotDims.lhsIdx
  rw [dif_neg (show ¬(0 : Fin S1024x512.rank) ∈ dot_S1024x512_S512x512_S1024x512_1_1_0_0_n_n.lhsBatch by decide),
    dif_pos (show (0 : Fin S1024x512.rank) ∈ dot_S1024x512_S512x512_S1024x512_1_1_0_0_n_n.lhsNonContracting by decide)]
  rfl

theorem lhs_depth (i : S1024x512.Idx) (k : dot_S1024x512_S512x512_S1024x512_1_1_0_0_n_n.contr.Idx) :
    (dot_S1024x512_S512x512_S1024x512_1_1_0_0_n_n.lhsIdx i k 1).val = (k ⟨0, by decide⟩).val :=
  dot_S1024x512_S512x512_S1024x512_1_1_0_0_n_n.lhsIdx_val_of_single rfl i k

theorem rhs_row (i : S1024x512.Idx) (k : dot_S1024x512_S512x512_S1024x512_1_1_0_0_n_n.contr.Idx) :
    (dot_S1024x512_S512x512_S1024x512_1_1_0_0_n_n.rhsIdx i k 0).val = (i 1).val := by
  unfold DotDims.rhsIdx
  rw [dif_neg (show ¬(0 : Fin S512x512.rank) ∈ dot_S1024x512_S512x512_S1024x512_1_1_0_0_n_n.rhsBatch by decide),
    dif_pos (show (0 : Fin S512x512.rank) ∈ dot_S1024x512_S512x512_S1024x512_1_1_0_0_n_n.rhsNonContracting by decide)]
  rfl

theorem rhs_depth (i : S1024x512.Idx) (k : dot_S1024x512_S512x512_S1024x512_1_1_0_0_n_n.contr.Idx) :
    (dot_S1024x512_S512x512_S1024x512_1_1_0_0_n_n.rhsIdx i k 1).val = (k ⟨0, by decide⟩).val :=
  dot_S1024x512_S512x512_S1024x512_1_1_0_0_n_n.rhsIdx_val_of_single rfl i k

/-- The product of the two tiles into the zero accumulator, at (p, q): the sum over the 512 columns d of
    a(p, d) * b(q, d). -/
theorem matmul_tile_apply (a : FVec Ideal S1024x512 .bf16) (b : FVec Ideal S512x512 .bf16) (p : Fin 1024) (q : Fin 512) :
    matmul (F := Ideal) dot_S1024x512_S512x512_S1024x512_1_1_0_0_n_n none a b
        (constant (F := Ideal) S1024x512 .f32 0x00000000#32) (ix2 p q)
      = ∑ d : Fin 512, a (ix2 p d) * b (ix2 q d) := by
  simp only [matmul]
  rw [Ideal.matmul_constant_zero_apply,
    ← Equiv.sum_comp (contrEquiv1 dot_S1024x512_S512x512_S1024x512_1_1_0_0_n_n 512 rfl rfl).symm]
  refine Finset.sum_congr rfl fun k _ => ?_
  have hk := contrEquiv1_symm_val dot_S1024x512_S512x512_S1024x512_1_1_0_0_n_n 512 rfl rfl k
  have el : dot_S1024x512_S512x512_S1024x512_1_1_0_0_n_n.lhsIdx (ix2 p q)
      ((contrEquiv1 dot_S1024x512_S512x512_S1024x512_1_1_0_0_n_n 512 rfl rfl).symm k) = ix2 p k :=
    funext fun c => Fin.ext (by
      match c with
      | ⟨0, _⟩ => exact lhs_row _ _
      | ⟨1, _⟩ => exact (lhs_depth _ _).trans hk)
  have er : dot_S1024x512_S512x512_S1024x512_1_1_0_0_n_n.rhsIdx (ix2 p q)
      ((contrEquiv1 dot_S1024x512_S512x512_S1024x512_1_1_0_0_n_n 512 rfl rfl).symm k) = ix2 q k :=
    funext fun c => Fin.ext (by
      match c with
      | ⟨0, _⟩ => exact rhs_row _ _
      | ⟨1, _⟩ => exact (rhs_depth _ _).trans hk)
  rw [el, er]

/-- The first payload of the tile step at (p, q), when the left tile holds rows 1024 i + p of n and the right tile
    rows 512 j + q: the inner product of those two rows. -/
theorem gram_tile (a : Vec Ideal S1024x512 .bf16) (b : Vec Ideal S512x512 .bf16) (n : Fin 4096 → Fin 512 → ℝ)
    (i : Fin 4) (j : Fin 8)
    (ha : ∀ p d, a (ValueIdx.ix2 p d) = ((n (Cert.Spec.rowIx i p) d : ℝ) : EReal))
    (hb : ∀ q d, b (ValueIdx.ix2 q d) = ((n (Cert.Spec.colIx j q) d : ℝ) : EReal))
    (p : Fin 1024) (q : Fin 512) :
    k1_pay4 a b (ValueIdx.ix2 p q)
      = ((Cert.Spec.gramOf n (Cert.Spec.rowIx i p) (Cert.Spec.colIx j q) : ℝ) : EReal) := by
  unfold k1_pay4
  rw [shapeCast_self, shapeCast_self]
  refine (matmul_tile_apply a b p q).trans ?_
  unfold Cert.Spec.gramOf
  rw [coe_fin_sum]
  refine Finset.sum_congr rfl fun d _ => ?_
  rw [ha, hb, EReal.coe_mul]

end Cert.KernelIdeal.R1V

end
-- ==== Proof.R1PaySq.lean ====
/-
  The sum of all entries of a 1024 x 512 tile, taken in two stages as the tile step takes it: first along each row
  (a sum over the 512 columns), the 1024 row sums written as a column, then down that column, the one total written
  as a 1 x 1 matrix.  When every entry of the tile is a real number the result is the double sum of those reals.
-/
import proofs.«181995_j31490700214616_2_alg».proof.Proof.Gen.KernelIdeal.Skeleton
import proofs.«181995_j31490700214616_2_alg».proof.Proof.R1PayCoe
import proofs.«181995_j31490700214616_2_alg».proof.Proof.LibKeepdims
import Idealize.ShloMosaic.Lib.Pipeline.Value
import Idealize.ShloMosaic.Lib.ValueIdx
import Idealize.ShloMosaic.PureOps.Ideal.Laws

noncomputable section

namespace Cert.KernelIdeal.R1V

open Cert.KernelIdeal Cert.KernelIdeal.Gen Idealize.ShloMosaic Idealize.ShloMosaic.ValueIdx

/-- The sum along the rows of a 1024 x 512 tile, at row p: the sum over the 512 columns q of the entry (p, q). -/
theorem row_sum_apply (src : FVec Ideal S1024x512 .f32) (h : S1024x512.Reduces [1] S1024) (hφ : FKind.Formats .f32)
    (hacc : (0x00000000#32 : BitVec 32) = 0x00000000#32) (p : Fin 1024) :
    multiReduction (F := Ideal) .add [1] S1024 src 0x00000000#32 h hφ hacc (ix1 p) = ∑ q : Fin 512, src (ix2 p q) := by
  refine (Ideal.multiReduction_add_single src 0x00000000#32 h hφ hacc (ix1 p)).trans ?_
  refine Finset.sum_congr rfl fun q _ => congrArg src ?_
  exact funext fun c => Fin.ext (by match c with | ⟨0, _⟩ => rfl | ⟨1, _⟩ => rfl)

/-- The sum down a column of 1024 entries, at its one index: the sum over the 1024 rows p of the entry (p, u). -/
theorem col_sum_apply (src : FVec Ideal S1024x1 .f32) (h : S1024x1.Reduces [0] S1) (hφ : FKind.Formats .f32)
    (hacc : (0x00000000#32 : BitVec 32) = 0x00000000#32) (u : Fin 1) :
    multiReduction (F := Ideal) .add [0] S1 src 0x00000000#32 h hφ hacc (ix1 u) = ∑ p : Fin 1024, src (ix2 p u) := by
  refine (Ideal.multiReduction_add_single src 0x00000000#32 h hφ hacc (ix1 u)).trans ?_
  refine Finset.sum_congr rfl fun p _ => congrArg src ?_
  exact funext fun c => Fin.ext (by match c with | ⟨0, _⟩ => rfl | ⟨1, _⟩ => rfl)

/-- The two-stage sum of a tile whose entry (p, q) is the real number f p q: the double sum of f. -/
theorem tile_sum_apply (v : FVec Ideal S1024x512 .f32) (f : Fin 1024 → Fin 512 → ℝ)
    (hv : ∀ p q, v (ix2 p q) = ((f p q : ℝ) : EReal))
    (h1 : S1024x512.Reduces [1] S1024) (c1 : S1024.ShapeCasts S1024x1)
    (h2 : S1024x1.Reduces [0] S1) (c2 : S1.ShapeCasts S1x1)
    (hφ1 hφ2 : FKind.Formats .f32) (hacc1 hacc2 : (0x00000000#32 : BitVec 32) = 0x00000000#32) (u w : Fin 1) :
    shapeCast S1x1
        (multiReduction (F := Ideal) .add [0] S1
          (shapeCast S1024x1 (multiReduction (F := Ideal) .add [1] S1024 v 0x00000000#32 h1 hφ1 hacc1) c1)
          0x00000000#32 h2 hφ2 hacc2) c2 (ix2 u w)
      = ((∑ p : Fin 1024, ∑ q : Fin 512, f p q : ℝ) : EReal) := by
  refine (shapeCast_a_a1_apply _ c2 u w).trans ?_
  refine (col_sum_apply _ h2 hφ2 hacc2 u).trans ?_
  rw [coe_fin_sum]
  refine Finset.sum_congr rfl fun p _ => ?_
  refine (shapeCast_a_a1_apply _ c1 p u).trans ?_
  refine (row_sum_apply v h1 hφ1 hacc1 p).trans ?_
  rw [coe_fin_sum]
  exact Finset.sum_congr rfl fun q _ => hv p q

end Cert.KernelIdeal.R1V

end
-- ==== Proof.R1PayAcc.lean ====
/-
  One step of the running total.  In tile (i, j) the step forms, for each of the first three maps, the difference
  between the fourth map's Gram tile and that map's, squares it entry by entry and sums the tile; the three sums are
  added in the order first, second, third, the total is repeated over an 8 x 128 block and added to the block's
  previous contents.  With the eight tiles holding rows of four real matrices, every entry of the new block is the
  previous value plus the three squared-difference sums of the tile.
-/
import proofs.«181995_j31490700214616_2_alg».proof.Proof.Gen.KernelIdeal.Skeleton
import proofs.«181995_j31490700214616_2_alg».proof.Proof.Spec
import proofs.«181995_j31490700214616_2_alg».proof.Proof.R1PayCoe
import proofs.«181995_j31490700214616_2_alg».proof.Proof.R1PayGram
import proofs.«181995_j31490700214616_2_alg».proof.Proof.R1PaySq
import Idealize.ShloMosaic.Lib.Pipeline.Value
import Idealize.ShloMosaic.Lib.ValueIdx
import Idealize.ShloMosaic.PureOps.Ideal.Laws

noncomputable section

namespace Cert.KernelIdeal.R1V

open Cert.KernelIdeal Cert.KernelIdeal.Gen Idealize.ShloMosaic Idealize.ShloMosaic.ValueIdx Cert.Spec

/-- The difference tile at (p, q): the inner product of rows 1024 i + p and 512 j + q of y minus that of x. -/
theorem diff_tile (x y : Fin 4096 → Fin 512 → ℝ) (i : Fin 4) (j : Fin 8)
    (y_i : Vec Ideal S1024x512 .bf16) (y_j : Vec Ideal S512x512 .bf16)
    (x_i : Vec Ideal S1024x512 .bf16) (x_j : Vec Ideal S512x512 .bf16)
    (hyi : ∀ p d, y_i (ix2 p d) = ((y (rowIx i p) d : ℝ) : EReal))
    (hyj : ∀ q d, y_j (ix2 q d) = ((y (colIx j q) d : ℝ) : EReal))
    (hxi : ∀ p d, x_i (ix2 p d) = ((x (rowIx i p) d : ℝ) : EReal))
    (hxj : ∀ q d, x_j (ix2 q d) = ((x (colIx j q) d : ℝ) : EReal)) (p : Fin 1024) (q : Fin 512) :
    k1_pay5 y_i y_j x_i x_j (ix2 p q)
      = ((gramOf y (rowIx i p) (colIx j q) - gramOf x (rowIx i p) (colIx j q) : ℝ) : EReal) := by
  have e : k1_pay5 y_i y_j x_i x_j = subf (k1_pay4 y_i y_j) (k1_pay4 x_i x_j) := rfl
  rw [e, subf_apply, gram_tile y_i y_j y i j hyi hyj p q, gram_tile x_i x_j x i j hxi hxj p q, ← EReal.coe_sub]

/-- The squared difference tile at (p, q). -/
theorem sq_tile (x y : Fin 4096 → Fin 512 → ℝ) (i : Fin 4) (j : Fin 8)
    (y_i : Vec Ideal S1024x512 .bf16) (y_j : Vec Ideal S512x512 .bf16)
    (x_i : Vec Ideal S1024x512 .bf16) (x_j : Vec Ideal S512x512 .bf16)
    (hyi : ∀ p d, y_i (ix2 p d) = ((y (rowIx i p) d : ℝ) : EReal))
    (hyj : ∀ q d, y_j (ix2 q d) = ((y (colIx j q) d : ℝ) : EReal))
    (hxi : ∀ p d, x_i (ix2 p d) = ((x (rowIx i p) d : ℝ) : EReal))
    (hxj : ∀ q d, x_j (ix2 q d) = ((x (colIx j q) d : ℝ) : EReal)) (p : Fin 1024) (q : Fin 512) :
    k1_pay7 y_i y_j x_i x_j (ix2 p q)
      = (((gramOf y (rowIx i p) (colIx j q) - gramOf x (rowIx i p) (colIx j q))
          * (gramOf y (rowIx i p) (colIx j q) - gramOf x (rowIx i p) (colIx j q)) : ℝ) : EReal) := by
  have e : k1_pay7 y_i y_j x_i x_j = mulf (k1_pay5 y_i y_j x_i x_j) (k1_pay5 y_i y_j x_i x_j) := rfl
  rw [e, mulf_apply, diff_tile x y i j y_i y_j x_i x_j hyi hyj hxi hxj p q, ← EReal.coe_mul]

/-- The squared difference tile summed in two stages: the squared-difference sum of tile (i, j). -/
theorem block_sum (x y : Fin 4096 → Fin 512 → ℝ) (i : Fin 4) (j : Fin 8)
    (y_i : Vec Ideal S1024x512 .bf16) (y_j : Vec Ideal S512x512 .bf16)
    (x_i : Vec Ideal S1024x512 .bf16) (x_j : Vec Ideal S512x512 .bf16)
    (hyi : ∀ p d, y_i (ix2 p d) = ((y (rowIx i p) d : ℝ) : EReal))
    (hyj : ∀ q d, y_j (ix2 q d) = ((y (colIx j q) d : ℝ) : EReal))
    (hxi : ∀ p d, x_i (ix2 p d) = ((x (rowIx i p) d : ℝ) : EReal))
    (hxj : ∀ q d, x_j (ix2 q d) = ((x (colIx j q) d : ℝ) : EReal)) (u w : Fin 1) :
    k1_pay6 y_i y_j x_i x_j (ix2 u w) = ((blockSq x y i j : ℝ) : EReal) := by
  unfold k1_pay6 Cert.Spec.blockSq
  refine tile_sum_apply _ (fun p q => (gramOf y (rowIx i p) (colIx j q) - gramOf x (rowIx i p) (colIx j q))
      * (gramOf y (rowIx i p) (colIx j q) - gramOf x (rowIx i p) (colIx j q))) ?_ _ _ _ _ _ _ _ _ u w
  intro p q
  exact sq_tile x y i j y_i y_j x_i x_j hyi hyj hxi hxj p q

/-- The store of the running total, over any three operands that are real entry by entry: the previous value plus
    the second operand's value, the first tile's two-stage sum and the two-stage sum of the third tile squared,
    added in that order. -/
theorem pay1_apply (v25 : FVec Ideal S1024x512 .f32) (v30 : FVec Ideal S1x1 .f32) (v31 : FVec Ideal S1024x512 .f32)
    (f25 : Fin 1024 → Fin 512 → ℝ) (f31 : Fin 1024 → Fin 512 → ℝ) (r30 : ℝ)
    (h25 : ∀ p q, v25 (ix2 p q) = ((f25 p q : ℝ) : EReal))
    (h30 : ∀ u w, v30 (ix2 u w) = ((r30 : ℝ) : EReal))
    (h31 : ∀ p q, v31 (ix2 p q) = ((f31 p q : ℝ) : EReal))
    (s : Vec Ideal S8x128 .f32) (sr : ℝ) (hs : ∀ a b, s (ix2 a b) = ((sr : ℝ) : EReal)) (a : Fin 8) (b : Fin 128) :
    k1_pay1 v25 v30 v31 s (ix2 a b)
      = ((sr + ((r30 + ∑ p : Fin 1024, ∑ q : Fin 512, f31 p q)
          + ∑ p : Fin 1024, ∑ q : Fin 512, f25 p q * f25 p q) : ℝ) : EReal) := by
  unfold k1_pay1
  rw [shapeCast_self, shapeCast_self, addf_apply, hs a b, EReal.coe_add]
  refine congrArg (((sr : ℝ) : EReal) + ·) ?_
  refine (broadcastTo_apply _ _ (ix2 a b) (ix2 (0 : Fin 1) (0 : Fin 1)) fun ax => by
    match ax with
    | ⟨0, _⟩ => rfl
    | ⟨1, _⟩ => rfl).trans ?_
  rw [addf_apply, addf_apply, h30, EReal.coe_add, EReal.coe_add]
  refine congrArg₂ (· + ·) (congrArg₂ (· + ·) rfl ?_) ?_
  · exact tile_sum_apply v31 f31 h31 _ _ _ _ _ _ _ _ 0 0
  · exact tile_sum_apply (mulf v25 v25) (fun p q => f25 p q * f25 p q)
      (fun p q => by rw [mulf_apply, h25, EReal.coe_mul]) _ _ _ _ _ _ _ _ 0 0

/-- One step of the running total in tile (i, j), every entry: the previous value plus the three squared-difference
    sums of the tile, the first map's, the second's and the third's against the fourth, added in that order. -/
theorem acc_step (n0 n1 n2 n3 : Fin 4096 → Fin 512 → ℝ) (i : Fin 4) (j : Fin 8)
    (r_i d_i i_i t_i : Vec Ideal S1024x512 .bf16) (r_j d_j i_j t_j : Vec Ideal S512x512 .bf16)
    (hri : ∀ p d, r_i (ix2 p d) = ((n0 (rowIx i p) d : ℝ) : EReal))
    (hrj : ∀ q d, r_j (ix2 q d) = ((n0 (colIx j q) d : ℝ) : EReal))
    (hdi : ∀ p d, d_i (ix2 p d) = ((n1 (rowIx i p) d : ℝ) : EReal))
    (hdj : ∀ q d, d_j (ix2 q d) = ((n1 (colIx j q) d : ℝ) : EReal))
    (hii : ∀ p d, i_i (ix2 p d) = ((n2 (rowIx i p) d : ℝ) : EReal))
    (hij : ∀ q d, i_j (ix2 q d) = ((n2 (colIx j q) d : ℝ) : EReal))
    (hti : ∀ p d, t_i (ix2 p d) = ((n3 (rowIx i p) d : ℝ) : EReal))
    (htj : ∀ q d, t_j (ix2 q d) = ((n3 (colIx j q) d : ℝ) : EReal))
    (s : Vec Ideal S8x128 .f32) (sr : ℝ) (hs : ∀ a b, s (ValueIdx.ix2 a b) = ((sr : ℝ) : EReal))
    (a : Fin 8) (b : Fin 128) :
    k1_pay1 (k1_pay5 t_i t_j i_i i_j) (k1_pay6 t_i t_j r_i r_j) (k1_pay7 t_i t_j d_i d_j) s (ValueIdx.ix2 a b)
      = ((sr + ((Cert.Spec.blockSq n0 n3 i j + Cert.Spec.blockSq n1 n3 i j) + Cert.Spec.blockSq n2 n3 i j) : ℝ) : EReal) :=
  pay1_apply (k1_pay5 t_i t_j i_i i_j) (k1_pay6 t_i t_j r_i r_j) (k1_pay7 t_i t_j d_i d_j)
    (fun p q => gramOf n3 (rowIx i p) (colIx j q) - gramOf n2 (rowIx i p) (colIx j q))
    (fun p q => (gramOf n3 (rowIx i p) (colIx j q) - gramOf n1 (rowIx i p) (colIx j q))
      * (gramOf n3 (rowIx i p) (colIx j q) - gramOf n1 (rowIx i p) (colIx j q)))
    (blockSq n0 n3 i j)
    (fun p q => diff_tile n2 n3 i j t_i t_j i_i i_j hti htj hii hij p q)
    (fun u w => block_sum n0 n3 i j t_i t_j r_i r_j hti htj hri hrj u w)
    (fun p q => sq_tile n1 n3 i j t_i t_j d_i d_j hti htj hdi hdj p q)
    s sr hs a b

end Cert.KernelIdeal.R1V

end
-- ==== Proof.R1PaySmall.lean ====
/-
  The two small payloads of the tile step: the zero block the running total starts from, and the running total
  written out as a block with a leading axis of length one.
-/
import proofs.«181995_j31490700214616_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R1V

open Cert.KernelIdeal Cert.KernelIdeal.Gen Idealize.ShloMosaic Idealize.ShloMosaic.ValueIdx

/-- The block the running total is reset to holds the real number zero everywhere. -/
theorem pay3_apply (a : Fin 8) (b : Fin 128) : k1_pay3 (F := Ideal) (ValueIdx.ix2 a b) = ((0 : ℝ) : EReal) := by
  unfold k1_pay3
  rw [shapeCast_self]
  show Ideal.ofBits .f32 0x00000000#32 = ((0 : ℝ) : EReal)
  rw [Ideal.ofBits_zero_f32, EReal.coe_zero]

/-- The 8 x 128 block written with a leading axis of length one reads, at (u, a, b), the block at (a, b). -/
theorem pay2_apply (v : Vec Ideal S8x128 .f32) (u : Fin 1) (a : Fin 8) (b : Fin 128) :
    k1_pay2 v (ValueIdx.ix3 u a b) = v (ValueIdx.ix2 a b) := by
  unfold k1_pay2
  exact shapeCast_ab_1ab_apply v _ u a b

end Cert.KernelIdeal.R1V

end
-- ==== Proof.R1Acc.lean ====
/-
  The running total of the second stage in closed form.

  The 32 grid positions are numbered n = 8 i + j, row band i = n / 8 and column band j = n % 8.  At a position with
  j = 0 the running total is reset to zero and the tile's three squared-difference sums are added; at every other
  position they are added to what the previous position left.  So after position n every entry of the running
  total is the sum, over the column bands up to j, of the three squared-difference sums of the tiles of row band
  i; after the last column band (j = 7) that is the whole sum over the eight tiles of the band.
-/
import proofs.«181995_j31490700214616_2_alg».proof.Proof.R1PayAcc
import proofs.«181995_j31490700214616_2_alg».proof.Proof.R1PaySmall

noncomputable section

namespace Cert.KernelIdeal.R1V

open Cert.KernelIdeal Cert.KernelIdeal.Gen Idealize.ShloMosaic Idealize.ShloMosaic.ValueIdx Cert.Spec

/-- The three squared-difference sums of tile (q, m), added in the order first, second, third; zero outside the
    4 x 8 grid of tiles. -/
def tileTerm (n0 n1 n2 n3 : Fin 4096 → Fin 512 → ℝ) (q m : ℕ) : ℝ :=
  if h : q < 4 ∧ m < 8 then
    (blockSq n0 n3 ⟨q, h.1⟩ ⟨m, h.2⟩ + blockSq n1 n3 ⟨q, h.1⟩ ⟨m, h.2⟩) + blockSq n2 n3 ⟨q, h.1⟩ ⟨m, h.2⟩
  else 0

theorem tileTerm_eq (n0 n1 n2 n3 : Fin 4096 → Fin 512 → ℝ) (q m : ℕ) (hq : q < 4) (hm : m < 8) :
    tileTerm n0 n1 n2 n3 q m
      = (blockSq n0 n3 ⟨q, hq⟩ ⟨m, hm⟩ + blockSq n1 n3 ⟨q, hq⟩ ⟨m, hm⟩) + blockSq n2 n3 ⟨q, hq⟩ ⟨m, hm⟩ :=
  dif_pos ⟨hq, hm⟩

/-- After position n every entry of the running total is the sum of the tile terms of row band n / 8 over the
    column bands 0, ..., n % 8. -/
theorem acc_partial (n0 n1 n2 n3 : Fin 4096 → Fin 512 → ℝ)
    (r_i d_i i_i t_i : ℕ → Vec Ideal S1024x512 .bf16) (r_j d_j i_j t_j : ℕ → Vec Ideal S512x512 .bf16)
    (hri : ∀ n (hn : n < 32) p d, r_i n (ValueIdx.ix2 p d) = ((n0 (Cert.Spec.rowIx ⟨n / 8, by omega⟩ p) d : ℝ) : EReal))
    (hrj : ∀ n (hn : n < 32) q d, r_j n (ValueIdx.ix2 q d) = ((n0 (Cert.Spec.colIx ⟨n % 8, by omega⟩ q) d : ℝ) : EReal))
    (hdi : ∀ n (hn : n < 32) p d, d_i n (ValueIdx.ix2 p d) = ((n1 (Cert.Spec.rowIx ⟨n / 8, by omega⟩ p) d : ℝ) : EReal))
    (hdj : ∀ n (hn : n < 32) q d, d_j n (ValueIdx.ix2 q d) = ((n1 (Cert.Spec.colIx ⟨n % 8, by omega⟩ q) d : ℝ) : EReal))
    (hii : ∀ n (hn : n < 32) p d, i_i n (ValueIdx.ix2 p d) = ((n2 (Cert.Spec.rowIx ⟨n / 8, by omega⟩ p) d : ℝ) : EReal))
    (hij : ∀ n (hn : n < 32) q d, i_j n (ValueIdx.ix2 q d) = ((n2 (Cert.Spec.colIx ⟨n % 8, by omega⟩ q) d : ℝ) : EReal))
    (hti : ∀ n (hn : n < 32) p d, t_i n (ValueIdx.ix2 p d) = ((n3 (Cert.Spec.rowIx ⟨n / 8, by omega⟩ p) d : ℝ) : EReal))
    (htj : ∀ n (hn : n < 32) q d, t_j n (ValueIdx.ix2 q d) = ((n3 (Cert.Spec.colIx ⟨n % 8, by omega⟩ q) d : ℝ) : EReal))
    (s : ℕ → Vec Ideal S8x128 .f32)
    (hs0 : ∀ n, n < 32 → n % 8 = 0 → s n = k1_pay1 (k1_pay5 (t_i n) (t_j n) (i_i n) (i_j n))
        (k1_pay6 (t_i n) (t_j n) (r_i n) (r_j n)) (k1_pay7 (t_i n) (t_j n) (d_i n) (d_j n)) (k1_pay3 (F := Ideal)))
    (hs1 : ∀ n, n < 32 → n % 8 ≠ 0 → s n = k1_pay1 (k1_pay5 (t_i n) (t_j n) (i_i n) (i_j n))
        (k1_pay6 (t_i n) (t_j n) (r_i n) (r_j n)) (k1_pay7 (t_i n) (t_j n) (d_i n) (d_j n)) (s (n - 1)))
    (n : ℕ) : n < 32 → ∀ (a : Fin 8) (b : Fin 128),
      s n (ValueIdx.ix2 a b) = ((∑ m ∈ Finset.range (n % 8 + 1), tileTerm n0 n1 n2 n3 (n / 8) m : ℝ) : EReal) := by
  induction n using Nat.strong_induction_on with
  | _ n ih =>
    intro hn a b
    by_cases h0 : n % 8 = 0
    · rw [hs0 n hn h0, acc_step n0 n1 n2 n3 ⟨n / 8, by omega⟩ ⟨n % 8, by omega⟩ (r_i n) (d_i n) (i_i n) (t_i n)
        (r_j n) (d_j n) (i_j n) (t_j n) (hri n hn) (hrj n hn) (hdi n hn) (hdj n hn) (hii n hn) (hij n hn)
        (hti n hn) (htj n hn) (k1_pay3 (F := Ideal)) (0 : ℝ) pay3_apply a b,
        ← tileTerm_eq n0 n1 n2 n3 (n / 8) (n % 8) (by omega) (by omega)]
      refine congrArg _ ?_
      simp only [h0, zero_add, Finset.sum_range_one]
    · have ih' := ih (n - 1) (by omega) (by omega)
      have hq : (n - 1) / 8 = n / 8 := by omega
      have hm : (n - 1) % 8 + 1 = n % 8 := by omega
      rw [hq, hm] at ih'
      rw [hs1 n hn h0, acc_step n0 n1 n2 n3 ⟨n / 8, by omega⟩ ⟨n % 8, by omega⟩ (r_i n) (d_i n) (i_i n) (t_i n)
        (r_j n) (d_j n) (i_j n) (t_j n) (hri n hn) (hrj n hn) (hdi n hn) (hdj n hn) (hii n hn) (hij n hn)
        (hti n hn) (htj n hn) (s (n - 1)) (∑ m ∈ Finset.range (n % 8), tileTerm n0 n1 n2 n3 (n / 8) m) ih' a b,
        ← tileTerm_eq n0 n1 n2 n3 (n / 8) (n % 8) (by omega) (by omega), Finset.sum_range_succ]

/-- After the last column band of row band n / 8 every entry of the running total is the band's whole sum. -/
theorem acc_closed (n0 n1 n2 n3 : Fin 4096 → Fin 512 → ℝ)
    (r_i d_i i_i t_i : ℕ → Vec Ideal S1024x512 .bf16) (r_j d_j i_j t_j : ℕ → Vec Ideal S512x512 .bf16)
    (hri : ∀ n (hn : n < 32) p d, r_i n (ValueIdx.ix2 p d) = ((n0 (Cert.Spec.rowIx ⟨n / 8, by omega⟩ p) d : ℝ) : EReal))
    (hrj : ∀ n (hn : n < 32) q d, r_j n (ValueIdx.ix2 q d) = ((n0 (Cert.Spec.colIx ⟨n % 8, by omega⟩ q) d : ℝ) : EReal))
    (hdi : ∀ n (hn : n < 32) p d, d_i n (ValueIdx.ix2 p d) = ((n1 (Cert.Spec.rowIx ⟨n / 8, by omega⟩ p) d : ℝ) : EReal))
    (hdj : ∀ n (hn : n < 32) q d, d_j n (ValueIdx.ix2 q d) = ((n1 (Cert.Spec.colIx ⟨n % 8, by omega⟩ q) d : ℝ) : EReal))
    (hii : ∀ n (hn : n < 32) p d, i_i n (ValueIdx.ix2 p d) = ((n2 (Cert.Spec.rowIx ⟨n / 8, by omega⟩ p) d : ℝ) : EReal))
    (hij : ∀ n (hn : n < 32) q d, i_j n (ValueIdx.ix2 q d) = ((n2 (Cert.Spec.colIx ⟨n % 8, by omega⟩ q) d : ℝ) : EReal))
    (hti : ∀ n (hn : n < 32) p d, t_i n (ValueIdx.ix2 p d) = ((n3 (Cert.Spec.rowIx ⟨n / 8, by omega⟩ p) d : ℝ) : EReal))
    (htj : ∀ n (hn : n < 32) q d, t_j n (ValueIdx.ix2 q d) = ((n3 (Cert.Spec.colIx ⟨n % 8, by omega⟩ q) d : ℝ) : EReal))
    (s : ℕ → Vec Ideal S8x128 .f32)
    (hs0 : ∀ n, n < 32 → n % 8 = 0 → s n = k1_pay1 (k1_pay5 (t_i n) (t_j n) (i_i n) (i_j n))
        (k1_pay6 (t_i n) (t_j n) (r_i n) (r_j n)) (k1_pay7 (t_i n) (t_j n) (d_i n) (d_j n)) (k1_pay3 (F := Ideal)))
    (hs1 : ∀ n, n < 32 → n % 8 ≠ 0 → s n = k1_pay1 (k1_pay5 (t_i n) (t_j n) (i_i n) (i_j n))
        (k1_pay6 (t_i n) (t_j n) (r_i n) (r_j n)) (k1_pay7 (t_i n) (t_j n) (d_i n) (d_j n)) (s (n - 1)))
    (n : ℕ) (hn : n < 32) (h7 : n % 8 = 7) (a : Fin 8) (b : Fin 128) :
    s n (ValueIdx.ix2 a b) = ((Cert.Spec.tileAcc n0 n1 n2 n3 ⟨n / 8, by omega⟩ : ℝ) : EReal) := by
  have h8 : n % 8 + 1 = 8 := by omega
  rw [acc_partial n0 n1 n2 n3 r_i d_i i_i t_i r_j d_j i_j t_j hri hrj hdi hdj hii hij hti htj s hs0 hs1 n hn a b, h8,
    Finset.sum_range]
  refine congrArg _ ?_
  unfold Cert.Spec.tileAcc
  exact Finset.sum_congr rfl fun j _ => tileTerm_eq n0 n1 n2 n3 (n / 8) j.val (by omega) j.isLt

end Cert.KernelIdeal.R1V

end
-- ==== Proof.R1Cover.lean ====
/-
  The second region's output array after the run, from the scratch's contents at the last column of each grid row.

  The output window's block at grid point t = 8 i + j is page i of the [4, 8, 128] array; it is written back only at
  j = 7, with the scratch re-laid as a page.  So if the scratch then holds one number T i at every entry, the array
  ends holding T i throughout page i: the four written pages cover the array.
-/
import proofs.«181995_j31490700214616_2_alg».proof.Proof.R1Body
import proofs.«181995_j31490700214616_2_alg».proof.Proof.R1PaySmall
import Idealize.ShloMosaic.Lib.Pipeline.Value
import Idealize.ShloMosaic.Lib.ValueIdx

noncomputable section

namespace Cert.KernelIdeal.R1V

open Idealize.ShloMosaic Idealize.ShloMosaic.TcCoe Idealize.SL.Sem Idealize.SL.RA Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))
variable (q : Fin cfg1.W → PosShare TreeShare) (c : Dev nD)

/-- The output window's block index at a grid point: the grid row, then zeros. -/
theorem idx8 : ∀ t : Fin cfg1.N, win1_8.index t 0 = t.val / 8 ∧ win1_8.index t 1 = 0 ∧ win1_8.index t 2 = 0 :=
  (by decide +kernel : ∀ t : Fin grid1.N, win1_8.index t 0 = t.val / 8 ∧ win1_8.index t 1 = 0 ∧ win1_8.index t 2 = 0)

/-- The page function: entry (i, a, b) holds `T i`. -/
def pageOf (T : Fin 4 → ℝ) : Buf (Elt Ideal) (((cfg1.win 8).arr.view.loc (c.tc : Thread nD τ))) :=
  fun idx : S4x8x128.Idx => ((T ⟨(idx 0).val, (idx 0).isLt⟩ : ℝ) : EReal)

theorem arrAt_out_of (T : Fin 4 → ℝ)
    (hsc : ∀ (t : Fin cfg1.N) (h7 : t.val % 8 = 7) (a : Fin 8) (b : Fin 128),
      R1.scAt V c t.val t.isLt (ix2 a b) = ((T ⟨t.val / 8, by have := t.isLt; have hN : cfg1.N = 32 := N_1; omega⟩ : ℝ) : EReal))
    (i : Fin 4) (a : Fin 8) (b : Fin 128) :
    (R1.dat1 V q c).arrAt 8 cfg1.N (ix3 i a b) = ((T i : ℝ) : EReal) := by
  have hN : cfg1.N = 32 := N_1
  have hfin : (R1.dat1 V q c).arrAt 8 cfg1.N = pageOf c T := by
    refine (R1.dat1 V q c).arrAt_eq_of_cover 8 (pageOf c T) (fun t hf => ?_) (fun idx => ?_)
    · have h7 : t.val % 8 = 7 := (flush1_8 t).mp hf
      show (cfg1.win 8).cut (grid1.coords t) ((R1.dat1 V q c).after 8 t) = _
      rw [R1.after1_8 V q c t h7]
      funext y
      obtain ⟨u, a', b', rfl⟩ : ∃ (u : Fin 1) (a' : Fin 8) (b' : Fin 128), y = ix3 u a' b' := ⟨y 0, y 1, y 2, eq_ix3 y⟩
      rw [View.read_apply]
      refine (pay2_apply _ u a' b').trans ((hsc t h7 a' b').trans ?_)
      show _ = ((T ⟨_, _⟩ : ℝ) : EReal)
      congr 2
      apply Fin.ext
      show t.val / 8 = win1_8.index t 0 * 1 + 1 * u.val
      rw [(idx8 t).1]; have := u.isLt; omega
    · have h0 : (idx 0).val < 4 := (idx 0).isLt
      have ht' : 8 * (idx 0).val + 7 < cfg1.N := by omega
      generalize hte : (⟨8 * (idx 0).val + 7, ht'⟩ : Fin cfg1.N) = t'
      have htv : t'.val = 8 * (idx 0).val + 7 := by rw [← hte]
      refine ⟨t', (flush1_8 t').mpr (by rw [htv]; omega), ?_⟩
      show idx ∈ ((View.whole main_v1).slice (win1_8.rect t')).set
      rw [View.set_slice_whole, Rect.mem_set_unit]
      intro ax
      have hi := idx8 t'
      have h1 : (idx 1 : Nat) < 8 := (idx 1).isLt
      have h2 : (idx 2 : Nat) < 128 := (idx 2).isLt
      match ax with
      | ⟨0, _⟩ =>
        show win1_8.index t' 0 * 1 ≤ (idx 0 : Nat) ∧ (idx 0 : Nat) < win1_8.index t' 0 * 1 + 1
        rw [hi.1, htv]; omega
      | ⟨1, _⟩ =>
        show win1_8.index t' 1 * 8 ≤ (idx 1 : Nat) ∧ (idx 1 : Nat) < win1_8.index t' 1 * 8 + 8
        rw [hi.2.1]; omega
      | ⟨2, _⟩ =>
        show win1_8.index t' 2 * 128 ≤ (idx 2 : Nat) ∧ (idx 2 : Nat) < win1_8.index t' 2 * 128 + 128
        rw [hi.2.2]; omega
  rw [hfin]
  show ((T ⟨_, _⟩ : ℝ) : EReal) = _
  congr 2

end Cert.KernelIdeal.R1V

end
-- ==== Proof.R1Value.lean ====
/-
  What the second region leaves in its output array, when the four maps it reads hold real numbers.

  Along a grid row the scratch accumulates, tile by tile, the three sums of squared differences between the fourth
  map's Gram tile and each other map's; at the row's last tile it holds the row's whole sum, which is written through
  the output window to the row's page.
-/
import proofs.«181995_j31490700214616_2_alg».proof.Proof.R1Body
import proofs.«181995_j31490700214616_2_alg».proof.Proof.R1Blk
import proofs.«181995_j31490700214616_2_alg».proof.Proof.R1Acc
import proofs.«181995_j31490700214616_2_alg».proof.Proof.R1Cover

noncomputable section

namespace Cert.KernelIdeal.R1V

open Idealize.ShloMosaic Idealize.ShloMosaic.TcCoe Idealize.SL.Sem Idealize.SL.RA Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))
variable (q : Fin cfg1.W → PosShare TreeShare) (c : Dev nD)
variable (n0 n1 n2 n3 : Fin 4096 → Fin 512 → ℝ)
variable (h0 : ∀ (r : Fin 4096) (d : Fin 512), V c main_v0_0 (ix2 r d) = ((n0 r d : ℝ) : EReal))
variable (h1 : ∀ (r : Fin 4096) (d : Fin 512), V c main_v0_1 (ix2 r d) = ((n1 r d : ℝ) : EReal))
variable (h2 : ∀ (r : Fin 4096) (d : Fin 512), V c main_v0_2 (ix2 r d) = ((n2 r d : ℝ) : EReal))
variable (h3 : ∀ (r : Fin 4096) (d : Fin 512), V c main_v0_3 (ix2 r d) = ((n3 r d : ℝ) : EReal))

/-- The eight input blocks and the scratch as sequences over the grid position. -/
def b0 (n : ℕ) : Vec Ideal S1024x512 .bf16 := if hn : n < cfg1.N then R1.iblk1 V c 0 ⟨n, hn⟩ else fun _ => 0
def b1 (n : ℕ) : Vec Ideal S512x512 .bf16 := if hn : n < cfg1.N then R1.iblk1 V c 1 ⟨n, hn⟩ else fun _ => 0
def b2 (n : ℕ) : Vec Ideal S1024x512 .bf16 := if hn : n < cfg1.N then R1.iblk1 V c 2 ⟨n, hn⟩ else fun _ => 0
def b3 (n : ℕ) : Vec Ideal S512x512 .bf16 := if hn : n < cfg1.N then R1.iblk1 V c 3 ⟨n, hn⟩ else fun _ => 0
def b4 (n : ℕ) : Vec Ideal S1024x512 .bf16 := if hn : n < cfg1.N then R1.iblk1 V c 4 ⟨n, hn⟩ else fun _ => 0
def b5 (n : ℕ) : Vec Ideal S512x512 .bf16 := if hn : n < cfg1.N then R1.iblk1 V c 5 ⟨n, hn⟩ else fun _ => 0
def b6 (n : ℕ) : Vec Ideal S1024x512 .bf16 := if hn : n < cfg1.N then R1.iblk1 V c 6 ⟨n, hn⟩ else fun _ => 0
def b7 (n : ℕ) : Vec Ideal S512x512 .bf16 := if hn : n < cfg1.N then R1.iblk1 V c 7 ⟨n, hn⟩ else fun _ => 0
def sc (n : ℕ) : Vec Ideal S8x128 .f32 := if hn : n < cfg1.N then R1.scAt V c n hn else fun _ => 0

theorem lt_N {n : ℕ} (hn : n < 32) : n < cfg1.N := by rw [show cfg1.N = 32 from N_1]; exact hn

include h0 h1 h2 h3 in
/-- At the last tile of a grid row the scratch holds the row's whole sum. -/
theorem sc_last (t : Fin cfg1.N) (h7 : t.val % 8 = 7) (a : Fin 8) (b : Fin 128) :
    R1.scAt V c t.val t.isLt (ix2 a b)
      = ((Cert.Spec.tileAcc n0 n1 n2 n3 ⟨t.val / 8, by have := t.isLt; have hN : cfg1.N = 32 := N_1; omega⟩ : ℝ) : EReal) := by
  have hN : cfg1.N = 32 := N_1
  have key := acc_closed n0 n1 n2 n3 (b0 V c) (b2 V c) (b4 V c) (b6 V c) (b1 V c) (b3 V c) (b5 V c) (b7 V c)
    (fun n hn p d => by rw [b0, dif_pos (lt_N hn)]; exact iblk1_even_0 V c n0 h0 ⟨n, lt_N hn⟩ p d)
    (fun n hn p d => by rw [b1, dif_pos (lt_N hn)]; exact iblk1_odd_0 V c n0 h0 ⟨n, lt_N hn⟩ p d)
    (fun n hn p d => by rw [b2, dif_pos (lt_N hn)]; exact iblk1_even_1 V c n1 h1 ⟨n, lt_N hn⟩ p d)
    (fun n hn p d => by rw [b3, dif_pos (lt_N hn)]; exact iblk1_odd_1 V c n1 h1 ⟨n, lt_N hn⟩ p d)
    (fun n hn p d => by rw [b4, dif_pos (lt_N hn)]; exact iblk1_even_2 V c n2 h2 ⟨n, lt_N hn⟩ p d)
    (fun n hn p d => by rw [b5, dif_pos (lt_N hn)]; exact iblk1_odd_2 V c n2 h2 ⟨n, lt_N hn⟩ p d)
    (fun n hn p d => by rw [b6, dif_pos (lt_N hn)]; exact iblk1_even_3 V c n3 h3 ⟨n, lt_N hn⟩ p d)
    (fun n hn p d => by rw [b7, dif_pos (lt_N hn)]; exact iblk1_odd_3 V c n3 h3 ⟨n, lt_N hn⟩ p d)
    (sc V c)
    (fun n hn h => by
      rw [sc, b0, b1, b2, b3, b4, b5, b6, b7]
      simp only [dif_pos (lt_N hn)]
      exact R1.scAt_first V c n (lt_N hn) h)
    (fun n hn h => by
      rw [sc, sc, b0, b1, b2, b3, b4, b5, b6, b7]
      simp only [dif_pos (lt_N hn), dif_pos (show n - 1 < cfg1.N from lt_of_le_of_lt (Nat.sub_le _ _) (lt_N hn))]
      exact R1.scAt_next V c n (lt_N hn) h)
    t.val (by have := t.isLt; omega) h7 a b
  rw [sc, dif_pos t.isLt] at key
  exact key

include h0 h1 h2 h3 in
/-- THE OUTPUT ARRAY: page i holds grid row i's sum throughout. -/
theorem arrAt_out (i : Fin 4) (a : Fin 8) (b : Fin 128) :
    (R1.dat1 V q c).arrAt 8 cfg1.N (ix3 i a b) = ((Cert.Spec.tileAcc n0 n1 n2 n3 i : ℝ) : EReal) :=
  arrAt_out_of V q c (Cert.Spec.tileAcc n0 n1 n2 n3) (fun t h7 a b => sc_last V c n0 n1 n2 n3 h0 h1 h2 h3 t h7 a b) i a b

end Cert.KernelIdeal.R1V

end
-- ==== Proof.KTail.lean ====
/-
  The last steps on the host.  From the 4 x 8 x 128 array the second region leaves, entry (i, 0, 0) of each of the
  four row bands is taken, the four entries are added up starting from zero, the sum is multiplied by one hundred
  and divided by 2^24.  When entry (i, 0, 0) is the real number acc i, the result is 100 * (acc 0 + ... + acc 3) /
  2^24: the slice, the reshape and the sum only move and add real numbers, and the division is by a non-zero real.
-/
import proofs.«181995_j31490700214616_2_alg».proof.Proof.Gen.KernelIdeal.Launch
import proofs.«181995_j31490700214616_2_alg».proof.Proof.SpecLaws
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.KTail

open Cert.KernelIdeal Cert.KernelIdeal.Gen Idealize.ShloMosaic Idealize.ShloMosaic.TcCoe Idealize.SL.Sem
open Idealize.ShloMosaic.StableHlo Idealize.ShloMosaic.ValueIdx

/-- The host's last steps as one function of the array the second region leaves. -/
def tail (y : (⟨S4x8x128, .f32⟩ : BufTy).Contents (Elt Ideal)) : (⟨S_, .f32⟩ : BufTy).Contents (Elt Ideal) :=
  Host.divf (F := Ideal)
    (mulf (constant (F := Ideal) S_ .f32 0x42C80000#32)
      (Host.reduceAdd (F := Ideal)
        (shapeCast S4 (extractStridedSlice S4x1x1 ![0, 0, 0] y slices_S4x8x128_S4x1x1_0_0_0) shapeCasts_S4x1x1_S4)
        (constant (F := Ideal) S_ .f32 0x00000000#32) reducesTo_S4_S_d0 h_S_))
    (constant (F := Ideal) S_ .f32 0x4B800000#32)

/-- What the result buffer holds after the host's last steps: that function of the region's output array. -/
theorem after_tail (W : Valuation τ sig (Elt Ideal)) :
    StableHlo.after (hostOps2 (F := Ideal)) W (Proc.devRef .tc main_v6) = tail (W (Proc.devRef .tc main_v1)) := by
  after_results
  rfl

/-- The slice at (i, u, w), u and w the coordinates of the two unit axes: the array at (i, 0, 0). -/
theorem slice_apply (y : (⟨S4x8x128, .f32⟩ : BufTy).Contents (Elt Ideal)) (h : S4x8x128.Slices ![0, 0, 0] S4x1x1)
    (i : Fin 4) (u w : Fin 1) :
    extractStridedSlice S4x1x1 ![0, 0, 0] y h (ix3 i u w) = y (ix3 i (0 : Fin 8) (0 : Fin 128)) :=
  extractStridedSlice_apply _ y h (ix3 i u w) (ix3 i (0 : Fin 8) (0 : Fin 128)) fun a => by
    match a with
    | ⟨0, _⟩ => show i.val = 0 + i.val; omega
    | ⟨1, _⟩ => show 0 = 0 + u.val; omega
    | ⟨2, _⟩ => show 0 = 0 + w.val; omega

/-- The 4 x 1 x 1 array written as a vector of four reads, at i, the array at (i, 0, 0). -/
theorem flat_apply (v : S4x1x1.Idx → EReal) (h : S4x1x1.ShapeCasts S4) (i : Fin 4) :
    shapeCast S4 v h (ix1 i) = v (ix3 i (0 : Fin 1) (0 : Fin 1)) :=
  shapeCast_apply v h _ _ (by
    rw [Shape.rowMajor_val_three, Shape.rowMajor_val_one]
    show (i.val * 1 + 0) * 1 + 0 = i.val
    omega)

/-- The sum of a vector of four from zero: the four entries added up. -/
theorem sum4_apply (x : FVec Ideal S4 .f32) (k : S_.Idx) :
    Host.reduceAdd (F := Ideal) x (constant (F := Ideal) S_ .f32 0x00000000#32) reducesTo_S4_S_d0 h_S_ k
      = ∑ i : Fin 4, x (ix1 i) := by
  simp only [Host.reduceAdd, Ideal.hostReduceAdd_def]
  rw [Ideal.hostReduceAdd_total reducesTo_S4_S_d0 (fun b => b.elim0)]
  refine (congrArg (· + _) (show constant (F := Ideal) S_ .f32 0x00000000#32 (Shape.Idx.first h_S_) = 0 from
    Cert.Spec.ofBits_zero)).trans ?_
  rw [zero_add]
  exact (Fintype.sum_equiv
    { toFun := fun i : Fin 4 => (ix1 i : S4.Idx)
      invFun := fun j => j 0
      left_inv := fun _ => rfl
      right_inv := fun j => (eq_ix1 j).symm } (fun i : Fin 4 => x (ix1 i)) x fun _ => rfl).symm

/-- The host's last steps on an array whose entry (i, 0, 0) is the real number acc i. -/
theorem tail_apply (y : (⟨S4x8x128, .f32⟩ : BufTy).Contents (Elt Ideal)) (acc : Fin 4 → ℝ)
    (hy : ∀ i : Fin 4, y (ValueIdx.ix3 i (0 : Fin 8) (0 : Fin 128)) = ((acc i : ℝ) : EReal)) :
    tail y = fun _ => (((100 * (∑ i : Fin 4, acc i) / 16777216 : ℝ)) : EReal) := by
  funext k
  unfold tail
  show Ideal.div (Ideal.ofBits .f32 0x42C80000#32 * Host.reduceAdd (F := Ideal) _ _ reducesTo_S4_S_d0 h_S_ k)
      (Ideal.ofBits .f32 0x4B800000#32) = _
  rw [sum4_apply, Cert.Spec.ofBits_hundred, Cert.Spec.ofBits_entries]
  have e : ∀ i : Fin 4, shapeCast S4 (extractStridedSlice S4x1x1 ![0, 0, 0] y slices_S4x8x128_S4x1x1_0_0_0)
      shapeCasts_S4x1x1_S4 (ix1 i) = ((acc i : ℝ) : EReal) := fun i =>
    (flat_apply _ _ i).trans ((slice_apply y _ i 0 0).trans (hy i))
  rw [Finset.sum_congr rfl fun i _ => e i, ← Cert.Spec.coe_sum, ← EReal.coe_mul,
    Ideal.div_coe (by norm_num : (16777216 : ℝ) ≠ 0), ← EReal.coe_mul, mul_one_div]

end Cert.KernelIdeal.KTail

end
-- ==== Proof.KValue.lean ====
/-
  The kernel program's result at the ideal instance, for finite inputs.

  With every input entry a real number, the first region leaves each map with its rows normalised; the second leaves,
  throughout page i of its output, the sum over the eight tiles of grid row i of the three squared-difference sums;
  the host operations add the four pages' first entries, multiply by 100 and divide by 2^24.  Regrouping the
  4096 x 4096 entries tile by tile, that is the loss.
-/
import proofs.«181995_j31490700214616_2_alg».proof.Proof.AsmMain
import proofs.«181995_j31490700214616_2_alg».proof.Proof.R0Value
import proofs.«181995_j31490700214616_2_alg».proof.Proof.R1Value
import proofs.«181995_j31490700214616_2_alg».proof.Proof.KTail
import proofs.«181995_j31490700214616_2_alg».proof.Proof.SpecLaws

noncomputable section

namespace Cert.KernelIdeal.KV

open Idealize.ShloMosaic Idealize.ShloMosaic.TcCoe Idealize.SL.Sem Idealize.ShloMosaic.ValueIdx
open Cert.KernelIdeal Cert.KernelIdeal.Gen Cert.KernelIdeal.Asm

variable (m : (ℓ : Loc nD τ sig) → Buf (Elt Ideal) ℓ) (c : Dev nD)
variable (x0 x1 x2 x3 : Fin 4096 → Fin 512 → ℝ)
variable (h0 : ∀ (r : Fin 4096) (d : Fin 512), m ((c.tc : Thread nD τ).loc main_arg0) (ix2 r d) = ((x0 r d : ℝ) : EReal))
variable (h1 : ∀ (r : Fin 4096) (d : Fin 512), m ((c.tc : Thread nD τ).loc main_arg1) (ix2 r d) = ((x1 r d : ℝ) : EReal))
variable (h2 : ∀ (r : Fin 4096) (d : Fin 512), m ((c.tc : Thread nD τ).loc main_arg2) (ix2 r d) = ((x2 r d : ℝ) : EReal))
variable (h3 : ∀ (r : Fin 4096) (d : Fin 512), m ((c.tc : Thread nD τ).loc main_arg3) (ix2 r d) = ((x3 r d : ℝ) : EReal))

include h0 in
/-- After the first region each map holds its normalised rows. -/
theorem map0 (r : Fin 4096) (d : Fin 512) : vin1 m c main_v0_0 (ix2 r d) = ((Cert.Spec.nrm x0 r d : ℝ) : EReal) := by
  show V1 m (outsOf m (a8₀ m)) c (Proc.devRef .tc (Pipeline.arrRef spec0 4)) (ix2 r d) = _
  rw [V1_out m (a8₀ m) c 4 (by decide)]
  exact R0V.arrAt_out_0 (vin0 m) c x0 (fun r d => h0 r d) r d
include h1 in
theorem map1 (r : Fin 4096) (d : Fin 512) : vin1 m c main_v0_1 (ix2 r d) = ((Cert.Spec.nrm x1 r d : ℝ) : EReal) := by
  show V1 m (outsOf m (a8₀ m)) c (Proc.devRef .tc (Pipeline.arrRef spec0 5)) (ix2 r d) = _
  rw [V1_out m (a8₀ m) c 5 (by decide)]
  exact R0V.arrAt_out_1 (vin0 m) c x1 (fun r d => h1 r d) r d
include h2 in
theorem map2 (r : Fin 4096) (d : Fin 512) : vin1 m c main_v0_2 (ix2 r d) = ((Cert.Spec.nrm x2 r d : ℝ) : EReal) := by
  show V1 m (outsOf m (a8₀ m)) c (Proc.devRef .tc (Pipeline.arrRef spec0 6)) (ix2 r d) = _
  rw [V1_out m (a8₀ m) c 6 (by decide)]
  exact R0V.arrAt_out_2 (vin0 m) c x2 (fun r d => h2 r d) r d
include h3 in
theorem map3 (r : Fin 4096) (d : Fin 512) : vin1 m c main_v0_3 (ix2 r d) = ((Cert.Spec.nrm x3 r d : ℝ) : EReal) := by
  show V1 m (outsOf m (a8₀ m)) c (Proc.devRef .tc (Pipeline.arrRef spec0 7)) (ix2 r d) = _
  rw [V1_out m (a8₀ m) c 7 (by decide)]
  exact R0V.arrAt_out_3 (vin0 m) c x3 (fun r d => h3 r d) r d

include h0 h1 h2 h3 in
/-- After the second region page i of its output holds grid row i's accumulated sum. -/
theorem page (i : Fin 4) (a : Fin 8) (b : Fin 128) :
    a8 m c (ix3 i a b) = ((Cert.Spec.tileAcc (Cert.Spec.nrm x0) (Cert.Spec.nrm x1) (Cert.Spec.nrm x2) (Cert.Spec.nrm x3) i : ℝ) : EReal) :=
  R1V.arrAt_out (vin1 m) qShared c (Cert.Spec.nrm x0) (Cert.Spec.nrm x1) (Cert.Spec.nrm x2) (Cert.Spec.nrm x3)
    (map0 m c x0 h0) (map1 m c x1 h1) (map2 m c x2 h2) (map3 m c x3 h3) i a b

include h0 h1 h2 h3 in
/-- THE RESULT: the kernel program's result buffer holds the loss. -/
theorem result_eq : V3 m (outsF m) c main_v6 = fun _ => ((Cert.Spec.loss x0 x1 x2 x3 : ℝ) : EReal) := by
  show StableHlo.after (hostOps2 (F := Ideal)) (V2 m (outsF m) c) (Proc.devRef .tc main_v6) = _
  rw [KTail.after_tail, show V2 m (outsF m) c (Proc.devRef .tc main_v1) = a8 m c from V2_v1 m (a8 m) c,
    KTail.tail_apply (a8 m c) (fun i => Cert.Spec.tileAcc (Cert.Spec.nrm x0) (Cert.Spec.nrm x1) (Cert.Spec.nrm x2) (Cert.Spec.nrm x3) i)
      (fun i => page m c x0 x1 x2 x3 h0 h1 h2 h3 i 0 0)]
  funext _
  exact congrArg (fun z : ℝ => (z : EReal)) (Cert.Spec.tiledLoss_eq x0 x1 x2 x3)

end Cert.KernelIdeal.KV

end
-- ==== Proof.RefValueNorm.lean ====
/-
  The reference's first stages, read at an index over real inputs.

  For a map whose entries are real numbers, the reference squares it, sums each row, takes the square root, keeps
  it above the small constant and divides every entry of the row by the result: at (r, d) that is the normalised
  entry nrm x r d, a real number.  The transposed copy reads it with the coordinates swapped, and the product of
  the two, at (a, b), is the inner product of the normalised rows a and b: the Gram entry gram x a b.
  The reference does this four times over, once per map, in operations that are the same text: the later three
  chains are the first by unfolding.
-/
import proofs.«181995_j31490700214616_2_alg».proof.Proof.Gen.ReferenceIdeal.Read
import proofs.«181995_j31490700214616_2_alg».proof.Proof.SpecLaws

noncomputable section

namespace Cert.RefSide

open Cert.ReferenceIdeal Cert.ReferenceIdeal.Gen Cert.ReferenceIdeal.Read Idealize.ShloMosaic
  Idealize.ShloMosaic.ValueIdx Cert.Spec

variable (X : (⟨S4096x512, .f32⟩ : BufTy).Contents (Elt Ideal)) (x : Fin 4096 → Fin 512 → ℝ)

/-- The sum of squares of row r, with the zero it starts from. -/
theorem rowsq_apply (hX : ∀ r d, X (ix2 r d) = ((x r d : ℝ) : EReal)) (r : Fin 4096) :
    val_main_call0_v1 (F := Ideal) X (ix1 r) = ((sumsq x r : ℝ) : EReal) := by
  rw [val_main_call0_v1_apply]
  have e : ∀ k : Fin 512, idx_main_call0_v1 (ix1 r) k = ix2 r k := fun k => funext fun a => by
    match a with
    | ⟨0, _⟩ => rfl
    | ⟨1, _⟩ => rfl
  simp only [e, val_main_call0_v0_apply, val_main_call0_cst_apply, hX, Ideal.ofBits_def, Ideal.mulf_def]
  rw [ofBits_zero, zero_add]
  unfold sumsq
  rw [coe_sum]
  exact Finset.sum_congr rfl fun k _ => (EReal.coe_mul _ _).symm

/-- The divisor of row r: the larger of the square root of its sum of squares and the small constant. -/
theorem divisor_apply (hX : ∀ r d, X (ix2 r d) = ((x r d : ℝ) : EReal)) (r : Fin 4096) (u : Fin 1) :
    val_main_v2 (F := Ideal) X (ix2 r u)
      = max (Ideal.sqrt ((sumsq x r : ℝ) : EReal)) (Ideal.ofBits .f32 0x2B8CBCCC#32) := by
  rw [val_main_v2_apply, val_main_v0_apply, val_main_call0_v2_apply, val_main_v1_apply, val_main_cst_apply]
  have e : idx_main_call0_v2 (ix2 r u) = ix1 r := funext fun a => by
    match a with
    | ⟨0, _⟩ => rfl
  rw [e, rowsq_apply X x hX r]
  rfl

/-- The normalised map at (r, d). -/
theorem nrm_apply (hX : ∀ r d, X (ix2 r d) = ((x r d : ℝ) : EReal)) (r : Fin 4096) (d : Fin 512) :
    val_main_v4 (F := Ideal) X (ix2 r d) = ((nrm x r d : ℝ) : EReal) := by
  rw [val_main_v4_apply, val_main_v3_apply]
  have e : idx_main_v3 (ix2 r d) = ix2 r (0 : Fin 1) := funext fun a => by
    match a with
    | ⟨0, _⟩ => rfl
    | ⟨1, _⟩ => rfl
  rw [e, divisor_apply X x hX r 0, hX]
  exact nrm_coe x r d

/-- The transposed normalised map at (d, b). -/
theorem nrmT_apply (hX : ∀ r d, X (ix2 r d) = ((x r d : ℝ) : EReal)) (d : Fin 512) (b : Fin 4096) :
    val_main_v5 (F := Ideal) X (ix2 d b) = ((nrm x b d : ℝ) : EReal) := by
  rw [val_main_v5_apply]
  have e : idx_main_v5 (ix2 d b) = ix2 b d := funext fun a => by
    match a with
    | ⟨0, _⟩ => rfl
    | ⟨1, _⟩ => rfl
  rw [e, nrm_apply X x hX b d]

/-- The Gram matrix at (a, b): the inner product of the normalised rows a and b. -/
theorem gram_apply (hX : ∀ r d, X (ix2 r d) = ((x r d : ℝ) : EReal)) (a b : Fin 4096) :
    val_main_v6 (F := Ideal) X (ix2 a b) = ((gram x a b : ℝ) : EReal) := by
  rw [val_main_v6_apply]
  have el : ∀ k : Fin 512, lidx_main_v6 (ix2 a b) k = ix2 a k := fun k => funext fun c => by
    match c with
    | ⟨0, _⟩ => rfl
    | ⟨1, _⟩ => rfl
  have er : ∀ k : Fin 512, ridx_main_v6 (ix2 a b) k = ix2 k b := fun k => funext fun c => by
    match c with
    | ⟨0, _⟩ => rfl
    | ⟨1, _⟩ => rfl
  simp only [el, er, nrm_apply X x hX, nrmT_apply X x hX]
  unfold gram gramOf
  rw [coe_sum]
  exact Finset.sum_congr rfl fun k _ => (EReal.coe_mul _ _).symm

/-! The other three maps go through the same operations. -/

theorem v13_eq : val_main_v13 (F := Ideal) X = val_main_v6 (F := Ideal) X := rfl
theorem v20_eq : val_main_v20 (F := Ideal) X = val_main_v6 (F := Ideal) X := rfl
theorem v27_eq : val_main_v27 (F := Ideal) X = val_main_v6 (F := Ideal) X := rfl

end Cert.RefSide

end
-- ==== Proof.RefValueLoss.lean ====
/-
  The reference's later stages over real inputs: from the Gram matrices to the loss.

  Each of the first three Gram matrices and the fourth are multiplied by ten, subtracted and squared entry by
  entry; at (a, b) that is the real number (10 g3 - 10 gk)^2 = 100 (g3 - gk)^2.  The sum over all entries, taken
  from zero, is the sum of those real numbers, one hundred times the squared-difference sum of the
  specification; it is divided by the number of entries, a nonzero real number, and the three quotients are
  added.  Every intermediate value is a real number, so the additions and the division are those of the reals,
  and the result is the loss.
-/
import proofs.«181995_j31490700214616_2_alg».proof.Proof.RefValueNorm

noncomputable section

namespace Cert.RefSide

open Cert.ReferenceIdeal Cert.ReferenceIdeal.Gen Cert.ReferenceIdeal.Read Idealize.ShloMosaic
  Idealize.ShloMosaic.ValueIdx Cert.Spec

variable (X Y : (⟨S4096x512, .f32⟩ : BufTy).Contents (Elt Ideal)) (x y : Fin 4096 → Fin 512 → ℝ)

/-- The squared difference of the scaled Gram matrices of the maps y and x, at (a, b). -/
theorem sq_apply (hX : ∀ r d, X (ix2 r d) = ((x r d : ℝ) : EReal)) (hY : ∀ r d, Y (ix2 r d) = ((y r d : ℝ) : EReal))
    (a b : Fin 4096) :
    val_main_v33 (F := Ideal) X Y (ix2 a b)
      = (((gram y a b * 10 - gram x a b * 10) * (gram y a b * 10 - gram x a b * 10) : ℝ) : EReal) := by
  rw [val_main_v33_apply, val_main_v32_apply, val_main_v29_apply, val_main_v31_apply, val_main_v28_apply,
    val_main_v30_apply, val_main_cst_3_apply, val_main_cst_4_apply, v27_eq, gram_apply Y y hY, gram_apply X x hX]
  simp only [Ideal.ofBits_def, Ideal.mulf_def, Ideal.subf_def, ofBits_ten, ← EReal.coe_mul, ← EReal.coe_sub]

/-- The sum of the squared differences over all entries: one hundred times the specification's sum. -/
theorem sqsum_apply (hX : ∀ r d, X (ix2 r d) = ((x r d : ℝ) : EReal)) (hY : ∀ r d, Y (ix2 r d) = ((y r d : ℝ) : EReal))
    (i : S_.Idx) :
    val_main_v34 (F := Ideal) X Y i = ((100 * sqd x y : ℝ) : EReal) := by
  rw [val_main_v34_apply, val_main_cst_5_apply, sum_idx2]
  simp only [sq_apply X Y x y hX hY, Ideal.ofBits_def, ofBits_zero, zero_add, ← coe_sum]
  refine congrArg _ ?_
  unfold sqd
  rw [Finset.mul_sum]
  refine Finset.sum_congr rfl fun a _ => ?_
  rw [Finset.mul_sum]
  exact Finset.sum_congr rfl fun b _ => by ring

/-- That sum divided by the number of entries. -/
theorem mean_apply (hX : ∀ r d, X (ix2 r d) = ((x r d : ℝ) : EReal)) (hY : ∀ r d, Y (ix2 r d) = ((y r d : ℝ) : EReal))
    (i : S_.Idx) :
    val_main_v35 (F := Ideal) X Y i = ((100 * sqd x y / 16777216 : ℝ) : EReal) := by
  rw [val_main_v35_apply, sqsum_apply X Y x y hX hY, val_main_cst_6_apply, Ideal.hostDivf_def, Ideal.ofBits_def,
    ofBits_entries, Ideal.div_coe (by norm_num), ← EReal.coe_mul, mul_one_div]

/-! The second and third differences go through the same operations as the first. -/

theorem v43_eq : val_main_v43 (F := Ideal) X Y = val_main_v35 (F := Ideal) X Y := rfl
theorem v51_eq : val_main_v51 (F := Ideal) X Y = val_main_v35 (F := Ideal) X Y := rfl

/-- The reference's result: the loss of the four real maps. -/
theorem loss_apply (X0 X1 X2 X3 : (⟨S4096x512, .f32⟩ : BufTy).Contents (Elt Ideal)) (x0 x1 x2 x3 : Fin 4096 → Fin 512 → ℝ)
    (h0 : ∀ r d, X0 (ix2 r d) = ((x0 r d : ℝ) : EReal)) (h1 : ∀ r d, X1 (ix2 r d) = ((x1 r d : ℝ) : EReal))
    (h2 : ∀ r d, X2 (ix2 r d) = ((x2 r d : ℝ) : EReal)) (h3 : ∀ r d, X3 (ix2 r d) = ((x3 r d : ℝ) : EReal))
    (i : S_.Idx) :
    val_main_v53 (F := Ideal) X0 X1 X2 X3 i = ((loss x0 x1 x2 x3 : ℝ) : EReal) := by
  rw [val_main_v53_apply, val_main_v52_apply, v43_eq, v51_eq, mean_apply X0 X3 x0 x3 h0 h3,
    mean_apply X1 X3 x1 x3 h1 h3, mean_apply X2 X3 x2 x3 h2 h3, Ideal.addf_def, Ideal.addf_def,
    ← EReal.coe_add, ← EReal.coe_add]
  refine congrArg _ ?_
  unfold loss
  ring

end Cert.RefSide

end
-- ==== Proof.RefValue.lean ====
/-
  The reference's run ends at the loss.

  From a memory whose four argument maps are maps of real numbers, every weakly fair execution of the reference
  terminates with its result equal to the loss of those maps, as an extended real, and with the argument maps
  unchanged: the run's result is the last stage of the reference's operations, and that stage is the loss.
-/
import proofs.«181995_j31490700214616_2_alg».proof.Proof.RefValueLoss

noncomputable section

namespace Cert.RefSide

open Idealize.ShloMosaic Idealize.SL.Sem

theorem run_loss
    (m' : (ℓ : Loc Cert.ReferenceIdeal.nD Cert.ReferenceIdeal.τ Cert.ReferenceIdeal.sig) → Buf (Elt Ideal) ℓ)
    (ρ' : Dev Cert.ReferenceIdeal.nD → PrngReg)
    (x0 x1 x2 x3 : Dev Cert.ReferenceIdeal.nD → Fin 4096 → Fin 512 → ℝ)
    (h0 : ∀ (c : Dev Cert.ReferenceIdeal.nD) (r : Fin 4096) (d : Fin 512), m' ((c.tc : Thread Cert.ReferenceIdeal.nD Cert.ReferenceIdeal.τ).loc Cert.ReferenceIdeal.main_arg0)
        (ValueIdx.ix2 r d) = ((x0 c r d : ℝ) : EReal))
    (h1 : ∀ (c : Dev Cert.ReferenceIdeal.nD) (r : Fin 4096) (d : Fin 512), m' ((c.tc : Thread Cert.ReferenceIdeal.nD Cert.ReferenceIdeal.τ).loc Cert.ReferenceIdeal.main_arg1)
        (ValueIdx.ix2 r d) = ((x1 c r d : ℝ) : EReal))
    (h2 : ∀ (c : Dev Cert.ReferenceIdeal.nD) (r : Fin 4096) (d : Fin 512), m' ((c.tc : Thread Cert.ReferenceIdeal.nD Cert.ReferenceIdeal.τ).loc Cert.ReferenceIdeal.main_arg2)
        (ValueIdx.ix2 r d) = ((x2 c r d : ℝ) : EReal))
    (h3 : ∀ (c : Dev Cert.ReferenceIdeal.nD) (r : Fin 4096) (d : Fin 512), m' ((c.tc : Thread Cert.ReferenceIdeal.nD Cert.ReferenceIdeal.τ).loc Cert.ReferenceIdeal.main_arg3)
        (ValueIdx.ix2 r d) = ((x3 c r d : ℝ) : EReal)) :
    θ_run (Cert.ReferenceIdeal.defs (F := Ideal))
      (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v53)
            = (fun _ => ((Cert.Spec.loss (x0 c) (x1 c) (x2 c) (x3 c) : ℝ) : EReal))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
            = m' ((c.tc : Thread Cert.ReferenceIdeal.nD Cert.ReferenceIdeal.τ).loc Cert.ReferenceIdeal.main_arg3)) :=
  (θ_run (Cert.ReferenceIdeal.defs (F := Ideal)) _ _).mono
    (fun _ h c =>
      ⟨(h c).1.trans ((Cert.ReferenceIdeal.Read.val_main_v53_eq m' c).trans
          (funext fun i => loss_apply _ _ _ _ (x0 c) (x1 c) (x2 c) (x3 c) (h0 c) (h1 c) (h2 c) (h3 c) i)),
        (h c).2⟩)
    (Cert.ReferenceIdeal.Value.run (F := Ideal) m' ρ')

end Cert.RefSide

end
-- ==== Proof.Finite.lean ====
/-
  From the precondition to real inputs.

  The precondition says, of each of the four maps, that every entry's absolute value is below plus infinity, all
  four statements joined by "and".  An extended real whose absolute value (the larger of it and its negative) is
  below plus infinity is neither infinity, so it is a real number.  Hence each map is, entry by entry, a map of
  real numbers.
-/
import proofs.«181995_j31490700214616_2_alg».proof.Defs
import Idealize.ShloMosaic.Lib.ReduceAll
import Idealize.ShloMosaic.Lib.ValueIdx

noncomputable section

namespace Cert.Finite

open Idealize.ShloMosaic Idealize.SL.Sem

/-- The pattern of plus infinity denotes plus infinity. -/
theorem ofBits_inf : Ideal.ofBits .f32 0x7F800000#32 = ⊤ := by simp [Ideal.ofBits, Ideal.ieee]

/-- An extended real whose absolute value compares below plus infinity is a real number. -/
theorem real_of_abs_lt (v : EReal)
    (h : FloatOps.cmpf (F := Ideal) (φ := .f32) .olt (FloatOps.hostAbsf (F := Ideal) (φ := .f32) v)
      (FloatOps.ofBits (F := Ideal) .f32 0x7F800000#32) = 1#1) : v ≠ ⊤ ∧ v ≠ ⊥ := by
  have hlt : max v (-v) < (⊤ : EReal) := by
    by_contra hn
    have : Ideal.cmp .olt (max v (-v)) (Ideal.ofBits .f32 0x7F800000#32) = 0#1 := by
      rw [ofBits_inf]; simp [Ideal.cmp, hn]
    exact absurd (this.symm.trans h) (by decide)
  induction v using EReal.rec with
  | bot => exact absurd hlt (by simp)
  | top => exact absurd hlt (by simp)
  | coe r => exact ⟨EReal.coe_ne_top r, EReal.coe_ne_bot r⟩

instance : Subsingleton Cert.Pre_finite_inputs.S_.Idx := ⟨fun a b => funext fun d => d.elim0⟩

/-- One map's part of the precondition: if "every entry's absolute value is below plus infinity" holds, every
    entry is a real number. -/
theorem real_of_all [Cert.Pre_finite_inputs.Facts] (A : FVec Ideal Cert.Pre_finite_inputs.S4096x512 .f32)
    (init : IVec Cert.Pre_finite_inputs.S_ 1)
    (h : Host.reduce IntOp.andi
        (cmpf .olt (Host.absf A)
          (broadcastInDim Cert.Pre_finite_inputs.S4096x512 ![] Cert.Pre_finite_inputs.Facts.bcast_S_S4096x512
            (constant Cert.Pre_finite_inputs.S_ .f32 0x7F800000#32)))
        init Cert.Pre_finite_inputs.Facts.reducesTo_S4096x512_S_d0_1 Cert.Pre_finite_inputs.Facts.h_S_ ValueIdx.ix0 = 1#1)
    (i : Cert.Pre_finite_inputs.S4096x512.Idx) : A i ≠ ⊤ ∧ A i ≠ ⊥ :=
  real_of_abs_lt (A i) (Host.reduce_andi_all _ init _ _ ValueIdx.ix0 h i)

/-- A map all of whose entries are real numbers is a map of real numbers. -/
theorem exists_real (A : FVec Ideal Cert.Pre_finite_inputs.S4096x512 .f32) (h : ∀ i, A i ≠ ⊤ ∧ A i ≠ ⊥) :
    ∃ x : Fin 4096 → Fin 512 → ℝ, ∀ r d, A (ValueIdx.ix2 r d) = ((x r d : ℝ) : EReal) :=
  ⟨fun r d => (A (ValueIdx.ix2 r d)).toReal, fun r d => (EReal.coe_toReal (h _).1 (h _).2).symm⟩

/-- Under the precondition the four argument maps are maps of real numbers. -/
theorem reals_of_pre [hK : Cert.KernelIdeal.Facts] [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∃ x0 x1 x2 x3 : Fin 4096 → Fin 512 → ℝ,
      (∀ (r : Fin 4096) (d : Fin 512), m ((c.tc : Thread Cert.KernelIdeal.nD Cert.KernelIdeal.τ).loc Cert.KernelIdeal.main_arg0) (ValueIdx.ix2 r d)
          = ((x0 r d : ℝ) : EReal))
      ∧ (∀ (r : Fin 4096) (d : Fin 512), m ((c.tc : Thread Cert.KernelIdeal.nD Cert.KernelIdeal.τ).loc Cert.KernelIdeal.main_arg1) (ValueIdx.ix2 r d)
          = ((x1 r d : ℝ) : EReal))
      ∧ (∀ (r : Fin 4096) (d : Fin 512), m ((c.tc : Thread Cert.KernelIdeal.nD Cert.KernelIdeal.τ).loc Cert.KernelIdeal.main_arg2) (ValueIdx.ix2 r d)
          = ((x2 r d : ℝ) : EReal))
      ∧ (∀ (r : Fin 4096) (d : Fin 512), m ((c.tc : Thread Cert.KernelIdeal.nD Cert.KernelIdeal.τ).loc Cert.KernelIdeal.main_arg3) (ValueIdx.ix2 r d)
          = ((x3 r d : ℝ) : EReal)) := by
  have h1 := congrFun (h c) ValueIdx.ix0
  dsimp only [Cert.Pre_finite_inputs.fn, Cert.Pre_finite_inputs.fn_part1, andi] at h1
  obtain ⟨h012, h3⟩ := IntOp.andi_eq_one.1 h1
  obtain ⟨h01, h2⟩ := IntOp.andi_eq_one.1 h012
  obtain ⟨h0, h1'⟩ := IntOp.andi_eq_one.1 h01
  obtain ⟨x0, e0⟩ := exists_real _ (real_of_all _ _ h0)
  obtain ⟨x1, e1⟩ := exists_real _ (real_of_all _ _ h1')
  obtain ⟨x2, e2⟩ := exists_real _ (real_of_all _ _ h2)
  obtain ⟨x3, e3⟩ := exists_real _ (real_of_all _ _ h3)
  exact ⟨x0, x1, x2, x3, e0, e1, e2, e3⟩

end Cert.Finite

end
-- ==== Proof.lean ====
/-
  The five claims.

  Both kernel programs (the word-level one and its idealization) run two pipelined kernel regions and a few host
  operations: every weakly fair execution terminates, nothing faults and the arguments are only read.  The regions'
  records come from their bodies' obligations; the second region's windows share the four normalised maps, each
  map's buffer divided between the two windows that read it.  The idealization rewrote nothing, so it preserves the
  word-level program trivially.  At the ideal instance, for finite inputs, the kernel program's result is the loss
  written tile by tile and the reference's is the loss written over whole matrices: the same real number.
-/
import proofs.«181995_j31490700214616_2_alg».proof.Defs
import proofs.«181995_j31490700214616_2_alg».proof.Proof.Gen.Kernel
import proofs.«181995_j31490700214616_2_alg».proof.Proof.Gen.KernelIdeal
import proofs.«181995_j31490700214616_2_alg».proof.Proof.Gen.ReferenceIdeal
import proofs.«181995_j31490700214616_2_alg».proof.Proof.Gen.Pre_finite_inputs
import proofs.«181995_j31490700214616_2_alg».proof.Proof.Gen.ReferenceIdeal.Run
import proofs.«181995_j31490700214616_2_alg».proof.Proof.WAsmMain
import proofs.«181995_j31490700214616_2_alg».proof.Proof.AsmMain
import proofs.«181995_j31490700214616_2_alg».proof.Proof.KValue
import proofs.«181995_j31490700214616_2_alg».proof.Proof.RefValue
import proofs.«181995_j31490700214616_2_alg».proof.Proof.Finite
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Asm.frame (F := Bits) m ρ

/-- So does its idealization. -/
theorem frame_ki : Cert.frame_KernelIdeal := fun m ρ _ => Cert.KernelIdeal.Asm.frame (F := Ideal) m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- For finite inputs both idealized programs end at the loss of the inputs' real values. -/
theorem algebraic : Cert.algebraic_KernelIdeal_ReferenceIdeal := by
  intro m ρ m' ρ' hpre hagree
  choose x0 x1 x2 x3 hx using fun c => Cert.Finite.reals_of_pre m hpre c
  refine ⟨fun c _ => ((Cert.Spec.loss (x0 c) (x1 c) (x2 c) (x3 c) : ℝ) : EReal), ?_, ?_⟩
  · refine (θ_run (Cert.KernelIdeal.defs (F := Ideal)) _ _).mono (fun r h c => ⟨(h c).1.trans ?_, (h c).2⟩)
      (Cert.KernelIdeal.Asm.run_value (F := Ideal) m ρ)
    exact Cert.KernelIdeal.KV.result_eq m c (x0 c) (x1 c) (x2 c) (x3 c) (hx c).1 (hx c).2.1 (hx c).2.2.1 (hx c).2.2.2
  · exact Cert.RefSide.run_loss m' ρ' x0 x1 x2 x3
      (fun c r d => by rw [(hagree c).1]; exact (hx c).1 r d)
      (fun c r d => by rw [(hagree c).2.1]; exact (hx c).2.1 r d)
      (fun c r d => by rw [(hagree c).2.2.1]; exact (hx c).2.2.1 r d)
      (fun c r d => by rw [(hagree c).2.2.2]; exact (hx c).2.2.2 r d)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
